-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x320000 : Shape := ⟨2, ![2, 320000]⟩
abbrev S10000 : Shape := ⟨1, ![10000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x512 .f32) (main_arg1 : IVec S2x320000 32) (main_arg2 : IVec S10000 32) (main_arg3 : FVec F S512x256 .f32) (main_arg4 : FVec F S256 .f32) (main_arg5 : FVec F S256x128 .f32) (main_arg6 : FVec F S128 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S10000x512 : Shape := ⟨2, ![10000, 512]⟩
abbrev S2x320000 : Shape := ⟨2, ![2, 320000]⟩
abbrev S10000 : Shape := ⟨1, ![10000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x256 : Shape := ⟨2, ![10000, 256]⟩
abbrev S1000x512 : Shape := ⟨2, ![1000, 512]⟩
abbrev S1000x256 : Shape := ⟨2, ![1000, 256]⟩
abbrev S330000x256 : Shape := ⟨2, ![330000, 256]⟩
abbrev S1x256 : Shape := ⟨2, ![1, 256]⟩
abbrev S10000x128 : Shape := ⟨2, ![10000, 128]⟩
abbrev S1000x128 : Shape := ⟨2, ![1000, 128]⟩
abbrev S330000x128 : Shape := ⟨2, ![330000, 128]⟩
abbrev S1x128 : Shape := ⟨2, ![1, 128]⟩
abbrev S10000x10000 : Shape := ⟨2, ![10000, 10000]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 126
  | .vmem => 16
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S10000, .i32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S10000, .i32⟩
  | .hbm, ⟨12, _⟩ => ⟨S330000, .i32⟩
  | .hbm, ⟨13, _⟩ => ⟨S330000, .i32⟩
  | .hbm, ⟨14, _⟩ => ⟨S_, .f32⟩
  | .hbm, ⟨15, _⟩ => ⟨S330000, .f32⟩
  | .hbm, ⟨16, _⟩ => ⟨S_, .f32⟩
  | .hbm, ⟨17, _⟩ => ⟨S10000, .f32⟩
  | .hbm, ⟨18, _⟩ => ⟨S330000x1, .i32⟩
  | .hbm, ⟨19, _⟩ => ⟨S10000, .f32⟩
  | .hbm, ⟨20, _⟩ => ⟨S10000, .f32⟩
  | .hbm, ⟨21, _⟩ => ⟨S_, .i32⟩
  | .hbm, ⟨22, _⟩ => ⟨S330000, .i32⟩
  | .hbm, ⟨23, _⟩ => ⟨S330000, .i1⟩
  | .hbm, ⟨24, _⟩ => ⟨S_, .i32⟩
  | .hbm, ⟨25, _⟩ => ⟨S330000, .i32⟩
  | .hbm, ⟨26, _⟩ => ⟨S330000, .i32⟩
  | .hbm, ⟨27, _⟩ => ⟨S330000, .i32⟩
  | .hbm, ⟨28, _⟩ => ⟨S330000x1, .i32⟩
  | .hbm, ⟨29, _⟩ => ⟨S330000, .f32⟩
  | .hbm, ⟨30, _⟩ => ⟨S_, .i32⟩
  | .hbm, ⟨31, _⟩ => ⟨S330000, .i32⟩
  | .hbm, ⟨32, _⟩ => ⟨S330000, .i1⟩
  | .hbm, ⟨33, _⟩ => ⟨S_, .i32⟩
  | .hbm, ⟨34, _⟩ => ⟨S330000, .i32⟩
  | .hbm, ⟨35, _⟩ => ⟨S330000, .i32⟩
  | .hbm, ⟨36, _⟩ => ⟨S330000, .i32⟩
  | .hbm, ⟨37, _⟩ => ⟨S330000x1, .i32⟩
  | .hbm, ⟨38, _⟩ => ⟨S330000, .f32⟩
  | .hbm, ⟨39, _⟩ => ⟨S330000, .f32⟩
  | .hbm, ⟨40, _⟩ => ⟨S10000x256, .f32⟩
  | .hbm, ⟨41, _⟩ => ⟨S_, .i32⟩
  | .hbm, ⟨42, _⟩ => ⟨S330000, .i32⟩
  | .hbm, ⟨43, _⟩ => ⟨S330000, .i1⟩
  | .hbm, ⟨44, _⟩ => ⟨S_, .i32⟩
  | .hbm, ⟨45, _⟩ => ⟨S330000, .i32⟩
  | .hbm, ⟨46, _⟩ => ⟨S330000, .i32⟩
  | .hbm, ⟨47, _⟩ => ⟨S330000, .i32⟩
  | .hbm, ⟨48, _⟩ => ⟨S330000x1, .i32⟩
  | .hbm, ⟨49, _⟩ => ⟨S330000x256, .f32⟩
  | .hbm, ⟨50, _⟩ => ⟨S330000x1, .f32⟩
  | .hbm, ⟨51, _⟩ => ⟨S330000x256, .f32⟩
  | .hbm, ⟨52, _⟩ => ⟨S330000x256, .f32⟩
  | .hbm, ⟨53, _⟩ => ⟨S_, .f32⟩
  | .hbm, ⟨54, _⟩ => ⟨S10000x256, .f32⟩
  | .hbm, ⟨55, _⟩ => ⟨S330000x1, .i32⟩
  | .hbm, ⟨56, _⟩ => ⟨S10000x256, .f32⟩
  | .hbm, ⟨57, _⟩ => ⟨S1x256, .f32⟩
  | .hbm, ⟨58, _⟩ => ⟨S10000x256, .f32⟩
  | .hbm, ⟨59, _⟩ => ⟨S10000x256, .f32⟩
  | .hbm, ⟨60, _⟩ => ⟨S_, .f32⟩
  | .hbm, ⟨61, _⟩ => ⟨S_, .f32⟩
  | .hbm, ⟨62, _⟩ => ⟨S10000x256, .f32⟩
  | .hbm, ⟨63, _⟩ => ⟨S10000x256, .i1⟩
  | .hbm, ⟨64, _⟩ => ⟨S_, .f32⟩
  | .hbm, ⟨65, _⟩ => ⟨S10000x256, .f32⟩
  | .hbm, ⟨66, _⟩ => ⟨S10000x256, .f32⟩
  | .hbm, ⟨67, _⟩ => ⟨S10000x256, .f32⟩
  | .hbm, ⟨68, _⟩ => ⟨S10000, .i32⟩
  | .hbm, ⟨69, _⟩ => ⟨S330000, .i32⟩
  | .hbm, ⟨70, _⟩ => ⟨S330000, .i32⟩
  | .hbm, ⟨71, _⟩ => ⟨S_, .f32⟩
  | .hbm, ⟨72, _⟩ => ⟨S330000, .f32⟩
  | .hbm, ⟨73, _⟩ => ⟨S_, .f32⟩
  | .hbm, ⟨74, _⟩ => ⟨S10000, .f32⟩
  | .hbm, ⟨75, _⟩ => ⟨S330000x1, .i32⟩
  | .hbm, ⟨76, _⟩ => ⟨S10000, .f32⟩
  | .hbm, ⟨77, _⟩ => ⟨S10000, .f32⟩
  | .hbm, ⟨78, _⟩ => ⟨S_, .i32⟩
  | .hbm, ⟨79, _⟩ => ⟨S330000, .i32⟩
  | .hbm, ⟨80, _⟩ => ⟨S330000, .i1⟩
  | .hbm, ⟨81, _⟩ => ⟨S_, .i32⟩
  | .hbm, ⟨82, _⟩ => ⟨S330000, .i32⟩
  | .hbm, ⟨83, _⟩ => ⟨S330000, .i32⟩
  | .hbm, ⟨84, _⟩ => ⟨S330000, .i32⟩
  | .hbm, ⟨85, _⟩ => ⟨S330000x1, .i32⟩
  | .hbm, ⟨86, _⟩ => ⟨S330000, .f32⟩
  | .hbm, ⟨87, _⟩ => ⟨S_, .i32⟩
  | .hbm, ⟨88, _⟩ => ⟨S330000, .i32⟩
  | .hbm, ⟨89, _⟩ => ⟨S330000, .i1⟩
  | .hbm, ⟨90, _⟩ => ⟨S_, .i32⟩
  | .hbm, ⟨91, _⟩ => ⟨S330000, .i32⟩
  | .hbm, ⟨92, _⟩ => ⟨S330000, .i32⟩
  | .hbm, ⟨93, _⟩ => ⟨S330000, .i32⟩
  | .hbm, ⟨94, _⟩ => ⟨S330000x1, .i32⟩
  | .hbm, ⟨95, _⟩ => ⟨S330000, .f32⟩
  | .hbm, ⟨96, _⟩ => ⟨S330000, .f32⟩
  | .hbm, ⟨97, _⟩ => ⟨S10000x128, .f32⟩
  | .hbm, ⟨98, _⟩ => ⟨S_, .i32⟩
  | .hbm, ⟨99, _⟩ => ⟨S330000, .i32⟩
  | .hbm, ⟨100, _⟩ => ⟨S330000, .i1⟩
  | .hbm, ⟨101, _⟩ => ⟨S_, .i32⟩
  | .hbm, ⟨102, _⟩ => ⟨S330000, .i32⟩
  | .hbm, ⟨103, _⟩ => ⟨S330000, .i32⟩
  | .hbm, ⟨104, _⟩ => ⟨S330000, .i32⟩
  | .hbm, ⟨105, _⟩ => ⟨S330000x1, .i32⟩
  | .hbm, ⟨106, _⟩ => ⟨S330000x128, .f32⟩
  | .hbm, ⟨107, _⟩ => ⟨S330000x1, .f32⟩
  | .hbm, ⟨108, _⟩ => ⟨S330000x128, .f32⟩
  | .hbm, ⟨109, _⟩ => ⟨S330000x128, .f32⟩
  | .hbm, ⟨110, _⟩ => ⟨S_, .f32⟩
  | .hbm, ⟨111, _⟩ => ⟨S10000x128, .f32⟩
  | .hbm, ⟨112, _⟩ => ⟨S330000x1, .i32⟩
  | .hbm, ⟨113, _⟩ => ⟨S10000x128, .f32⟩
  | .hbm, ⟨114, _⟩ => ⟨S1x128, .f32⟩
  | .hbm, ⟨115, _⟩ => ⟨S10000x128, .f32⟩
  | .hbm, ⟨116, _⟩ => ⟨S10000x128, .f32⟩
  | .hbm, ⟨117, _⟩ => ⟨S_, .f32⟩
  | .hbm, ⟨118, _⟩ => ⟨S_, .f32⟩
  | .hbm, ⟨119, _⟩ => ⟨S10000x128, .f32⟩
  | .hbm, ⟨120, _⟩ => ⟨S10000x128, .i1⟩
  | .hbm, ⟨121, _⟩ => ⟨S_, .f32⟩
  | .hbm, ⟨122, _⟩ => ⟨S10000x128, .f32⟩
  | .hbm, ⟨123, _⟩ => ⟨S10000x128, .f32⟩
  | .hbm, ⟨124, _⟩ => ⟨S10000x128, .f32⟩
  | .hbm, ⟨125, _⟩ => ⟨S10000x10000, .f32⟩
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S256x128, .f32⟩
  | .local _ .vmem, ⟨8, _⟩ => ⟨S1000x128, .f32⟩
  | .local _ .vmem, ⟨9, _⟩ => ⟨S1000x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .f32⟩
  | .local _ .vmem, ⟨15, _⟩ => ⟨S1024x1024, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_call1_cst : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_v85 : Ref sig .tc := ⟨.hbm, 124, rfl⟩
abbrev main_v86 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![10, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1000x256_S1000x256_0_0 : ∀ a, (![0, 0] : Fin 2 → Nat) a + S1000x256.size a ≤ S1000x256.size a
  h_S1000x256 : 0 < S1000x256.numel
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  inb_S1000x128_S1000x128_0_0 : ∀ a, (![0, 0] : Fin 2 → Nat) a + S1000x128.size a ≤ S1000x128.size a
  h_S1000x128 : 0 < S1000x128.numel
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S1000x512_S512x256_S1000x256_1_0_0_1_n_n_wf : DotDims.WF S1000x512 S512x256 S1000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S1000x256_S256x128_S1000x128_1_0_0_1_n_n_wf : DotDims.WF S1000x256 S256x128 S1000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S10000x128.size a
  hwx1_2 : ∀ i : grid1.Coords, EltTy.bits .f32 = 32 ∨ (Rect.block (s := S10000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S1024x128.size a < S10000x128.size a
  hwx2_0 : ∀ i : grid2.Coords, EltTy.bits .f32 = 32 ∨ (Rect.unit (s := S10000x128) (fun a => cc2_transform_0 i a * S1024x128.size a) (fun a => (Pipeline.Clip.of (cc2_transform_0 i a) (S1024x128.size a) (S10000x128.size a)).extent (S1024x128.size a)) fun a => Pipeline.Clip.inb (Pipeline.Clip.ok_of (hstart2_0 i a))).WholeWords (EltTy.packing .f32)
  hwxs2_0 : ∀ i : grid2.Coords, EltTy.bits .f32 = 32 ∨ (Rect.unit (s := S1024x128) (fun _ => 0) (fun a => (Pipeline.Clip.of (cc2_transform_0 i a) (S1024x128.size a) (S10000x128.size a)).extent (S1024x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S1024x128.size a < S10000x128.size a
  hwx2_1 : ∀ i : grid2.Coords, EltTy.bits .f32 = 32 ∨ (Rect.unit (s := S10000x128) (fun a => cc2_transform_1 i a * S1024x128.size a) (fun a => (Pipeline.Clip.of (cc2_transform_1 i a) (S1024x128.size a) (S10000x128.size a)).extent (S1024x128.size a)) fun a => Pipeline.Clip.inb (Pipeline.Clip.ok_of (hstart2_1 i a))).WholeWords (EltTy.packing .f32)
  hwxs2_1 : ∀ i : grid2.Coords, EltTy.bits .f32 = 32 ∨ (Rect.unit (s := S1024x128) (fun _ => 0) (fun a => (Pipeline.Clip.of (cc2_transform_1 i a) (S1024x128.size a) (S10000x128.size a)).extent (S1024x128.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1024x1024.size a < S10000x10000.size a
  hwx2_2 : ∀ i : grid2.Coords, EltTy.bits .f32 = 32 ∨ (Rect.unit (s := S10000x10000) (fun a => cc2_transform_2 i a * S1024x1024.size a) (fun a => (Pipeline.Clip.of (cc2_transform_2 i a) (S1024x1024.size a) (S10000x10000.size a)).extent (S1024x1024.size a)) fun a => Pipeline.Clip.inb (Pipeline.Clip.ok_of (hstart2_2 i a))).WholeWords (EltTy.packing .f32)
  hwxs2_2 : ∀ i : grid2.Coords, EltTy.bits .f32 = 32 ∨ (Rect.unit (s := S1024x1024) (fun _ => 0) (fun a => (Pipeline.Clip.of (cc2_transform_2 i a) (S1024x1024.size a) (S10000x10000.size a)).extent (S1024x1024.size a)) fun a => (Nat.zero_add _).trans_le (Pipeline.Clip.extent_le (Pipeline.Clip.ok_of (hstart2_2 i a)))).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v68) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpecClip (Memref.whole main_v85) S1024x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v85) S1024x128.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v86) S1024x1024.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x512 : Shape := ⟨2, ![10000, 512]⟩
abbrev S2x320000 : Shape := ⟨2, ![2, 320000]⟩
abbrev S10000 : Shape := ⟨1, ![10000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x256 : Shape := ⟨2, ![10000, 256]⟩
abbrev S330000x256 : Shape := ⟨2, ![330000, 256]⟩
abbrev S1x256 : Shape := ⟨2, ![1, 256]⟩
abbrev S10000x128 : Shape := ⟨2, ![10000, 128]⟩
abbrev S330000x128 : Shape := ⟨2, ![330000, 128]⟩
abbrev S1x128 : Shape := ⟨2, ![1, 128]⟩
abbrev S128x10000 : Shape := ⟨2, ![128, 10000]⟩
abbrev S10000x10000 : Shape := ⟨2, ![10000, 10000]⟩

abbrev nBuf : Space → Nat
  | .hbm => 135
  | .vmem => 0
  | .smem => 0
  | _ => 0

abbrev hbmTy0_0 (i : Nat) : BufTy := match i % 128 with
  | 0 => ⟨S10000x512, .f32⟩
  | 1 => ⟨S2x320000, .i32⟩
  | 2 => ⟨S10000, .i32⟩
  | 3 => ⟨S512x256, .f32⟩
  | 4 => ⟨S256, .f32⟩
  | 5 => ⟨S256x128, .f32⟩
  | 6 => ⟨S128, .f32⟩
  | 7 => ⟨S1x320000, .i32⟩
  | 8 => ⟨S320000, .i32⟩
  | 9 => ⟨S1x320000, .i32⟩
  | 10 => ⟨S320000, .i32⟩
  | 11 => ⟨S10000, .i32⟩
  | 12 => ⟨S330000, .i32⟩
  | 13 => ⟨S330000, .i32⟩
  | 14 => ⟨S_, .f32⟩
  | 15 => ⟨S330000, .f32⟩
  | 16 => ⟨S_, .f32⟩
  | 17 => ⟨S10000, .f32⟩
  | 18 => ⟨S330000x1, .i32⟩
  | 19 => ⟨S10000, .f32⟩
  | 20 => ⟨S10000, .f32⟩
  | 21 => ⟨S_, .i32⟩
  | 22 => ⟨S330000, .i32⟩
  | 23 => ⟨S330000, .i1⟩
  | 24 => ⟨S_, .i32⟩
  | 25 => ⟨S330000, .i32⟩
  | 26 => ⟨S330000, .i32⟩
  | 27 => ⟨S330000, .i32⟩
  | 28 => ⟨S330000x1, .i32⟩
  | 29 => ⟨S330000, .f32⟩
  | 30 => ⟨S_, .i32⟩
  | 31 => ⟨S330000, .i32⟩
  | 32 => ⟨S330000, .i1⟩
  | 33 => ⟨S_, .i32⟩
  | 34 => ⟨S330000, .i32⟩
  | 35 => ⟨S330000, .i32⟩
  | 36 => ⟨S330000, .i32⟩
  | 37 => ⟨S330000x1, .i32⟩
  | 38 => ⟨S330000, .f32⟩
  | 39 => ⟨S330000, .f32⟩
  | 40 => ⟨S10000x256, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000x256, .f32⟩
  | 50 => ⟨S330000x1, .f32⟩
  | 51 => ⟨S330000x256, .f32⟩
  | 52 => ⟨S330000x256, .f32⟩
  | 53 => ⟨S_, .f32⟩
  | 54 => ⟨S10000x256, .f32⟩
  | 55 => ⟨S330000x1, .i32⟩
  | 56 => ⟨S10000x256, .f32⟩
  | 57 => ⟨S1x256, .f32⟩
  | 58 => ⟨S10000x256, .f32⟩
  | 59 => ⟨S10000x256, .f32⟩
  | 60 => ⟨S_, .f32⟩
  | 61 => ⟨S_, .f32⟩
  | 62 => ⟨S10000x256, .f32⟩
  | 63 => ⟨S10000x256, .i1⟩
  | 64 => ⟨S_, .f32⟩
  | 65 => ⟨S10000x256, .f32⟩
  | 66 => ⟨S10000x256, .f32⟩
  | 67 => ⟨S10000x256, .f32⟩
  | 68 => ⟨S10000, .i32⟩
  | 69 => ⟨S330000, .i32⟩
  | 70 => ⟨S330000, .i32⟩
  | 71 => ⟨S_, .f32⟩
  | 72 => ⟨S330000, .f32⟩
  | 73 => ⟨S_, .f32⟩
  | 74 => ⟨S10000, .f32⟩
  | 75 => ⟨S330000x1, .i32⟩
  | 76 => ⟨S10000, .f32⟩
  | 77 => ⟨S10000, .f32⟩
  | 78 => ⟨S_, .i32⟩
  | 79 => ⟨S330000, .i32⟩
  | 80 => ⟨S330000, .i1⟩
  | 81 => ⟨S_, .i32⟩
  | 82 => ⟨S330000, .i32⟩
  | 83 => ⟨S330000, .i32⟩
  | 84 => ⟨S330000, .i32⟩
  | 85 => ⟨S330000x1, .i32⟩
  | 86 => ⟨S330000, .f32⟩
  | 87 => ⟨S_, .i32⟩
  | 88 => ⟨S330000, .i32⟩
  | 89 => ⟨S330000, .i1⟩
  | 90 => ⟨S_, .i32⟩
  | 91 => ⟨S330000, .i32⟩
  | 92 => ⟨S330000, .i32⟩
  | 93 => ⟨S330000, .i32⟩
  | 94 => ⟨S330000x1, .i32⟩
  | 95 => ⟨S330000, .f32⟩
  | 96 => ⟨S330000, .f32⟩
  | 97 => ⟨S10000x128, .f32⟩
  | 98 => ⟨S_, .i32⟩
  | 99 => ⟨S330000, .i32⟩
  | 100 => ⟨S330000, .i1⟩
  | 101 => ⟨S_, .i32⟩
  | 102 => ⟨S330000, .i32⟩
  | 103 => ⟨S330000, .i32⟩
  | 104 => ⟨S330000, .i32⟩
  | 105 => ⟨S330000x1, .i32⟩
  | 106 => ⟨S330000x128, .f32⟩
  | 107 => ⟨S330000x1, .f32⟩
  | 108 => ⟨S330000x128, .f32⟩
  | 109 => ⟨S330000x128, .f32⟩
  | 110 => ⟨S_, .f32⟩
  | 111 => ⟨S10000x128, .f32⟩
  | 112 => ⟨S330000x1, .i32⟩
  | 113 => ⟨S10000x128, .f32⟩
  | 114 => ⟨S1x128, .f32⟩
  | 115 => ⟨S10000x128, .f32⟩
  | 116 => ⟨S10000x128, .f32⟩
  | 117 => ⟨S_, .f32⟩
  | 118 => ⟨S_, .f32⟩
  | 119 => ⟨S10000x128, .f32⟩
  | 120 => ⟨S10000x128, .i1⟩
  | 121 => ⟨S_, .f32⟩
  | 122 => ⟨S10000x128, .f32⟩
  | 123 => ⟨S10000x128, .f32⟩
  | 124 => ⟨S10000x128, .f32⟩
  | 125 => ⟨S128x10000, .f32⟩
  | 126 => ⟨S10000x10000, .f32⟩
  | 127 => ⟨S10000x10000, .f32⟩
  | _ => ⟨S10000x512, .f32⟩

abbrev hbmTy0_1 (i : Nat) : BufTy := match i % 128 with
  | 0 => ⟨S10000x10000, .f32⟩
  | 1 => ⟨S_, .f32⟩
  | 2 => ⟨S10000x10000, .f32⟩
  | 3 => ⟨S10000x10000, .f32⟩
  | 4 => ⟨S_, .f32⟩
  | 5 => ⟨S10000x10000, .f32⟩
  | 6 => ⟨S10000x10000, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_call1_cst : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_18 : Ref sig .tc := ⟨.hbm, 129, rfl⟩
abbrev main_v90 : Ref sig .tc := ⟨.hbm, 130, rfl⟩
abbrev main_v91 : Ref sig .tc := ⟨.hbm, 131, rfl⟩
abbrev main_cst_19 : Ref sig .tc := ⟨.hbm, 132, rfl⟩
abbrev main_v92 : Ref sig .tc := ⟨.hbm, 133, rfl⟩
abbrev main_v93 : Ref sig .tc := ⟨.hbm, 134, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S10000x128_S128x10000_1_0 : S10000x128.Transposes [1, 0] S128x10000
  bcast_S_S10000x10000 : S_.BroadcastsInDim S10000x10000 (![] : Fin 0 → Fin S10000x10000.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x512_S512x256_S10000x256_1_0_0_1_n_n_wf : DotDims.WF S10000x512 S512x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x128_S10000x128_1_0_0_1_n_n_wf : DotDims.WF S10000x256 S256x128 S10000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S10000x128_S128x10000_S10000x10000_1_0_0_1_n_n_wf : DotDims.WF S10000x128 S128x10000 S10000x10000 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S10000x128_S128x10000_S10000x10000_1_0_0_1_n_n : DotDims S10000x128 S128x10000 S10000x10000 where
  lhsContracting := [1]
  rhsContracting := [0]
  lhsNonContracting := [0]
  rhsNonContracting := [1]
  lhsBatch := []
  rhsBatch := []
  wf := dot_S10000x128_S128x10000_S10000x10000_1_0_0_1_n_n_wf

class Facts : Prop extends Facts₀ where

variable [Facts]
-- ==== Proof.KRegion0.lean ====
/-
  Region 0 of the program: the pallas_call that multiplies a block of 1000 rows by the whole weight
  matrix. At a grid point the body reads its two staging blocks (the row block and the weights), forms the
  matrix product into a zero accumulator and stores it over the whole output staging block. This module names
  what each window's staging buffer holds around the body (the row block and the weights as they are read off the
  arrays the region finds, the output as the one covering store's value), runs the body once on arbitrary whole
  staging buffers, and packages the result as the pipeline's proof data and its obligation at every point.
  Stated for any float instance.
-/
import proofs.«180572_j29351806501366_1_alg».proof.Proof.Gen.Kernel.Launch
import proofs.«180572_j29351806501366_1_alg».proof.Proof.Gen.Kernel.Skeleton
import proofs.«180572_j29351806501366_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole row block, the whole weight matrix, the whole output block: the three rectangles the body accesses. -/
abbrev r0_0 : Rect S1000x512 := Rect.unit (s := S1000x512) ![0, 0] S1000x512.size inb_S1000x512_S1000x512_0_0
abbrev r0_1 : Rect S512x256 := Rect.unit (s := S512x256) ![0, 0] S512x256.size inb_S512x256_S512x256_0_0
abbrev r0_2 : Rect S1000x256 := Rect.unit (s := S1000x256) ![0, 0] S1000x256.size inb_S1000x256_S1000x256_0_0

/-- The output staging buffer after the body: its one store, of the product of the two loaded blocks. -/
def out0_2 (x0 : Vec F S1000x512 .f32) (x1 : Vec F S512x256 .f32) : Vec F S1000x256 .f32 :=
  View.canon [⟨r0_2, k0_pay1 (View.ld x0 r0_0) (View.ld x1 r0_1)⟩]

/-- The one store covers the buffer. -/
theorem cover0_2 (p0 : Vec F S1000x256 .f32) (y : S1000x256.Idx) :
    ∃ pc ∈ ([⟨r0_2, p0⟩] : List (View.Piece (Elt F) S1000x256 .f32)), y ∈ pc.1.set :=
  View.cover_of_tiled [⟨r0_2, p0⟩] S1000x256.size (by rfl) y

set_option maxHeartbeats 1000000 in
/-- The body on whole staging memrefs, the inputs' at read contents `x0`, `x1` and the output's at anything, runs to
    the continuation holding the inputs' as they were and the output's at `out0_2` of the inputs'. -/
theorem sound_kernel0 (c : Dev nD) (E : Set ℕ) (i : grid0.Coords) (arg1 : Memref sig .tc .vmem S1000x512 .f32) (harg1 : arg1.IsWhole) (arg2 : Memref sig .tc .vmem S512x256 .f32) (harg2 : arg2.IsWhole)
    (arg3 : Memref sig .tc .vmem S1000x256 .f32) (harg3 : arg3.IsWhole)
    (x0 : Vec F S1000x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at a point each
    input's buffer at its block and the output's at the product of the two input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  Region 1 of the program: the pallas_call that multiplies a block of 1000 rows by the whole weight
  matrix. At a grid point the body reads its two staging blocks (the row block and the weights), forms the
  matrix product into a zero accumulator and stores it over the whole output staging block. This module names
  what each window's staging buffer holds around the body (the row block and the weights as they are read off the
  arrays the region finds, the output as the one covering store's value), runs the body once on arbitrary whole
  staging buffers, and packages the result as the pipeline's proof data and its obligation at every point.
  Stated for any float instance.
-/
import proofs.«180572_j29351806501366_1_alg».proof.Proof.Gen.Kernel.Launch
import proofs.«180572_j29351806501366_1_alg».proof.Proof.Gen.Kernel.Skeleton
import proofs.«180572_j29351806501366_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole row block, the whole weight matrix, the whole output block: the three rectangles the body accesses. -/
abbrev r1_0 : Rect S1000x256 := Rect.unit (s := S1000x256) ![0, 0] S1000x256.size inb_S1000x256_S1000x256_0_0
abbrev r1_1 : Rect S256x128 := Rect.unit (s := S256x128) ![0, 0] S256x128.size inb_S256x128_S256x128_0_0
abbrev r1_2 : Rect S1000x128 := Rect.unit (s := S1000x128) ![0, 0] S1000x128.size inb_S1000x128_S1000x128_0_0

/-- The output staging buffer after the body: its one store, of the product of the two loaded blocks. -/
def out1_2 (x0 : Vec F S1000x256 .f32) (x1 : Vec F S256x128 .f32) : Vec F S1000x128 .f32 :=
  View.canon [⟨r1_2, k1_pay1 (View.ld x0 r1_0) (View.ld x1 r1_1)⟩]

/-- The one store covers the buffer. -/
theorem cover1_2 (p0 : Vec F S1000x128 .f32) (y : S1000x128.Idx) :
    ∃ pc ∈ ([⟨r1_2, p0⟩] : List (View.Piece (Elt F) S1000x128 .f32)), y ∈ pc.1.set :=
  View.cover_of_tiled [⟨r1_2, p0⟩] S1000x128.size (by rfl) y

set_option maxHeartbeats 1000000 in
/-- The body on whole staging memrefs, the inputs' at read contents `x0`, `x1` and the output's at anything, runs to
    the continuation holding the inputs' as they were and the output's at `out1_2` of the inputs'. -/
theorem sound_kernel1 (c : Dev nD) (E : Set ℕ) (i : grid1.Coords) (arg1 : Memref sig .tc .vmem S1000x256 .f32) (harg1 : arg1.IsWhole) (arg2 : Memref sig .tc .vmem S256x128 .f32) (harg2 : arg2.IsWhole)
    (arg3 : Memref sig .tc .vmem S1000x128 .f32) (harg3 : arg3.IsWhole)
    (x0 : Vec F S1000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at a point each
    input's buffer at its block and the output's at the product of the two input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  Region 2 of the program: the pallas_call that forms, block by block, the logistic of the product of a block of
  1024 rows of the hidden matrix with the transpose of another such block. The grid is 10 by 10; both input
  windows read the SAME array (one by the row coordinate of the grid, the other by the column coordinate), and the
  output window writes the 1024 by 1024 block at those coordinates. 10000 is not a multiple of 1024: the blocks at
  coordinate 9 overhang the arrays by 240 rows (or columns), their transfers move only the part inside the array,
  and the staging rows past it hold words nothing names.

  This module names what each window's staging buffer holds around the body — an input's buffer its block on the
  rows inside the array, the output's the one covering store's value —, runs the body once on arbitrary whole
  staging buffers, and packages the result as the pipeline's proof data and as its obligation at every point WITH
  THE OUTPUT WINDOW UNNAMED. For an arbitrary float instance a matrix product is known only as a function of its whole
  operands, so what the body makes of the unnamed rows cannot be separated from the rest of the output block; where
  the product is the exact contraction that separation holds, and the obligation naming the output is proved there,
  in a sibling module. Stated for any float instance.
-/
import proofs.«180572_j29351806501366_1_alg».proof.Proof.Gen.Kernel.Launch
import proofs.«180572_j29351806501366_1_alg».proof.Proof.Gen.Kernel.Skeleton
import proofs.«180572_j29351806501366_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it: the part of the block that lies
    inside the array (all 1024 rows, or the last 784 at block index 9). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A block's part inside the array filled out to the staging buffer's shape with the zero word on the rows past
    the array's end: rows nothing reads back. -/
def fblk2_0 (c : Dev nD) (t : Fin cfg2.N) : S1024x128.Idx → Elt F .f32 :=
  win2_0.fill (grid2.coords t) (fun _ => Scalar.ofBits .f32 0#32) (iblk2 V c 0 t)
def fblk2_1 (c : Dev nD) (t : Fin cfg2.N) : S1024x128.Idx → Elt F .f32 :=
  win2_1.fill (grid2.coords t) (fun _ => Scalar.ofBits .f32 0#32) (iblk2 V c 1 t)

/-- How a transfer of either input window cuts its block is a function of the block index alone. -/
theorem hclip2_0 (t t' : Fin cfg2.N) (h : (cfg2.win 0).index t = (cfg2.win 0).index t') :
    (cfg2.win 0).clip (cfg2.grid.coords t) = (cfg2.win 0).clip (cfg2.grid.coords t') := by
  funext a
  show Pipeline.Clip.of (cc2_transform_0 (grid2.coords t) a) _ _ = Pipeline.Clip.of (cc2_transform_0 (grid2.coords t') a) _ _
  rw [show cc2_transform_0 (grid2.coords t) a = cc2_transform_0 (grid2.coords t') a from congrFun h a]
theorem hclip2_1 (t t' : Fin cfg2.N) (h : (cfg2.win 1).index t = (cfg2.win 1).index t') :
    (cfg2.win 1).clip (cfg2.grid.coords t) = (cfg2.win 1).clip (cfg2.grid.coords t') := by
  funext a
  show Pipeline.Clip.of (cc2_transform_1 (grid2.coords t) a) _ _ = Pipeline.Clip.of (cc2_transform_1 (grid2.coords t') a) _ _
  rw [show cc2_transform_1 (grid2.coords t) a = cc2_transform_1 (grid2.coords t') a from congrFun h a]

/-! ## The body's accesses and what it leaves in the output window's buffer -/

/-- The whole input block and the whole output block: the rectangles of the body's three loads and its one store. -/
abbrev r2_0 : Rect S1024x128 := Rect.unit (s := S1024x128) ![0, 0] S1024x128.size inb_S1024x128_S1024x128_0_0
abbrev r2_2 : Rect S1024x1024 := Rect.unit (s := S1024x1024) ![0, 0] S1024x1024.size inb_S1024x1024_S1024x1024_0_0

/-- The output staging buffer after the body: its one store, of the logistic of the product of the first loaded block
    with the transpose of the second. -/
def out2_2 (x0 x1 : Vec F S1024x128 .f32) : Vec F S1024x1024 .f32 :=
  View.canon [⟨r2_2, k2_pay1 (View.ld x0 r2_0) (View.ld x1 r2_0)⟩]

/-- The one store covers the buffer. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

set_option maxHeartbeats 1000000 in
/-- The body on whole staging memrefs, the inputs' at read contents `x0`, `x1` and the output's at anything, runs to
    the continuation holding the inputs' as they were and the output's at `out2_2` of the inputs'. -/
theorem sound_kernel2 (c : Dev nD) (E : Set ℕ) (i : grid2.Coords) (arg2 : Memref sig .tc .vmem S1024x128 .f32) (harg2 : arg2.IsWhole)
    (arg3 : Memref sig .tc .vmem S1024x128 .f32) (harg3 : arg3.IsWhole) (arg4 : Memref sig .tc .vmem S1024x1024 .f32) (harg4 : arg4.IsWhole)
    (x0 x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at a point each
    input's buffer at its block filled out with zero words and the output's at what the body makes of those two; the
    invariant the scoped rest and the generator register, untouched; nothing owed; the two input windows, which read
    one array, each at a half of it, the output at the whole. -/
def dat2 (c : Dev nD) : Dat τ (Elt F) Unit ℕ (UR sig nD τ) ℕ cfg2 c where
  A w := V c (Pipeline.arrRef spec2 w)
  after w t := match w with
    | ⟨0, _⟩ => fblk2_0 V c t
    | ⟨1, _⟩ => fblk2_1 V c t
    | ⟨2, _⟩ => out2_2 (fblk2_0 V c t) (fblk2_1 V c t)
  Φ _ := Pipeline.ΦA spec2 c
  q w := if w.val = 0 then fullShare.left else if w.val = 1 then fullShare.right else fullShare
  owed _ := 0

theorem A_eq2 (c : Dev nD) (w : Fin cfg2.W) : (dat2 V c).A w = V c (Pipeline.arrRef spec2 w) := by
  dsimp only [dat2]
theorem Φ2 (c : Dev nD) (i : Fin (cfg2.N + 1)) : (dat2 V c).Φ i = Pipeline.ΦA spec2 c := by
  dsimp only [dat2]
theorem owed2 (c : Dev nD) (t : Fin (cfg2.N + 1)) : (dat2 V c).owed t = 0 := by
  dsimp only [dat2]

theorem after2_0 (c : Dev nD) (t : Fin cfg2.N) : (dat2 V c).after 0 t = fblk2_0 V c t := by dsimp only [dat2]
theorem after2_1 (c : Dev nD) (t : Fin cfg2.N) : (dat2 V c).after 1 t = fblk2_1 V c t := by dsimp only [dat2]
theorem after2_2 (c : Dev nD) (t : Fin cfg2.N) : (dat2 V c).after 2 t = out2_2 (fblk2_0 V c t) (fblk2_1 V c t) := by dsimp only [dat2]

/-- The shares: the two readers of the one input array hold its two halves, the output window its array outright. -/
theorem share2_0 (c : Dev nD) : (dat2 V c).share 0 = fullShare.left := rfl
theorem share2_1 (c : Dev nD) : (dat2 V c).share 1 = fullShare.right := rfl
theorem share2_2 (c : Dev nD) : (dat2 V c).share 2 = fullShare := rfl

/-- What the write-back or the next point sees of an input's buffer — its part inside the array — is the block. -/
theorem cut_after2_0 (c : Dev nD) (t : Fin cfg2.N) :
    (cfg2.win 0).cut (cfg2.grid.coords t) ((dat2 V c).after 0 t) = iblk2 V c 0 t := by
  rw [after2_0]; exact win2_0.cut_fill _ _ _
theorem cut_after2_1 (c : Dev nD) (t : Fin cfg2.N) :
    (cfg2.win 1).cut (cfg2.grid.coords t) ((dat2 V c).after 1 t) = iblk2 V c 1 t := by
  rw [after2_1]; exact win2_1.cut_fill _ _ _

/-- Each input's current staging buffer holds, at every point, fetched there or not, its block on the rows inside the
    array and on the rest whatever the fetch left there. -/
theorem before2_0 (c : Dev nD) (t : Fin cfg2.N) (d) :
    (dat2 V c).before 0 t d = win2_0.fill (grid2.coords t) d (iblk2 V c 0 t) :=
  ((dat2 V c).before_in_eq_fetched 0 rfl (fun _ => rfl) hclip2_0
    (fun t => by rw [cut_after2_0]; unfold Dat.blockOf iblk2; rw [A_eq2]) t d).trans
    (by unfold Dat.fetched Dat.blockOf iblk2; rw [A_eq2])
theorem before2_1 (c : Dev nD) (t : Fin cfg2.N) (d) :
    (dat2 V c).before 1 t d = win2_1.fill (grid2.coords t) d (iblk2 V c 1 t) :=
  ((dat2 V c).before_in_eq_fetched 1 rfl (fun _ => rfl) hclip2_1
    (fun t => by rw [cut_after2_1]; unfold Dat.blockOf iblk2; rw [A_eq2]) t d).trans
    (by unfold Dat.fetched Dat.blockOf iblk2; rw [A_eq2])

/-! ## The body obligation with the output window unnamed

For an arbitrary float instance nothing is known of a matrix product but that it is a function of its whole
operands. At the grid's last row and last column of blocks the input staging buffers hold, past the array's end,
words nothing names; so what the body makes of them in the output buffer is not named here either: the output window
is handed to the body at any contents and taken back at any contents. The two input windows are stated in full. -/

/-- The windows of which the obligation below says nothing: the output's. -/
def fgt2 : Fin cfg2.W → Bool := fun w => decide (w.val = 2)

/-- What the body is called with at point `t`, the windows one by one, -/
def bodyPre2f (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ X, owns (c : Thread nD τ) (st2_2 t) fullShare X))

/-- and what it returns: each input's buffer at its block on the rows inside the array, the output's at anything. -/
def bodyPost2f (c : Dev nD) (t : Fin cfg2.N) : sProp 𝕄 :=
  iprop((dat2 V c).Φ t.succ ∗ (dat2 V c).owesAt () t.succ
    ∗ (∃ d, owns (c : Thread nD τ) (st2_0 t) fullShare
        ((cfg2.win 0).fill (cfg2.grid.coords t) d ((cfg2.win 0).cut (cfg2.grid.coords t) ((dat2 V c).after 0 t))))
    ∗ (∃ d, owns (c : Thread nD τ) (st2_1 t) fullShare
        ((cfg2.win 1).fill (cfg2.grid.coords t) d ((cfg2.win 1).cut (cfg2.grid.coords t) ((dat2 V c).after 1 t))))
    ∗ (∃ X, owns (c : Thread nD τ) (st2_2 t) fullShare X))

/-- The body at any point: the inputs' memrefs hold their blocks filled out with whatever the fetch left past the
    array's end, the body's triple applies at those contents and leaves them in place; the invariant and the core's
    dues pass through unread. -/
theorem sound_body2f (c : Dev nD) (t : Fin cfg2.N) :
    bodyPre2f V c t ⊢ wp frame (wpE (defs₀ (F := F)) Variants.none c none) Set.univ (bodyAt2 t) (fun _ => bodyPost2f V c t) := by
  unfold bodyPre2f bodyPost2f bodyAt2
  simp only [before2_0, before2_1]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%X2, H2⟩⟩
  iapply (sound_kernel2 c Set.univ _ _ _ _ _ _ _ (win2_0.fill (grid2.coords t) d0 (iblk2 V c 0 t))
    (win2_1.fill (grid2.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    change _ ⊢ owns (c : Thread nD τ) (st2_0 t) fullShare
      ((cfg2.win 0).fill (cfg2.grid.coords t) d0 ((cfg2.win 0).cut (cfg2.grid.coords t) ((dat2 V c).after 0 t)))
    rw [cut_after2_0]
  isplitl [H1]
  · iexists d1
    change _ ⊢ owns (c : Thread nD τ) (st2_1 t) fullShare
      ((cfg2.win 1).fill (cfg2.grid.coords t) d1 ((cfg2.win 1).cut (cfg2.grid.coords t) ((dat2 V c).after 1 t)))
    rw [cut_after2_1]
  iexists _; iexact H2

/-- The pipeline's body obligation at every point, the output window unnamed. -/
theorem body_obligation2_fgt (c : Dev nD) :
    BodyObligationLoose (dat2 (F := F) V c) (defs₀ (F := F)) Variants.none () Set.univ fgt2 := fun t => by
  rw [bigSep_W2, bigSep_W2]
  exact sound_body2f V c t

end Cert.Kernel.Hand

end
-- ==== Proof.KFold.lean ====
/-
  The buffer contents at every segment boundary of the program, as a fold through its host stretches and its three
  kernel regions: a host stretch changes the buffers its operations write, to the operations' values; a region
  changes its output array, to what its write-backs leave, and nothing else. Every pipeline's proof data is taken
  at the contents its region is entered from.
-/
import proofs.«180572_j29351806501366_1_alg».proof.Proof.KRegion0
import proofs.«180572_j29351806501366_1_alg».proof.Proof.KRegion1
import proofs.«180572_j29351806501366_1_alg».proof.Proof.KRegion2
import proofs.«180572_j29351806501366_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: the product array at what the write-backs leave, every other buffer as entered. -/
def W2 (c : Dev nD) : Valuation τ sig (Elt F) :=
  Function.update (W1 m c) (Proc.devRef .tc main_v27) ((dat0 (V1 m) c).arrAt 2 cfg0.N)
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev W4 : Dev nD → Valuation τ sig (Elt F) := fun c => StableHlo.after hostOps1_1 (W3 m c)
/-- Region 1's entry. -/
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
def W6 (c : Dev nD) : Valuation τ sig (Elt F) :=
  Function.update (W5 m c) (Proc.devRef .tc main_v68) ((dat1 (V5 m) c).arrAt 2 cfg1.N)
abbrev V6 : (c : Dev nD) → (b : Ref sig .tc) → Buf (Elt F) ((c : Thread nD τ).loc b) := fun c b => W6 m c b
abbrev W7 : Dev nD → Valuation τ sig (Elt F) := fun c => StableHlo.after hostOps2 (W6 m c)
/-- Region 2's entry. -/
abbrev W8 : Dev nD → Valuation τ sig (Elt F) := fun c => StableHlo.after hostOps2_1 (W7 m c)
abbrev V8 : (c : Dev nD) → (b : Ref sig .tc) → Buf (Elt F) ((c : Thread nD τ).loc b) := fun c b => W8 m c b
/-- The end. -/
def W9 (c : Dev nD) : Valuation τ sig (Elt F) :=
  Function.update (W8 m c) (Proc.devRef .tc main_v86) ((dat2 (V8 m) c).arrAt 2 cfg2.N)
abbrev V9 : (c : Dev nD) → (b : Ref sig .tc) → Buf (Elt F) ((c : Thread nD τ).loc b) := fun c b => W9 m c b

theorem W2_out (c : Dev nD) : W2 m c (Proc.devRef .tc main_v27) = (dat0 (V1 m) c).arrAt 2 cfg0.N := by
  unfold W2; exact Function.update_self ..
theorem W2_of_ne (c : Dev nD) (b : Ref sig .tc) (hb : b ≠ main_v27) : W2 m c (Proc.devRef .tc b) = W1 m c (Proc.devRef .tc b) := by
  unfold W2; exact Function.update_of_ne (StableHlo.devRef_ne_of_ne hb) ..
theorem W6_out (c : Dev nD) : W6 m c (Proc.devRef .tc main_v68) = (dat1 (V5 m) c).arrAt 2 cfg1.N := by
  unfold W6; exact Function.update_self ..
theorem W6_of_ne (c : Dev nD) (b : Ref sig .tc) (hb : b ≠ main_v68) : W6 m c (Proc.devRef .tc b) = W5 m c (Proc.devRef .tc b) := by
  unfold W6; exact Function.update_of_ne (StableHlo.devRef_ne_of_ne hb) ..
theorem W9_out (c : Dev nD) : W9 m c (Proc.devRef .tc main_v86) = (dat2 (V8 m) c).arrAt 2 cfg2.N := by
  unfold W9; exact Function.update_self ..
theorem W9_of_ne (c : Dev nD) (b : Ref sig .tc) (hb : b ≠ main_v86) : W9 m c (Proc.devRef .tc b) = W8 m c (Proc.devRef .tc b) := by
  unfold W9; exact Function.update_of_ne (StableHlo.devRef_ne_of_ne hb) ..

/-- At region 0's exit each of its arrays holds what the pipeline leaves, and every other buffer what it held at entry. -/
theorem hF0 (c : Dev nD) (w : Fin cfg0.W) : (dat0 (V1 m) c).arrAt w cfg0.N = V2 m c (Pipeline.arrRef spec0 w) := by
  match w with
  | ⟨0, _⟩ => exact (((dat0 (V1 m) c).arrAt_in 0 rfl _).trans (A_eq0 (V1 m) c 0)).trans (W2_of_ne m c main_arg0 (by decide)).symm
  | ⟨1, _⟩ => exact (((dat0 (V1 m) c).arrAt_in 1 rfl _).trans (A_eq0 (V1 m) c 1)).trans (W2_of_ne m c main_arg3 (by decide)).symm
  | ⟨2, _⟩ => exact (W2_out m c).symm
theorem hrest0 (c : Dev nD) : ∀ b, b ∉ Finset.univ.image (Pipeline.arrRef spec0) → V2 m c b = V1 m c b :=
  fun b hb => W2_of_ne m c b fun e => hb (Finset.mem_image.mpr ⟨2, Finset.mem_univ _, e.symm⟩)
theorem hF1 (c : Dev nD) (w : Fin cfg1.W) : (dat1 (V5 m) c).arrAt w cfg1.N = V6 m c (Pipeline.arrRef spec1 w) := by
  match w with
  | ⟨0, _⟩ => exact (((dat1 (V5 m) c).arrAt_in 0 rfl _).trans (A_eq1 (V5 m) c 0)).trans (W6_of_ne m c main_v44 (by decide)).symm
  | ⟨1, _⟩ => exact (((dat1 (V5 m) c).arrAt_in 1 rfl _).trans (A_eq1 (V5 m) c 1)).trans (W6_of_ne m c main_arg5 (by decide)).symm
  | ⟨2, _⟩ => exact (W6_out m c).symm
theorem hrest1 (c : Dev nD) : ∀ b, b ∉ Finset.univ.image (Pipeline.arrRef spec1) → V6 m c b = V5 m c b :=
  fun b hb => W6_of_ne m c b fun e => hb (Finset.mem_image.mpr ⟨2, Finset.mem_univ _, e.symm⟩)

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
  | ⟨2, _⟩ => fun c => dat2 (V8 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KRegs01.lean ====
/-
  Regions 0 and 1 as segments of the program's run: each is entered from every unscoped buffer at the contents the
  segment before it left, splits its three arrays out of them, runs its pipeline, and puts the arrays back with the
  product array at what the write-backs leave.
-/
import proofs.«180572_j29351806501366_1_alg».proof.Proof.KFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered from every unscoped buffer at `W1`, left at `W2`. Its arrays are split
    out of the unscoped buffers and put back at the exit contents; the generator register goes into the class invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at the exit contents; the generator register goes into the class invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRegion2Arrays.lean ====
/-
  Region 2's arrays among the core's unscoped buffers. The pipeline's three windows stand on two buffers: the hidden
  matrix, read by both input windows, and the output matrix. A points-to of a whole buffer at the full share splits
  into two at its two half shares and joins back; this module states that at the region's entry (the hidden matrix's
  points-to split between the two reading windows) and at its exit (the halves, still at the entry contents — an
  input array is never written —, joined again, and the output matrix at what the write-backs leave).
  Stated for any float instance.
-/
import proofs.«180572_j29351806501366_1_alg».proof.Proof.KRegion2
import proofs.«180572_j29351806501366_1_alg».proof.Proof.Gen.Kernel.Launch
import proofs.«180572_j29351806501366_1_alg».proof.Proof.Gen.Kernel.Skeleton
import proofs.«180572_j29351806501366_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The region's arrays among the core's unscoped buffers

The three windows stand on TWO buffers: the hidden matrix, which both input windows read, and the output matrix. At
the region's entry the hidden matrix's whole points-to is split into two halves, one per reading window; at its exit
the halves — both still at the entry contents, an input array being never written — are joined again. -/

/-- The buffers behind the three windows' arrays are two. -/
theorem arrImage2 : (Finset.univ.image (Pipeline.arrRef spec2) : Finset (Ref sig .tc)) = {main_v85, main_v86} := by decide

/-- A core's unscoped buffers are the buffers behind pipeline 2's arrays and the rest. -/
theorem split2 (c : Dev nD) (Vc : (b : Ref sig .tc) → Buf (Elt F) ((c : Thread nD τ).loc b)) :
    (unscopedBufs c Vc : sProp 𝕄) = iprop((Pipeline.arrBufs spec2 c Vc : sProp 𝕄) ∗ Pipeline.unscopedRest spec2 c Vc) :=
  Pipeline.unscopedBufs_split₀ cfgs 2 winFacts₀2.arr_unscoped c Vc

/-- The buffers behind the arrays, one by one. -/
theorem arrBufs_eq2 (c : Dev nD) (Vc : (b : Ref sig .tc) → Buf (Elt F) ((c : Thread nD τ).loc b)) :
    (Pipeline.arrBufs spec2 c Vc : sProp 𝕄)
      = iprop((((c : Thread nD τ).loc main_v85) ↦{fullShare} Vc main_v85) ∗ (((c : Thread nD τ).loc main_v86) ↦{fullShare} Vc main_v86)) := by
  unfold Pipeline.arrBufs
  rw [arrImage2, bigSep_insert (by decide), bigSep_singleton]
  rfl

/-- The pipeline's arrays at contents `G`, one by one: the hidden matrix at its two halves, the output matrix whole. -/
theorem arrays_eq2 (c : Dev nD) (G : (w : Fin cfg2.W) → Buf (Elt F) ((cfg2.win w).arr.view.loc (c : Thread nD τ))) :
    ((dat2 V c).arrays G : sProp 𝕄)
      = iprop((((c : Thread nD τ).loc main_v85) ↦{fullShare.left} G 0) ∗ (((c : Thread nD τ).loc main_v85) ↦{fullShare.right} G 1)
          ∗ (((c : Thread nD τ).loc main_v86) ↦{fullShare} G 2)) := by
  unfold Dat.arrays
  -- the two input windows stand on one array: one rewrite serves both
  rw [bigSep_W2, (arr_whole2 0).set_eq_univ, (arr_whole2 2).set_eq_univ]
  rfl

/-- ENTRY: a core's unscoped buffers at contents `V c` are pipeline 2's arrays at the proof data's entry contents —
    the hidden matrix at its two halves, the output matrix whole — and the unscoped rest. -/
theorem arrays_in2 (c : Dev nD) :
    (unscopedBufs c (V c) : sProp 𝕄)
      ⊢ iprop((dat2 V c).arrays ((dat2 V c).arrAt · 0)
          ∗ Pipeline.unscopedRest (Ix := Unit) (Name := ℕ) (U := UR sig nD τ) (Lvl := ℕ) spec2 c (V c)) := by
  rw [split2, arrBufs_eq2, arrays_eq2]
  iintro ⟨⟨H85, H86⟩, Hrest⟩
  ihave H := (pointsTo_share (PosShare.mem_left_op_right fullShare)).1 $$ H85
  icases H with ⟨Hl, Hr⟩
  isplitr [Hrest]
  · isplitl [Hl]; · iexact Hl
    isplitl [Hr]; · iexact Hr
    iexact H86
  iexact Hrest

/-- The two halves of the hidden matrix at the entry contents, the output matrix at any contents `x` and the unscoped
    rest at the entry contents are the core's unscoped buffers at any valuation that has the output matrix at `x` and
    agrees with the entry contents elsewhere. -/
theorem join2 (c : Dev nD) (Vc' : (b : Ref sig .tc) → Buf (Elt F) ((c : Thread nD τ).loc b))
    (x : Buf (Elt F) ((c : Thread nD τ).loc main_v86)) (h86 : Vc' main_v86 = x) (hrest : ∀ b, b ≠ main_v86 → Vc' b = V c b) :
    iprop(((((c : Thread nD τ).loc main_v85) ↦{fullShare.left} V c main_v85) ∗ (((c : Thread nD τ).loc main_v85) ↦{fullShare.right} V c main_v85)
          ∗ (((c : Thread nD τ).loc main_v86) ↦{fullShare} x))
        ∗ Pipeline.unscopedRest (Ix := Unit) (Name := ℕ) (U := UR sig nD τ) (Lvl := ℕ) spec2 c (V c))
      ⊢ (unscopedBufs c Vc' : sProp 𝕄) := by
  have hR : (Pipeline.unscopedRest spec2 c (V c) : sProp 𝕄) = Pipeline.unscopedRest spec2 c Vc' := by
    unfold Pipeline.unscopedRest
    exact bigSep_congr fun b hb => by
      rw [hrest b fun e => (Finset.mem_sdiff.mp hb).2 (by rw [arrImage2, e]; decide)]
  rw [split2 c Vc', arrBufs_eq2, h86, hrest main_v85 (by decide), hR]
  iintro ⟨⟨Hl, Hr, H86⟩, Hrest⟩
  isplitr [Hrest]
  · isplitl [Hl Hr]
    · iapply (pointsTo_share (PosShare.mem_left_op_right fullShare)).2
      isplitl [Hl]; · iexact Hl
      iexact Hr
    iexact H86
  iexact Hrest

/-- EXIT: pipeline 2's arrays at what the proof data computes after the last write-back — the hidden matrix's two
    halves at the entry contents, the output matrix at what the write-backs leave — and the unscoped rest are the
    core's unscoped buffers at any valuation `V'` that has the output matrix there and agrees with `V` elsewhere. -/
theorem arrays_out2 (V' : (c : Dev nD) → (b : Ref sig .tc) → Buf (Elt F) ((c : Thread nD τ).loc b)) (c : Dev nD)
    (hF : (dat2 V c).arrAt 2 cfg2.N = V' c main_v86) (hrest : ∀ b, b ≠ main_v86 → V' c b = V c b) :
    iprop((dat2 V c).arrays ((dat2 V c).arrAt · cfg2.N)
        ∗ Pipeline.unscopedRest (Ix := Unit) (Name := ℕ) (U := UR sig nD τ) (Lvl := ℕ) spec2 c (V c))
      ⊢ (unscopedBufs c (V' c) : sProp 𝕄) := by
  rw [arrays_eq2]
  beta_reduce
  rw [(dat2 V c).arrAt_in 0 rfl, (dat2 V c).arrAt_in 1 rfl, hF]
  exact join2 V c (V' c) (V' c main_v86) rfl hrest

end Cert.Kernel.Hand

end
-- ==== Proof.KRegion2R.lean ====
/-
  Region 2's exit with the output window unnamed. Read relationally with the output window forgotten, the proof data
  say of the output matrix only that it ends at SOME contents, and of the two input windows' array that it ends at
  what it held at entry. So the arrays after the last write-back, with the unscoped rest, are the core's unscoped
  buffers at the entry valuation changed at the output matrix alone. Stated for any float instance.
-/
import proofs.«180572_j29351806501366_1_alg».proof.Proof.KRegion2Arrays
import proofs.«180572_j29351806501366_1_alg».proof.Proof.Gen.Kernel.Launch
import proofs.«180572_j29351806501366_1_alg».proof.Proof.Gen.Kernel.Skeleton
import proofs.«180572_j29351806501366_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The exit with the output window unnamed

Read with the output window forgotten, the proof data still pin the two input windows' array — an input array holds
at the end what it held at entry — and say of the output matrix only that it holds SOME contents: the core's
unscoped buffers then stand at the entry valuation updated, at the output matrix, to those contents. -/

/-- EXIT, the output unnamed: the arrays at some contents they may hold after the last write-back and the unscoped rest
    are the core's unscoped buffers at the entry contents but for the output matrix, which holds some contents. -/
theorem arrays_out2R (c : Dev nD) :
    iprop(((dat2 V c).toRForget fgt2).arraysAt cfg2.N
        ∗ Pipeline.unscopedRest (Ix := Unit) (Name := ℕ) (U := UR sig nD τ) (Lvl := ℕ) spec2 c (V c))
      ⊢ (iprop(∃ x : Buf (Elt F) ((c : Thread nD τ).loc main_v86), unscopedBufs c (Function.update (V c) main_v86 x)) : sProp 𝕄) := by
  unfold Pipeline.RDat.arraysAt
  -- the two input windows stand on one array: one rewrite serves both
  rw [bigSep_W2, (arr_whole2 0).set_eq_univ, (arr_whole2 2).set_eq_univ]
  iintro ⟨⟨⟨%G0, %h0, H0⟩, ⟨%G1, %h1, H1⟩, ⟨%G2, -, H2⟩⟩, Hrest⟩
  -- a window not forgotten holds what the exact data compute, and an input array what it held at entry
  have e0 : G0 = (dat2 V c).A (0 : Fin 3) :=
    (((dat2 V c).toRForget_arrAt_iff (fgt := fgt2) (w := (0 : Fin 3)) rfl cfg2.N G0).mp h0).trans ((dat2 V c).arrAt_in (0 : Fin 3) rfl cfg2.N)
  have e1 : G1 = (dat2 V c).A (1 : Fin 3) :=
    (((dat2 V c).toRForget_arrAt_iff (fgt := fgt2) (w := (1 : Fin 3)) rfl cfg2.N G1).mp h1).trans ((dat2 V c).arrAt_in (1 : Fin 3) rfl cfg2.N)
  subst e0; subst e1
  iexists G2
  iapply (join2 V c (Function.update (V c) main_v86 G2) G2 (Function.update_self _ _ _) fun b hb => Function.update_of_ne hb _ _)
  isplitr [Hrest]
  · isplitl [H0]; · iexact H0
    isplitl [H1]; · iexact H1
    iexact H2
  iexact Hrest

end Cert.Kernel.Hand

end
-- ==== Proof.KRunR.lean ====
/-
  The program's run at relational proof data, for any float instance: as the exact run, but the last region's output
  window is left unnamed — at a general float instance the matrix product of a staging block whose overhanging rows
  hold arbitrary words is not a function of the rows inside the array, so nothing is said of what that region writes
  back. Every final memory holds each buffer at the contents the last region was entered from, except the last
  region's output array; in particular the program's arguments end as launched.
-/
import proofs.«180572_j29351806501366_1_alg».proof.Proof.KRegs01
import proofs.«180572_j29351806501366_1_alg».proof.Proof.KRegion2R

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data read relationally, the last region's output window forgotten. -/
def rdats : (p : Fin 3) → (c : Dev nD) → Pipeline.RDat τ (Elt F) Unit ℕ (UR sig nD τ) ℕ (Pipeline.pin (pcfgs (F := F)) adm p) c
  | ⟨0, _⟩ => fun c => (dat0 (V1 m) c).toR
  | ⟨1, _⟩ => fun c => (dat1 (V5 m) c).toR
  | ⟨2, _⟩ => fun c => (dat2 (V8 m) c).toRForget fgt2

/-- The buffers at the end, the last region's output array at contents `x`. -/
def W9x (c : Dev nD) (x : Buf (Elt F) ((c : Thread nD τ).loc main_v86)) : Valuation τ sig (Elt F) :=
  Function.update (W8 m c) (Proc.devRef .tc main_v86) x

theorem W9x_of_ne (c : Dev nD) (x) (b : Ref sig .tc) (hb : b ≠ main_v86) : W9x m c x (Proc.devRef .tc b) = W8 m c (Proc.devRef .tc b) := by
  unfold W9x; exact Function.update_of_ne (StableHlo.devRef_ne_of_ne hb) ..

theorem W9x_refs (c : Dev nD) (x : Buf (Elt F) ((c : Thread nD τ).loc main_v86)) :
    (fun b : Ref sig .tc => W9x m c x (Proc.devRef .tc b)) = Function.update (V8 m c) main_v86 x := by
  funext b
  by_cases h : b = main_v86
  · subst h; unfold W9x; rw [Function.update_self, Function.update_self]
  · rw [W9x_of_ne m c x b h, Function.update_of_ne h]

set_option backward.isDefEq.respectTransparency.types false in
def regR0 : Pipeline.RDat.RegionSeg (pcfgs (F := F)) adm (rdats m) () defs₀ 𝒱₀ L lv 0 where
  win := (reg0 m).win
  block_pos := (reg0 m).block_pos
  stage_whole := (reg0 m).stage_whole
  K := PEmpty
  osem k := k.elim
  ho := Pipeline.OwnSemFacts.none _
  hbody c := ((reg0 m).hbody c).toR
  hwaits := Pipeline.RDat.hwaits_of_owed_zero _ _ _ _ L lv 0 fun _ _ => rfl
  pre := (reg0 m).pre
  post := (reg0 m).post
  X := (reg0 m).X
  Y := (reg0 m).Y
  Z := (reg0 m).Z
  hentry := (reg0 m).hentry
  hin := (reg0 m).hin
  hout := (reg0 m).hout
  hexit c := (sep_mono (Entails.of_eq ((pdats m 0 c).toR_arraysAt_eq cfg0.N)) .rfl).trans ((reg0 m).hexit c)

set_option backward.isDefEq.respectTransparency.types false in
def regR1 : Pipeline.RDat.RegionSeg (pcfgs (F := F)) adm (rdats m) () defs₀ 𝒱₀ L lv 1 where
  win := (reg1 m).win
  block_pos := (reg1 m).block_pos
  stage_whole := (reg1 m).stage_whole
  K := PEmpty
  osem k := k.elim
  ho := Pipeline.OwnSemFacts.none _
  hbody c := ((reg1 m).hbody c).toR
  hwaits := Pipeline.RDat.hwaits_of_owed_zero _ _ _ _ L lv 1 fun _ _ => rfl
  pre := (reg1 m).pre
  post := (reg1 m).post
  X := (reg1 m).X
  Y := (reg1 m).Y
  Z := (reg1 m).Z
  hentry := (reg1 m).hentry
  hin := (reg1 m).hin
  hout := (reg1 m).hout
  hexit c := (sep_mono (Entails.of_eq ((pdats m 1 c).toR_arraysAt_eq cfg1.N)) .rfl).trans ((reg1 m).hexit c)

/-- The last thread state: every unscoped buffer at the last region's entry contents but its output array, which
    holds some contents; the generator register at some state. -/
abbrev TnR (c : Dev nD) : sProp 𝕄 :=
  iprop((∃ x, StableHlo.held (c : Thread nD τ) (Pipeline.ucRefs τ sig) (W9x m c x)) ∗ ∃ r, prngReg c r)

set_option backward.isDefEq.respectTransparency.types false in
/-- Region 2 with its output window forgotten. -/
def regR2 : Pipeline.RDat.RegionSeg (pcfgs (F := F)) adm (rdats m) () defs₀ 𝒱₀ L lv 2 where
  win := winFacts₀2
  block_pos := block_pos2
  stage_whole := stage_whole2
  K := PEmpty
  osem k := k.elim
  ho := Pipeline.OwnSemFacts.none _
  hbody c := (body_obligation2_fgt (V8 m) c).toRForget
  hwaits := Pipeline.RDat.hwaits_of_owed_zero _ _ _ _ L lv 2 fun c t => owed2 (V8 m) c t
  pre c := iprop(StableHlo.held (c : Thread nD τ) (Pipeline.ucRefs τ sig) (W8 m c) ∗ R c)
  post c := iprop(TnR m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit : (unscopedBufs c (V8 m c) : sProp 𝕄) ⊢ iprop((rdats m 2 c).arrays (rdats m 2 c).A ∗ Pipeline.unscopedRest (Ix := Unit) (Name := ℕ) (U := UR sig nD τ) (Lvl := ℕ) spec2 c (V8 m c)) := arrays_in2 (V8 m) c
    rw [Pipeline.unscopedBufs_held] at hsplit
    rw [show (rdats m 2 c).owesAt () 0 = (dat2 (V8 m) c).owesAt () 0 from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from Φ2 (V8 m) c 0]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from Φ2 (V8 m) c (Fin.last _)]; unfold Pipeline.ΦA
    iintro ⟨Hr, Hp⟩
    isplitl [Hp]; · iexact Hp
    isplitr; · iempintro
    iexact Hr
  hexit c := by
    have hjoin : iprop((rdats m 2 c).arraysAt cfg2.N ∗ Pipeline.unscopedRest (Ix := Unit) (Name := ℕ) (U := UR sig nD τ) (Lvl := ℕ) spec2 c (V8 m c))
        ⊢ (iprop(∃ x : Buf (Elt F) ((c : Thread nD τ).loc main_v86), unscopedBufs c (Function.update (V8 m c) main_v86 x)) : sProp 𝕄) := arrays_out2R (V8 m) c
    rw [show (rdats m 2 c).owesAt () (Fin.last _) = (dat2 (V8 m) c).owesAt () (Fin.last _) from rfl]
    iintro ⟨Ha, HO, HY, Hrest⟩
    imodintro
    isplitl [Ha Hrest HY]
    · isplitl [Ha Hrest]
      · ihave H := hjoin $$ [Ha Hrest]
        · isplitl [Ha] <;> iassumption
        icases H with ⟨%x, H⟩
        iexists x
        rw [← Pipeline.unscopedBufs_held c (W9x m c x), W9x_refs m c x]
        iexact H
      iexact HY
    unfold Pipeline.Dat.owesAt Pipeline.owesWithin
    icases HO with ⟨%W, -, HO⟩; iexists W; iexact HO

abbrev segsR : List (Pipeline.RDat.Seg (pcfgs (F := F)) adm (rdats m) () defs₀ 𝒱₀ L lv) :=
  [ .host (hseg hostOps0 hostOps0_sub hostOps0_fresh (W0 m)),
    .region (regR0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (regR1 m),
    .host (hseg hostOps2 hostOps2_sub hostOps2_fresh (W6 m)),
    .host (hseg hostOps2_1 hostOps2_1_sub hostOps2_1_fresh (W7 m)),
    .region (regR2 m) ]

theorem main_runR (c : Dev nD) : main (F := F) c = Pipeline.RDat.Seg.run (segsR m) := (main_chain c).trans (by chain_rfl)

/-- No segment writes an argument: the fold at an argument's buffer walks back to the launch memory. -/
theorem W8_arg (c : Dev nD) (r : Ref sig .tc) (h0 : r ∉ hostOps0_W) (h1 : r ∉ hostOps1_W) (h2 : r ∉ hostOps1_1_W) (h3 : r ∉ hostOps1_2_W)
    (h4 : r ∉ hostOps2_W) (h5 : r ∉ hostOps2_1_W) (h27 : r ≠ main_v27) (h68 : r ≠ main_v68) :
    W8 m c (Proc.devRef .tc r) = m ((c : Thread nD τ).loc r) :=
  (StableHlo.after_of_writes_sub hostOps2_1 _ hostOps2_1_writes h5).trans <|
  (StableHlo.after_of_writes_sub hostOps2 _ hostOps2_writes h4).trans <|
  (W6_of_ne m c r h68).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1).trans <|
  (W2_of_ne m c r h27).trans <|
  (StableHlo.after_of_writes_sub hostOps0 _ hostOps0_writes h0).trans rfl

set_option backward.isDefEq.respectTransparency.types false in
/-- THE FRAME at any float instance: every weakly fair execution from zero counters terminates, nothing faulting, and
    the seven argument arrays end as launched. -/
theorem frameR (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.RDat.θ_run_regions_kit (pcfgs (F := F)) adm (rdats m) () cellOf_inj emb₁ defs₀ 𝒱₀ L lv m ρ main (segsR m)
    (fun c Q => by rw [main_runR m c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := TnR m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ x, ∀ b ∈ Pipeline.ucRefs τ sig, s.mem (((c : Thread nD τ)).1, b) = W9x m c x b)
    (hfin := fun c s' => by
      iintro ⟨⟨⟨%x, Hh⟩, -⟩, HSI⟩
      unfold StableHlo.held
      ihave Hr := (pointsTo_read_all (Pipeline.ucRefs τ sig) (fun b => (((c : Thread nD τ)).1, b)) (W9x m c x) s') $$ [Hh HSI]
      · isplitl [Hh] <;> iassumption
      icases Hr with ⟨%h, HSI⟩
      imodintro
      isplitr
      · ipureintro; exact ⟨x, h⟩
      · iexact HSI)
    (hQ := fun s h c => by
      obtain ⟨x, hx⟩ := h c
      exact ⟨(hx _ (mem_uc main_arg0 (by decide))).trans ((W9x_of_ne m c x main_arg0 (by decide)).trans (W8_arg m c main_arg0 (by decide) (by decide) (by decide) (by decide) (by decide) (by decide) (by decide) (by decide))),
        (hx _ (mem_uc main_arg1 (by decide))).trans ((W9x_of_ne m c x main_arg1 (by decide)).trans (W8_arg m c main_arg1 (by decide) (by decide) (by decide) (by decide) (by decide) (by decide) (by decide) (by decide))),
        (hx _ (mem_uc main_arg2 (by decide))).trans ((W9x_of_ne m c x main_arg2 (by decide)).trans (W8_arg m c main_arg2 (by decide) (by decide) (by decide) (by decide) (by decide) (by decide) (by decide) (by decide))),
        (hx _ (mem_uc main_arg3 (by decide))).trans ((W9x_of_ne m c x main_arg3 (by decide)).trans (W8_arg m c main_arg3 (by decide) (by decide) (by decide) (by decide) (by decide) (by decide) (by decide) (by decide))),
        (hx _ (mem_uc main_arg4 (by decide))).trans ((W9x_of_ne m c x main_arg4 (by decide)).trans (W8_arg m c main_arg4 (by decide) (by decide) (by decide) (by decide) (by decide) (by decide) (by decide) (by decide))),
        (hx _ (mem_uc main_arg5 (by decide))).trans ((W9x_of_ne m c x main_arg5 (by decide)).trans (W8_arg m c main_arg5 (by decide) (by decide) (by decide) (by decide) (by decide) (by decide) (by decide) (by decide))),
        (hx _ (mem_uc main_arg6 (by decide))).trans ((W9x_of_ne m c x main_arg6 (by decide)).trans (W8_arg m c main_arg6 (by decide) (by decide) (by decide) (by decide) (by decide) (by decide) (by decide) (by decide)))⟩)

end Cert.Kernel.Hand

end
-- ==== Proof.Region0.lean ====
/-
  Region 0 of the program: the pallas_call that multiplies a block of 1000 rows by the whole weight
  matrix. At a grid point the body reads its two staging blocks (the row block and the weights), forms the
  matrix product into a zero accumulator and stores it over the whole output staging block. This module names
  what each window's staging buffer holds around the body (the row block and the weights as they are read off the
  arrays the region finds, the output as the one covering store's value), runs the body once on arbitrary whole
  staging buffers, and packages the result as the pipeline's proof data and its obligation at every point.
  Stated for any float instance.
-/
import proofs.«180572_j29351806501366_1_alg».proof.Proof.Gen.KernelIdeal.Launch
import proofs.«180572_j29351806501366_1_alg».proof.Proof.Gen.KernelIdeal.Skeleton
import proofs.«180572_j29351806501366_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole row block, the whole weight matrix, the whole output block: the three rectangles the body accesses. -/
abbrev r0_0 : Rect S1000x512 := Rect.unit (s := S1000x512) ![0, 0] S1000x512.size inb_S1000x512_S1000x512_0_0
abbrev r0_1 : Rect S512x256 := Rect.unit (s := S512x256) ![0, 0] S512x256.size inb_S512x256_S512x256_0_0
abbrev r0_2 : Rect S1000x256 := Rect.unit (s := S1000x256) ![0, 0] S1000x256.size inb_S1000x256_S1000x256_0_0

/-- The output staging buffer after the body: its one store, of the product of the two loaded blocks. -/
def out0_2 (x0 : Vec F S1000x512 .f32) (x1 : Vec F S512x256 .f32) : Vec F S1000x256 .f32 :=
  View.canon [⟨r0_2, k0_pay1 (View.ld x0 r0_0) (View.ld x1 r0_1)⟩]

/-- The one store covers the buffer. -/
theorem cover0_2 (p0 : Vec F S1000x256 .f32) (y : S1000x256.Idx) :
    ∃ pc ∈ ([⟨r0_2, p0⟩] : List (View.Piece (Elt F) S1000x256 .f32)), y ∈ pc.1.set :=
  View.cover_of_tiled [⟨r0_2, p0⟩] S1000x256.size (by rfl) y

set_option maxHeartbeats 1000000 in
/-- The body on whole staging memrefs, the inputs' at read contents `x0`, `x1` and the output's at anything, runs to
    the continuation holding the inputs' as they were and the output's at `out0_2` of the inputs'. -/
theorem sound_kernel0 (c : Dev nD) (E : Set ℕ) (i : grid0.Coords) (arg1 : Memref sig .tc .vmem S1000x512 .f32) (harg1 : arg1.IsWhole) (arg2 : Memref sig .tc .vmem S512x256 .f32) (harg2 : arg2.IsWhole)
    (arg3 : Memref sig .tc .vmem S1000x256 .f32) (harg3 : arg3.IsWhole)
    (x0 : Vec F S1000x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at a point each
    input's buffer at its block and the output's at the product of the two input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  Region 1 of the program: the pallas_call that multiplies a block of 1000 rows by the whole weight
  matrix. At a grid point the body reads its two staging blocks (the row block and the weights), forms the
  matrix product into a zero accumulator and stores it over the whole output staging block. This module names
  what each window's staging buffer holds around the body (the row block and the weights as they are read off the
  arrays the region finds, the output as the one covering store's value), runs the body once on arbitrary whole
  staging buffers, and packages the result as the pipeline's proof data and its obligation at every point.
  Stated for any float instance.
-/
import proofs.«180572_j29351806501366_1_alg».proof.Proof.Gen.KernelIdeal.Launch
import proofs.«180572_j29351806501366_1_alg».proof.Proof.Gen.KernelIdeal.Skeleton
import proofs.«180572_j29351806501366_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole row block, the whole weight matrix, the whole output block: the three rectangles the body accesses. -/
abbrev r1_0 : Rect S1000x256 := Rect.unit (s := S1000x256) ![0, 0] S1000x256.size inb_S1000x256_S1000x256_0_0
abbrev r1_1 : Rect S256x128 := Rect.unit (s := S256x128) ![0, 0] S256x128.size inb_S256x128_S256x128_0_0
abbrev r1_2 : Rect S1000x128 := Rect.unit (s := S1000x128) ![0, 0] S1000x128.size inb_S1000x128_S1000x128_0_0

/-- The output staging buffer after the body: its one store, of the product of the two loaded blocks. -/
def out1_2 (x0 : Vec F S1000x256 .f32) (x1 : Vec F S256x128 .f32) : Vec F S1000x128 .f32 :=
  View.canon [⟨r1_2, k1_pay1 (View.ld x0 r1_0) (View.ld x1 r1_1)⟩]

/-- The one store covers the buffer. -/
theorem cover1_2 (p0 : Vec F S1000x128 .f32) (y : S1000x128.Idx) :
    ∃ pc ∈ ([⟨r1_2, p0⟩] : List (View.Piece (Elt F) S1000x128 .f32)), y ∈ pc.1.set :=
  View.cover_of_tiled [⟨r1_2, p0⟩] S1000x128.size (by rfl) y

set_option maxHeartbeats 1000000 in
/-- The body on whole staging memrefs, the inputs' at read contents `x0`, `x1` and the output's at anything, runs to
    the continuation holding the inputs' as they were and the output's at `out1_2` of the inputs'. -/
theorem sound_kernel1 (c : Dev nD) (E : Set ℕ) (i : grid1.Coords) (arg1 : Memref sig .tc .vmem S1000x256 .f32) (harg1 : arg1.IsWhole) (arg2 : Memref sig .tc .vmem S256x128 .f32) (harg2 : arg2.IsWhole)
    (arg3 : Memref sig .tc .vmem S1000x128 .f32) (harg3 : arg3.IsWhole)
    (x0 : Vec F S1000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at a point each
    input's buffer at its block and the output's at the product of the two input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
/-
  Region 2 of the program: the pallas_call that forms, block by block, the logistic of the product of a block of
  1024 rows of the hidden matrix with the transpose of another such block. The grid is 10 by 10; both input
  windows read the SAME array (one by the row coordinate of the grid, the other by the column coordinate), and the
  output window writes the 1024 by 1024 block at those coordinates. 10000 is not a multiple of 1024: the blocks at
  coordinate 9 overhang the arrays by 240 rows (or columns), their transfers move only the part inside the array,
  and the staging rows past it hold words nothing names.

  This module names what each window's staging buffer holds around the body — an input's buffer its block on the
  rows inside the array, the output's the one covering store's value —, runs the body once on arbitrary whole
  staging buffers, and packages the result as the pipeline's proof data and as its obligation at every point WITH
  THE OUTPUT WINDOW UNNAMED. For an arbitrary float instance a matrix product is known only as a function of its whole
  operands, so what the body makes of the unnamed rows cannot be separated from the rest of the output block; where
  the product is the exact contraction that separation holds, and the obligation naming the output is proved there,
  in a sibling module. Stated for any float instance.
-/
import proofs.«180572_j29351806501366_1_alg».proof.Proof.Gen.KernelIdeal.Launch
import proofs.«180572_j29351806501366_1_alg».proof.Proof.Gen.KernelIdeal.Skeleton
import proofs.«180572_j29351806501366_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it: the part of the block that lies
    inside the array (all 1024 rows, or the last 784 at block index 9). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A block's part inside the array filled out to the staging buffer's shape with the zero word on the rows past
    the array's end: rows nothing reads back. -/
def fblk2_0 (c : Dev nD) (t : Fin cfg2.N) : S1024x128.Idx → Elt F .f32 :=
  win2_0.fill (grid2.coords t) (fun _ => Scalar.ofBits .f32 0#32) (iblk2 V c 0 t)
def fblk2_1 (c : Dev nD) (t : Fin cfg2.N) : S1024x128.Idx → Elt F .f32 :=
  win2_1.fill (grid2.coords t) (fun _ => Scalar.ofBits .f32 0#32) (iblk2 V c 1 t)

/-- How a transfer of either input window cuts its block is a function of the block index alone. -/
theorem hclip2_0 (t t' : Fin cfg2.N) (h : (cfg2.win 0).index t = (cfg2.win 0).index t') :
    (cfg2.win 0).clip (cfg2.grid.coords t) = (cfg2.win 0).clip (cfg2.grid.coords t') := by
  funext a
  show Pipeline.Clip.of (cc2_transform_0 (grid2.coords t) a) _ _ = Pipeline.Clip.of (cc2_transform_0 (grid2.coords t') a) _ _
  rw [show cc2_transform_0 (grid2.coords t) a = cc2_transform_0 (grid2.coords t') a from congrFun h a]
theorem hclip2_1 (t t' : Fin cfg2.N) (h : (cfg2.win 1).index t = (cfg2.win 1).index t') :
    (cfg2.win 1).clip (cfg2.grid.coords t) = (cfg2.win 1).clip (cfg2.grid.coords t') := by
  funext a
  show Pipeline.Clip.of (cc2_transform_1 (grid2.coords t) a) _ _ = Pipeline.Clip.of (cc2_transform_1 (grid2.coords t') a) _ _
  rw [show cc2_transform_1 (grid2.coords t) a = cc2_transform_1 (grid2.coords t') a from congrFun h a]

/-! ## The body's accesses and what it leaves in the output window's buffer -/

/-- The whole input block and the whole output block: the rectangles of the body's three loads and its one store. -/
abbrev r2_0 : Rect S1024x128 := Rect.unit (s := S1024x128) ![0, 0] S1024x128.size inb_S1024x128_S1024x128_0_0
abbrev r2_2 : Rect S1024x1024 := Rect.unit (s := S1024x1024) ![0, 0] S1024x1024.size inb_S1024x1024_S1024x1024_0_0

/-- The output staging buffer after the body: its one store, of the logistic of the product of the first loaded block
    with the transpose of the second. -/
def out2_2 (x0 x1 : Vec F S1024x128 .f32) : Vec F S1024x1024 .f32 :=
  View.canon [⟨r2_2, k2_pay1 (View.ld x0 r2_0) (View.ld x1 r2_0)⟩]

/-- The one store covers the buffer. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

set_option maxHeartbeats 1000000 in
/-- The body on whole staging memrefs, the inputs' at read contents `x0`, `x1` and the output's at anything, runs to
    the continuation holding the inputs' as they were and the output's at `out2_2` of the inputs'. -/
theorem sound_kernel2 (c : Dev nD) (E : Set ℕ) (i : grid2.Coords) (arg2 : Memref sig .tc .vmem S1024x128 .f32) (harg2 : arg2.IsWhole)
    (arg3 : Memref sig .tc .vmem S1024x128 .f32) (harg3 : arg3.IsWhole) (arg4 : Memref sig .tc .vmem S1024x1024 .f32) (harg4 : arg4.IsWhole)
    (x0 x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at a point each
    input's buffer at its block filled out with zero words and the output's at what the body makes of those two; the
    invariant the scoped rest and the generator register, untouched; nothing owed; the two input windows, which read
    one array, each at a half of it, the output at the whole. -/
def dat2 (c : Dev nD) : Dat τ (Elt F) Unit ℕ (UR sig nD τ) ℕ cfg2 c where
  A w := V c (Pipeline.arrRef spec2 w)
  after w t := match w with
    | ⟨0, _⟩ => fblk2_0 V c t
    | ⟨1, _⟩ => fblk2_1 V c t
    | ⟨2, _⟩ => out2_2 (fblk2_0 V c t) (fblk2_1 V c t)
  Φ _ := Pipeline.ΦA spec2 c
  q w := if w.val = 0 then fullShare.left else if w.val = 1 then fullShare.right else fullShare
  owed _ := 0

theorem A_eq2 (c : Dev nD) (w : Fin cfg2.W) : (dat2 V c).A w = V c (Pipeline.arrRef spec2 w) := by
  dsimp only [dat2]
theorem Φ2 (c : Dev nD) (i : Fin (cfg2.N + 1)) : (dat2 V c).Φ i = Pipeline.ΦA spec2 c := by
  dsimp only [dat2]
theorem owed2 (c : Dev nD) (t : Fin (cfg2.N + 1)) : (dat2 V c).owed t = 0 := by
  dsimp only [dat2]

theorem after2_0 (c : Dev nD) (t : Fin cfg2.N) : (dat2 V c).after 0 t = fblk2_0 V c t := by dsimp only [dat2]
theorem after2_1 (c : Dev nD) (t : Fin cfg2.N) : (dat2 V c).after 1 t = fblk2_1 V c t := by dsimp only [dat2]
theorem after2_2 (c : Dev nD) (t : Fin cfg2.N) : (dat2 V c).after 2 t = out2_2 (fblk2_0 V c t) (fblk2_1 V c t) := by dsimp only [dat2]

/-- The shares: the two readers of the one input array hold its two halves, the output window its array outright. -/
theorem share2_0 (c : Dev nD) : (dat2 V c).share 0 = fullShare.left := rfl
theorem share2_1 (c : Dev nD) : (dat2 V c).share 1 = fullShare.right := rfl
theorem share2_2 (c : Dev nD) : (dat2 V c).share 2 = fullShare := rfl

/-- What the write-back or the next point sees of an input's buffer — its part inside the array — is the block. -/
theorem cut_after2_0 (c : Dev nD) (t : Fin cfg2.N) :
    (cfg2.win 0).cut (cfg2.grid.coords t) ((dat2 V c).after 0 t) = iblk2 V c 0 t := by
  rw [after2_0]; exact win2_0.cut_fill _ _ _
theorem cut_after2_1 (c : Dev nD) (t : Fin cfg2.N) :
    (cfg2.win 1).cut (cfg2.grid.coords t) ((dat2 V c).after 1 t) = iblk2 V c 1 t := by
  rw [after2_1]; exact win2_1.cut_fill _ _ _

/-- Each input's current staging buffer holds, at every point, fetched there or not, its block on the rows inside the
    array and on the rest whatever the fetch left there. -/
theorem before2_0 (c : Dev nD) (t : Fin cfg2.N) (d) :
    (dat2 V c).before 0 t d = win2_0.fill (grid2.coords t) d (iblk2 V c 0 t) :=
  ((dat2 V c).before_in_eq_fetched 0 rfl (fun _ => rfl) hclip2_0
    (fun t => by rw [cut_after2_0]; unfold Dat.blockOf iblk2; rw [A_eq2]) t d).trans
    (by unfold Dat.fetched Dat.blockOf iblk2; rw [A_eq2])
theorem before2_1 (c : Dev nD) (t : Fin cfg2.N) (d) :
    (dat2 V c).before 1 t d = win2_1.fill (grid2.coords t) d (iblk2 V c 1 t) :=
  ((dat2 V c).before_in_eq_fetched 1 rfl (fun _ => rfl) hclip2_1
    (fun t => by rw [cut_after2_1]; unfold Dat.blockOf iblk2; rw [A_eq2]) t d).trans
    (by unfold Dat.fetched Dat.blockOf iblk2; rw [A_eq2])

/-! ## The body obligation with the output window unnamed

For an arbitrary float instance nothing is known of a matrix product but that it is a function of its whole
operands. At the grid's last row and last column of blocks the input staging buffers hold, past the array's end,
words nothing names; so what the body makes of them in the output buffer is not named here either: the output window
is handed to the body at any contents and taken back at any contents. The two input windows are stated in full. -/

/-- The windows of which the obligation below says nothing: the output's. -/
def fgt2 : Fin cfg2.W → Bool := fun w => decide (w.val = 2)

/-- What the body is called with at point `t`, the windows one by one, -/
def bodyPre2f (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ X, owns (c : Thread nD τ) (st2_2 t) fullShare X))

/-- and what it returns: each input's buffer at its block on the rows inside the array, the output's at anything. -/
def bodyPost2f (c : Dev nD) (t : Fin cfg2.N) : sProp 𝕄 :=
  iprop((dat2 V c).Φ t.succ ∗ (dat2 V c).owesAt () t.succ
    ∗ (∃ d, owns (c : Thread nD τ) (st2_0 t) fullShare
        ((cfg2.win 0).fill (cfg2.grid.coords t) d ((cfg2.win 0).cut (cfg2.grid.coords t) ((dat2 V c).after 0 t))))
    ∗ (∃ d, owns (c : Thread nD τ) (st2_1 t) fullShare
        ((cfg2.win 1).fill (cfg2.grid.coords t) d ((cfg2.win 1).cut (cfg2.grid.coords t) ((dat2 V c).after 1 t))))
    ∗ (∃ X, owns (c : Thread nD τ) (st2_2 t) fullShare X))

/-- The body at any point: the inputs' memrefs hold their blocks filled out with whatever the fetch left past the
    array's end, the body's triple applies at those contents and leaves them in place; the invariant and the core's
    dues pass through unread. -/
theorem sound_body2f (c : Dev nD) (t : Fin cfg2.N) :
    bodyPre2f V c t ⊢ wp frame (wpE (defs₀ (F := F)) Variants.none c none) Set.univ (bodyAt2 t) (fun _ => bodyPost2f V c t) := by
  unfold bodyPre2f bodyPost2f bodyAt2
  simp only [before2_0, before2_1]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%X2, H2⟩⟩
  iapply (sound_kernel2 c Set.univ _ _ _ _ _ _ _ (win2_0.fill (grid2.coords t) d0 (iblk2 V c 0 t))
    (win2_1.fill (grid2.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    change _ ⊢ owns (c : Thread nD τ) (st2_0 t) fullShare
      ((cfg2.win 0).fill (cfg2.grid.coords t) d0 ((cfg2.win 0).cut (cfg2.grid.coords t) ((dat2 V c).after 0 t)))
    rw [cut_after2_0]
  isplitl [H1]
  · iexists d1
    change _ ⊢ owns (c : Thread nD τ) (st2_1 t) fullShare
      ((cfg2.win 1).fill (cfg2.grid.coords t) d1 ((cfg2.win 1).cut (cfg2.grid.coords t) ((dat2 V c).after 1 t)))
    rw [cut_after2_1]
  iexists _; iexact H2

/-- The pipeline's body obligation at every point, the output window unnamed. -/
theorem body_obligation2_fgt (c : Dev nD) :
    BodyObligationLoose (dat2 (F := F) V c) (defs₀ (F := F)) Variants.none () Set.univ fgt2 := fun t => by
  rw [bigSep_W2, bigSep_W2]
  exact sound_body2f V c t

end Cert.KernelIdeal.Hand

end
-- ==== Proof.Fold.lean ====
/-
  The buffer contents at every segment boundary of the program, as a fold through its host stretches and its three
  kernel regions: a host stretch changes the buffers its operations write, to the operations' values; a region
  changes its output array, to what its write-backs leave, and nothing else. Every pipeline's proof data is taken
  at the contents its region is entered from.
-/
import proofs.«180572_j29351806501366_1_alg».proof.Proof.Region0
import proofs.«180572_j29351806501366_1_alg».proof.Proof.Region1
import proofs.«180572_j29351806501366_1_alg».proof.Proof.Region2
import proofs.«180572_j29351806501366_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: the product array at what the write-backs leave, every other buffer as entered. -/
def W2 (c : Dev nD) : Valuation τ sig (Elt F) :=
  Function.update (W1 m c) (Proc.devRef .tc main_v27) ((dat0 (V1 m) c).arrAt 2 cfg0.N)
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev W4 : Dev nD → Valuation τ sig (Elt F) := fun c => StableHlo.after hostOps1_1 (W3 m c)
/-- Region 1's entry. -/
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
def W6 (c : Dev nD) : Valuation τ sig (Elt F) :=
  Function.update (W5 m c) (Proc.devRef .tc main_v68) ((dat1 (V5 m) c).arrAt 2 cfg1.N)
abbrev V6 : (c : Dev nD) → (b : Ref sig .tc) → Buf (Elt F) ((c : Thread nD τ).loc b) := fun c b => W6 m c b
abbrev W7 : Dev nD → Valuation τ sig (Elt F) := fun c => StableHlo.after hostOps2 (W6 m c)
/-- Region 2's entry. -/
abbrev W8 : Dev nD → Valuation τ sig (Elt F) := fun c => StableHlo.after hostOps2_1 (W7 m c)
abbrev V8 : (c : Dev nD) → (b : Ref sig .tc) → Buf (Elt F) ((c : Thread nD τ).loc b) := fun c b => W8 m c b
/-- The end. -/
def W9 (c : Dev nD) : Valuation τ sig (Elt F) :=
  Function.update (W8 m c) (Proc.devRef .tc main_v86) ((dat2 (V8 m) c).arrAt 2 cfg2.N)
abbrev V9 : (c : Dev nD) → (b : Ref sig .tc) → Buf (Elt F) ((c : Thread nD τ).loc b) := fun c b => W9 m c b

theorem W2_out (c : Dev nD) : W2 m c (Proc.devRef .tc main_v27) = (dat0 (V1 m) c).arrAt 2 cfg0.N := by
  unfold W2; exact Function.update_self ..
theorem W2_of_ne (c : Dev nD) (b : Ref sig .tc) (hb : b ≠ main_v27) : W2 m c (Proc.devRef .tc b) = W1 m c (Proc.devRef .tc b) := by
  unfold W2; exact Function.update_of_ne (StableHlo.devRef_ne_of_ne hb) ..
theorem W6_out (c : Dev nD) : W6 m c (Proc.devRef .tc main_v68) = (dat1 (V5 m) c).arrAt 2 cfg1.N := by
  unfold W6; exact Function.update_self ..
theorem W6_of_ne (c : Dev nD) (b : Ref sig .tc) (hb : b ≠ main_v68) : W6 m c (Proc.devRef .tc b) = W5 m c (Proc.devRef .tc b) := by
  unfold W6; exact Function.update_of_ne (StableHlo.devRef_ne_of_ne hb) ..
theorem W9_out (c : Dev nD) : W9 m c (Proc.devRef .tc main_v86) = (dat2 (V8 m) c).arrAt 2 cfg2.N := by
  unfold W9; exact Function.update_self ..
theorem W9_of_ne (c : Dev nD) (b : Ref sig .tc) (hb : b ≠ main_v86) : W9 m c (Proc.devRef .tc b) = W8 m c (Proc.devRef .tc b) := by
  unfold W9; exact Function.update_of_ne (StableHlo.devRef_ne_of_ne hb) ..

/-- At region 0's exit each of its arrays holds what the pipeline leaves, and every other buffer what it held at entry. -/
theorem hF0 (c : Dev nD) (w : Fin cfg0.W) : (dat0 (V1 m) c).arrAt w cfg0.N = V2 m c (Pipeline.arrRef spec0 w) := by
  match w with
  | ⟨0, _⟩ => exact (((dat0 (V1 m) c).arrAt_in 0 rfl _).trans (A_eq0 (V1 m) c 0)).trans (W2_of_ne m c main_arg0 (by decide)).symm
  | ⟨1, _⟩ => exact (((dat0 (V1 m) c).arrAt_in 1 rfl _).trans (A_eq0 (V1 m) c 1)).trans (W2_of_ne m c main_arg3 (by decide)).symm
  | ⟨2, _⟩ => exact (W2_out m c).symm
theorem hrest0 (c : Dev nD) : ∀ b, b ∉ Finset.univ.image (Pipeline.arrRef spec0) → V2 m c b = V1 m c b :=
  fun b hb => W2_of_ne m c b fun e => hb (Finset.mem_image.mpr ⟨2, Finset.mem_univ _, e.symm⟩)
theorem hF1 (c : Dev nD) (w : Fin cfg1.W) : (dat1 (V5 m) c).arrAt w cfg1.N = V6 m c (Pipeline.arrRef spec1 w) := by
  match w with
  | ⟨0, _⟩ => exact (((dat1 (V5 m) c).arrAt_in 0 rfl _).trans (A_eq1 (V5 m) c 0)).trans (W6_of_ne m c main_v44 (by decide)).symm
  | ⟨1, _⟩ => exact (((dat1 (V5 m) c).arrAt_in 1 rfl _).trans (A_eq1 (V5 m) c 1)).trans (W6_of_ne m c main_arg5 (by decide)).symm
  | ⟨2, _⟩ => exact (W6_out m c).symm
theorem hrest1 (c : Dev nD) : ∀ b, b ∉ Finset.univ.image (Pipeline.arrRef spec1) → V6 m c b = V5 m c b :=
  fun b hb => W6_of_ne m c b fun e => hb (Finset.mem_image.mpr ⟨2, Finset.mem_univ _, e.symm⟩)

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
  | ⟨2, _⟩ => fun c => dat2 (V8 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Regs01.lean ====
/-
  Regions 0 and 1 as segments of the program's run: each is entered from every unscoped buffer at the contents the
  segment before it left, splits its three arrays out of them, runs its pipeline, and puts the arrays back with the
  product array at what the write-backs leave.
-/
import proofs.«180572_j29351806501366_1_alg».proof.Proof.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered from every unscoped buffer at `W1`, left at `W2`. Its arrays are split
    out of the unscoped buffers and put back at the exit contents; the generator register goes into the class invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at the exit contents; the generator register goes into the class invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Region2Arrays.lean ====
/-
  Region 2's arrays among the core's unscoped buffers. The pipeline's three windows stand on two buffers: the hidden
  matrix, read by both input windows, and the output matrix. A points-to of a whole buffer at the full share splits
  into two at its two half shares and joins back; this module states that at the region's entry (the hidden matrix's
  points-to split between the two reading windows) and at its exit (the halves, still at the entry contents — an
  input array is never written —, joined again, and the output matrix at what the write-backs leave).
  Stated for any float instance.
-/
import proofs.«180572_j29351806501366_1_alg».proof.Proof.Region2
import proofs.«180572_j29351806501366_1_alg».proof.Proof.Gen.KernelIdeal.Launch
import proofs.«180572_j29351806501366_1_alg».proof.Proof.Gen.KernelIdeal.Skeleton
import proofs.«180572_j29351806501366_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The region's arrays among the core's unscoped buffers

The three windows stand on TWO buffers: the hidden matrix, which both input windows read, and the output matrix. At
the region's entry the hidden matrix's whole points-to is split into two halves, one per reading window; at its exit
the halves — both still at the entry contents, an input array being never written — are joined again. -/

/-- The buffers behind the three windows' arrays are two. -/
theorem arrImage2 : (Finset.univ.image (Pipeline.arrRef spec2) : Finset (Ref sig .tc)) = {main_v85, main_v86} := by decide

/-- A core's unscoped buffers are the buffers behind pipeline 2's arrays and the rest. -/
theorem split2 (c : Dev nD) (Vc : (b : Ref sig .tc) → Buf (Elt F) ((c : Thread nD τ).loc b)) :
    (unscopedBufs c Vc : sProp 𝕄) = iprop((Pipeline.arrBufs spec2 c Vc : sProp 𝕄) ∗ Pipeline.unscopedRest spec2 c Vc) :=
  Pipeline.unscopedBufs_split₀ cfgs 2 winFacts₀2.arr_unscoped c Vc

/-- The buffers behind the arrays, one by one. -/
theorem arrBufs_eq2 (c : Dev nD) (Vc : (b : Ref sig .tc) → Buf (Elt F) ((c : Thread nD τ).loc b)) :
    (Pipeline.arrBufs spec2 c Vc : sProp 𝕄)
      = iprop((((c : Thread nD τ).loc main_v85) ↦{fullShare} Vc main_v85) ∗ (((c : Thread nD τ).loc main_v86) ↦{fullShare} Vc main_v86)) := by
  unfold Pipeline.arrBufs
  rw [arrImage2, bigSep_insert (by decide), bigSep_singleton]
  rfl

/-- The pipeline's arrays at contents `G`, one by one: the hidden matrix at its two halves, the output matrix whole. -/
theorem arrays_eq2 (c : Dev nD) (G : (w : Fin cfg2.W) → Buf (Elt F) ((cfg2.win w).arr.view.loc (c : Thread nD τ))) :
    ((dat2 V c).arrays G : sProp 𝕄)
      = iprop((((c : Thread nD τ).loc main_v85) ↦{fullShare.left} G 0) ∗ (((c : Thread nD τ).loc main_v85) ↦{fullShare.right} G 1)
          ∗ (((c : Thread nD τ).loc main_v86) ↦{fullShare} G 2)) := by
  unfold Dat.arrays
  -- the two input windows stand on one array: one rewrite serves both
  rw [bigSep_W2, (arr_whole2 0).set_eq_univ, (arr_whole2 2).set_eq_univ]
  rfl

/-- ENTRY: a core's unscoped buffers at contents `V c` are pipeline 2's arrays at the proof data's entry contents —
    the hidden matrix at its two halves, the output matrix whole — and the unscoped rest. -/
theorem arrays_in2 (c : Dev nD) :
    (unscopedBufs c (V c) : sProp 𝕄)
      ⊢ iprop((dat2 V c).arrays ((dat2 V c).arrAt · 0)
          ∗ Pipeline.unscopedRest (Ix := Unit) (Name := ℕ) (U := UR sig nD τ) (Lvl := ℕ) spec2 c (V c)) := by
  rw [split2, arrBufs_eq2, arrays_eq2]
  iintro ⟨⟨H85, H86⟩, Hrest⟩
  ihave H := (pointsTo_share (PosShare.mem_left_op_right fullShare)).1 $$ H85
  icases H with ⟨Hl, Hr⟩
  isplitr [Hrest]
  · isplitl [Hl]; · iexact Hl
    isplitl [Hr]; · iexact Hr
    iexact H86
  iexact Hrest

/-- The two halves of the hidden matrix at the entry contents, the output matrix at any contents `x` and the unscoped
    rest at the entry contents are the core's unscoped buffers at any valuation that has the output matrix at `x` and
    agrees with the entry contents elsewhere. -/
theorem join2 (c : Dev nD) (Vc' : (b : Ref sig .tc) → Buf (Elt F) ((c : Thread nD τ).loc b))
    (x : Buf (Elt F) ((c : Thread nD τ).loc main_v86)) (h86 : Vc' main_v86 = x) (hrest : ∀ b, b ≠ main_v86 → Vc' b = V c b) :
    iprop(((((c : Thread nD τ).loc main_v85) ↦{fullShare.left} V c main_v85) ∗ (((c : Thread nD τ).loc main_v85) ↦{fullShare.right} V c main_v85)
          ∗ (((c : Thread nD τ).loc main_v86) ↦{fullShare} x))
        ∗ Pipeline.unscopedRest (Ix := Unit) (Name := ℕ) (U := UR sig nD τ) (Lvl := ℕ) spec2 c (V c))
      ⊢ (unscopedBufs c Vc' : sProp 𝕄) := by
  have hR : (Pipeline.unscopedRest spec2 c (V c) : sProp 𝕄) = Pipeline.unscopedRest spec2 c Vc' := by
    unfold Pipeline.unscopedRest
    exact bigSep_congr fun b hb => by
      rw [hrest b fun e => (Finset.mem_sdiff.mp hb).2 (by rw [arrImage2, e]; decide)]
  rw [split2 c Vc', arrBufs_eq2, h86, hrest main_v85 (by decide), hR]
  iintro ⟨⟨Hl, Hr, H86⟩, Hrest⟩
  isplitr [Hrest]
  · isplitl [Hl Hr]
    · iapply (pointsTo_share (PosShare.mem_left_op_right fullShare)).2
      isplitl [Hl]; · iexact Hl
      iexact Hr
    iexact H86
  iexact Hrest

/-- EXIT: pipeline 2's arrays at what the proof data computes after the last write-back — the hidden matrix's two
    halves at the entry contents, the output matrix at what the write-backs leave — and the unscoped rest are the
    core's unscoped buffers at any valuation `V'` that has the output matrix there and agrees with `V` elsewhere. -/
theorem arrays_out2 (V' : (c : Dev nD) → (b : Ref sig .tc) → Buf (Elt F) ((c : Thread nD τ).loc b)) (c : Dev nD)
    (hF : (dat2 V c).arrAt 2 cfg2.N = V' c main_v86) (hrest : ∀ b, b ≠ main_v86 → V' c b = V c b) :
    iprop((dat2 V c).arrays ((dat2 V c).arrAt · cfg2.N)
        ∗ Pipeline.unscopedRest (Ix := Unit) (Name := ℕ) (U := UR sig nD τ) (Lvl := ℕ) spec2 c (V c))
      ⊢ (unscopedBufs c (V' c) : sProp 𝕄) := by
  rw [arrays_eq2]
  beta_reduce
  rw [(dat2 V c).arrAt_in 0 rfl, (dat2 V c).arrAt_in 1 rfl, hF]
  exact join2 V c (V' c) (V' c main_v86) rfl hrest

end Cert.KernelIdeal.Hand

end
-- ==== Proof.Run.lean ====
/-
  The program's run at exact proof data: the nine segments of the program (six host stretches, three kernel
  regions) composed in order from the launch, each region entered from the contents the previous segment left and
  left at its output array's final contents. Every final memory holds each buffer at the last boundary's contents,
  given the last region's body obligation in its exact form.
-/
import proofs.«180572_j29351806501366_1_alg».proof.Proof.Regs01
import proofs.«180572_j29351806501366_1_alg».proof.Proof.Region2Arrays

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2: its two input windows read one array, whose whole points-to is split between them at entry and joined
    again at exit; its output array ends at what the clipped write-backs leave. -/
def reg2 (hb2 : ∀ (V : (c : Dev nD) → (b : Ref sig .tc) → Buf (Elt F) ((c : Thread nD τ).loc b)) (c : Dev nD), Pipeline.BodyObligationLoose (dat2 (F := F) V c) (defs₀ (F := F)) Variants.none () Set.univ) : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := hb2 (V8 m) c
  hwaits := Pipeline.hwaits_of_owed_zero _ _ _ _ L lv 2 fun c t => owed2 (V8 m) c t
  pre c := iprop(StableHlo.held (c : Thread nD τ) (Pipeline.ucRefs τ sig) (W8 m c) ∗ R c)
  post c := iprop((StableHlo.held (c : Thread nD τ) (Pipeline.ucRefs τ sig) (W9 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := arrays_in2 (V8 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Φ2 (V8 m) c 0]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from Φ2 (V8 m) c _]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest (Ix := Unit) (Name := ℕ) (U := UR sig nD τ) (Lvl := ℕ) spec2 c (V8 m c))
        ⊢ (unscopedBufs c (V9 m c) : sProp 𝕄) := arrays_out2 (V8 m) (V9 m) c (W9_out m c).symm (fun b hb => W9_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's nine segments in order. -/
abbrev segs (hb2 : ∀ (V : (c : Dev nD) → (b : Ref sig .tc) → Buf (Elt F) ((c : Thread nD τ).loc b)) (c : Dev nD), Pipeline.BodyObligationLoose (dat2 (F := F) V c) (defs₀ (F := F)) Variants.none () Set.univ) : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .host (hseg hostOps2_1 hostOps2_1_sub hostOps2_1_fresh (W7 m)),
    .region (reg2 m hb2) ]

theorem main_run (hb2 : ∀ (V : (c : Dev nD) → (b : Ref sig .tc) → Buf (Elt F) ((c : Thread nD τ).loc b)) (c : Dev nD), Pipeline.BodyObligationLoose (dat2 (F := F) V c) (defs₀ (F := F)) Variants.none () Set.univ) (c : Dev nD) : main (F := F) c = Pipeline.Seg.run (segs m hb2) := (main_chain c).trans (by chain_rfl)

set_option backward.isDefEq.respectTransparency.types false in
/-- THE RUN: from any memory with zero counters every weakly fair execution of the program terminates, nothing
    faulting, and every final memory holds each unscoped buffer at the last boundary's contents. -/
theorem run_all (hb2 : ∀ (V : (c : Dev nD) → (b : Ref sig .tc) → Buf (Elt F) ((c : Thread nD τ).loc b)) (c : Dev nD), Pipeline.BodyObligationLoose (dat2 (F := F) V c) (defs₀ (F := F)) Variants.none () Set.univ) (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m hb2)
    (fun c Q => by rw [main_run m hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Hand

end
-- ==== Proof.Region2R.lean ====
/-
  Region 2's exit with the output window unnamed. Read relationally with the output window forgotten, the proof data
  say of the output matrix only that it ends at SOME contents, and of the two input windows' array that it ends at
  what it held at entry. So the arrays after the last write-back, with the unscoped rest, are the core's unscoped
  buffers at the entry valuation changed at the output matrix alone. Stated for any float instance.
-/
import proofs.«180572_j29351806501366_1_alg».proof.Proof.Region2Arrays
import proofs.«180572_j29351806501366_1_alg».proof.Proof.Gen.KernelIdeal.Launch
import proofs.«180572_j29351806501366_1_alg».proof.Proof.Gen.KernelIdeal.Skeleton
import proofs.«180572_j29351806501366_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The exit with the output window unnamed

Read with the output window forgotten, the proof data still pin the two input windows' array — an input array holds
at the end what it held at entry — and say of the output matrix only that it holds SOME contents: the core's
unscoped buffers then stand at the entry valuation updated, at the output matrix, to those contents. -/

/-- EXIT, the output unnamed: the arrays at some contents they may hold after the last write-back and the unscoped rest
    are the core's unscoped buffers at the entry contents but for the output matrix, which holds some contents. -/
theorem arrays_out2R (c : Dev nD) :
    iprop(((dat2 V c).toRForget fgt2).arraysAt cfg2.N
        ∗ Pipeline.unscopedRest (Ix := Unit) (Name := ℕ) (U := UR sig nD τ) (Lvl := ℕ) spec2 c (V c))
      ⊢ (iprop(∃ x : Buf (Elt F) ((c : Thread nD τ).loc main_v86), unscopedBufs c (Function.update (V c) main_v86 x)) : sProp 𝕄) := by
  unfold Pipeline.RDat.arraysAt
  -- the two input windows stand on one array: one rewrite serves both
  rw [bigSep_W2, (arr_whole2 0).set_eq_univ, (arr_whole2 2).set_eq_univ]
  iintro ⟨⟨⟨%G0, %h0, H0⟩, ⟨%G1, %h1, H1⟩, ⟨%G2, -, H2⟩⟩, Hrest⟩
  -- a window not forgotten holds what the exact data compute, and an input array what it held at entry
  have e0 : G0 = (dat2 V c).A (0 : Fin 3) :=
    (((dat2 V c).toRForget_arrAt_iff (fgt := fgt2) (w := (0 : Fin 3)) rfl cfg2.N G0).mp h0).trans ((dat2 V c).arrAt_in (0 : Fin 3) rfl cfg2.N)
  have e1 : G1 = (dat2 V c).A (1 : Fin 3) :=
    (((dat2 V c).toRForget_arrAt_iff (fgt := fgt2) (w := (1 : Fin 3)) rfl cfg2.N G1).mp h1).trans ((dat2 V c).arrAt_in (1 : Fin 3) rfl cfg2.N)
  subst e0; subst e1
  iexists G2
  iapply (join2 V c (Function.update (V c) main_v86 G2) G2 (Function.update_self _ _ _) fun b hb => Function.update_of_ne hb _ _)
  isplitr [Hrest]
  · isplitl [H0]; · iexact H0
    isplitl [H1]; · iexact H1
    iexact H2
  iexact Hrest

end Cert.KernelIdeal.Hand

end
-- ==== Proof.RunR.lean ====
/-
  The program's run at relational proof data, for any float instance: as the exact run, but the last region's output
  window is left unnamed — at a general float instance the matrix product of a staging block whose overhanging rows
  hold arbitrary words is not a function of the rows inside the array, so nothing is said of what that region writes
  back. Every final memory holds each buffer at the contents the last region was entered from, except the last
  region's output array; in particular the program's arguments end as launched.
-/
import proofs.«180572_j29351806501366_1_alg».proof.Proof.Regs01
import proofs.«180572_j29351806501366_1_alg».proof.Proof.Region2R

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data read relationally, the last region's output window forgotten. -/
def rdats : (p : Fin 3) → (c : Dev nD) → Pipeline.RDat τ (Elt F) Unit ℕ (UR sig nD τ) ℕ (Pipeline.pin (pcfgs (F := F)) adm p) c
  | ⟨0, _⟩ => fun c => (dat0 (V1 m) c).toR
  | ⟨1, _⟩ => fun c => (dat1 (V5 m) c).toR
  | ⟨2, _⟩ => fun c => (dat2 (V8 m) c).toRForget fgt2

/-- The buffers at the end, the last region's output array at contents `x`. -/
def W9x (c : Dev nD) (x : Buf (Elt F) ((c : Thread nD τ).loc main_v86)) : Valuation τ sig (Elt F) :=
  Function.update (W8 m c) (Proc.devRef .tc main_v86) x

theorem W9x_of_ne (c : Dev nD) (x) (b : Ref sig .tc) (hb : b ≠ main_v86) : W9x m c x (Proc.devRef .tc b) = W8 m c (Proc.devRef .tc b) := by
  unfold W9x; exact Function.update_of_ne (StableHlo.devRef_ne_of_ne hb) ..

theorem W9x_refs (c : Dev nD) (x : Buf (Elt F) ((c : Thread nD τ).loc main_v86)) :
    (fun b : Ref sig .tc => W9x m c x (Proc.devRef .tc b)) = Function.update (V8 m c) main_v86 x := by
  funext b
  by_cases h : b = main_v86
  · subst h; unfold W9x; rw [Function.update_self, Function.update_self]
  · rw [W9x_of_ne m c x b h, Function.update_of_ne h]

set_option backward.isDefEq.respectTransparency.types false in
def regR0 : Pipeline.RDat.RegionSeg (pcfgs (F := F)) adm (rdats m) () defs₀ 𝒱₀ L lv 0 where
  win := (reg0 m).win
  block_pos := (reg0 m).block_pos
  stage_whole := (reg0 m).stage_whole
  K := PEmpty
  osem k := k.elim
  ho := Pipeline.OwnSemFacts.none _
  hbody c := ((reg0 m).hbody c).toR
  hwaits := Pipeline.RDat.hwaits_of_owed_zero _ _ _ _ L lv 0 fun _ _ => rfl
  pre := (reg0 m).pre
  post := (reg0 m).post
  X := (reg0 m).X
  Y := (reg0 m).Y
  Z := (reg0 m).Z
  hentry := (reg0 m).hentry
  hin := (reg0 m).hin
  hout := (reg0 m).hout
  hexit c := (sep_mono (Entails.of_eq ((pdats m 0 c).toR_arraysAt_eq cfg0.N)) .rfl).trans ((reg0 m).hexit c)

set_option backward.isDefEq.respectTransparency.types false in
def regR1 : Pipeline.RDat.RegionSeg (pcfgs (F := F)) adm (rdats m) () defs₀ 𝒱₀ L lv 1 where
  win := (reg1 m).win
  block_pos := (reg1 m).block_pos
  stage_whole := (reg1 m).stage_whole
  K := PEmpty
  osem k := k.elim
  ho := Pipeline.OwnSemFacts.none _
  hbody c := ((reg1 m).hbody c).toR
  hwaits := Pipeline.RDat.hwaits_of_owed_zero _ _ _ _ L lv 1 fun _ _ => rfl
  pre := (reg1 m).pre
  post := (reg1 m).post
  X := (reg1 m).X
  Y := (reg1 m).Y
  Z := (reg1 m).Z
  hentry := (reg1 m).hentry
  hin := (reg1 m).hin
  hout := (reg1 m).hout
  hexit c := (sep_mono (Entails.of_eq ((pdats m 1 c).toR_arraysAt_eq cfg1.N)) .rfl).trans ((reg1 m).hexit c)

/-- The last thread state: every unscoped buffer at the last region's entry contents but its output array, which
    holds some contents; the generator register at some state. -/
abbrev TnR (c : Dev nD) : sProp 𝕄 :=
  iprop((∃ x, StableHlo.held (c : Thread nD τ) (Pipeline.ucRefs τ sig) (W9x m c x)) ∗ ∃ r, prngReg c r)

set_option backward.isDefEq.respectTransparency.types false in
/-- Region 2 with its output window forgotten. -/
def regR2 : Pipeline.RDat.RegionSeg (pcfgs (F := F)) adm (rdats m) () defs₀ 𝒱₀ L lv 2 where
  win := winFacts₀2
  block_pos := block_pos2
  stage_whole := stage_whole2
  K := PEmpty
  osem k := k.elim
  ho := Pipeline.OwnSemFacts.none _
  hbody c := (body_obligation2_fgt (V8 m) c).toRForget
  hwaits := Pipeline.RDat.hwaits_of_owed_zero _ _ _ _ L lv 2 fun c t => owed2 (V8 m) c t
  pre c := iprop(StableHlo.held (c : Thread nD τ) (Pipeline.ucRefs τ sig) (W8 m c) ∗ R c)
  post c := iprop(TnR m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit : (unscopedBufs c (V8 m c) : sProp 𝕄) ⊢ iprop((rdats m 2 c).arrays (rdats m 2 c).A ∗ Pipeline.unscopedRest (Ix := Unit) (Name := ℕ) (U := UR sig nD τ) (Lvl := ℕ) spec2 c (V8 m c)) := arrays_in2 (V8 m) c
    rw [Pipeline.unscopedBufs_held] at hsplit
    rw [show (rdats m 2 c).owesAt () 0 = (dat2 (V8 m) c).owesAt () 0 from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from Φ2 (V8 m) c 0]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from Φ2 (V8 m) c (Fin.last _)]; unfold Pipeline.ΦA
    iintro ⟨Hr, Hp⟩
    isplitl [Hp]; · iexact Hp
    isplitr; · iempintro
    iexact Hr
  hexit c := by
    have hjoin : iprop((rdats m 2 c).arraysAt cfg2.N ∗ Pipeline.unscopedRest (Ix := Unit) (Name := ℕ) (U := UR sig nD τ) (Lvl := ℕ) spec2 c (V8 m c))
        ⊢ (iprop(∃ x : Buf (Elt F) ((c : Thread nD τ).loc main_v86), unscopedBufs c (Function.update (V8 m c) main_v86 x)) : sProp 𝕄) := arrays_out2R (V8 m) c
    rw [show (rdats m 2 c).owesAt () (Fin.last _) = (dat2 (V8 m) c).owesAt () (Fin.last _) from rfl]
    iintro ⟨Ha, HO, HY, Hrest⟩
    imodintro
    isplitl [Ha Hrest HY]
    · isplitl [Ha Hrest]
      · ihave H := hjoin $$ [Ha Hrest]
        · isplitl [Ha] <;> iassumption
        icases H with ⟨%x, H⟩
        iexists x
        rw [← Pipeline.unscopedBufs_held c (W9x m c x), W9x_refs m c x]
        iexact H
      iexact HY
    unfold Pipeline.Dat.owesAt Pipeline.owesWithin
    icases HO with ⟨%W, -, HO⟩; iexists W; iexact HO

abbrev segsR : List (Pipeline.RDat.Seg (pcfgs (F := F)) adm (rdats m) () defs₀ 𝒱₀ L lv) :=
  [ .host (hseg hostOps0 hostOps0_sub hostOps0_fresh (W0 m)),
    .region (regR0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (regR1 m),
    .host (hseg hostOps2 hostOps2_sub hostOps2_fresh (W6 m)),
    .host (hseg hostOps2_1 hostOps2_1_sub hostOps2_1_fresh (W7 m)),
    .region (regR2 m) ]

theorem main_runR (c : Dev nD) : main (F := F) c = Pipeline.RDat.Seg.run (segsR m) := (main_chain c).trans (by chain_rfl)

/-- No segment writes an argument: the fold at an argument's buffer walks back to the launch memory. -/
theorem W8_arg (c : Dev nD) (r : Ref sig .tc) (h0 : r ∉ hostOps0_W) (h1 : r ∉ hostOps1_W) (h2 : r ∉ hostOps1_1_W) (h3 : r ∉ hostOps1_2_W)
    (h4 : r ∉ hostOps2_W) (h5 : r ∉ hostOps2_1_W) (h27 : r ≠ main_v27) (h68 : r ≠ main_v68) :
    W8 m c (Proc.devRef .tc r) = m ((c : Thread nD τ).loc r) :=
  (StableHlo.after_of_writes_sub hostOps2_1 _ hostOps2_1_writes h5).trans <|
  (StableHlo.after_of_writes_sub hostOps2 _ hostOps2_writes h4).trans <|
  (W6_of_ne m c r h68).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1).trans <|
  (W2_of_ne m c r h27).trans <|
  (StableHlo.after_of_writes_sub hostOps0 _ hostOps0_writes h0).trans rfl

set_option backward.isDefEq.respectTransparency.types false in
/-- THE FRAME at any float instance: every weakly fair execution from zero counters terminates, nothing faulting, and
    the seven argument arrays end as launched. -/
theorem frameR (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.RDat.θ_run_regions_kit (pcfgs (F := F)) adm (rdats m) () cellOf_inj emb₁ defs₀ 𝒱₀ L lv m ρ main (segsR m)
    (fun c Q => by rw [main_runR m c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := TnR m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ x, ∀ b ∈ Pipeline.ucRefs τ sig, s.mem (((c : Thread nD τ)).1, b) = W9x m c x b)
    (hfin := fun c s' => by
      iintro ⟨⟨⟨%x, Hh⟩, -⟩, HSI⟩
      unfold StableHlo.held
      ihave Hr := (pointsTo_read_all (Pipeline.ucRefs τ sig) (fun b => (((c : Thread nD τ)).1, b)) (W9x m c x) s') $$ [Hh HSI]
      · isplitl [Hh] <;> iassumption
      icases Hr with ⟨%h, HSI⟩
      imodintro
      isplitr
      · ipureintro; exact ⟨x, h⟩
      · iexact HSI)
    (hQ := fun s h c => by
      obtain ⟨x, hx⟩ := h c
      exact ⟨(hx _ (mem_uc main_arg0 (by decide))).trans ((W9x_of_ne m c x main_arg0 (by decide)).trans (W8_arg m c main_arg0 (by decide) (by decide) (by decide) (by decide) (by decide) (by decide) (by decide) (by decide))),
        (hx _ (mem_uc main_arg1 (by decide))).trans ((W9x_of_ne m c x main_arg1 (by decide)).trans (W8_arg m c main_arg1 (by decide) (by decide) (by decide) (by decide) (by decide) (by decide) (by decide) (by decide))),
        (hx _ (mem_uc main_arg2 (by decide))).trans ((W9x_of_ne m c x main_arg2 (by decide)).trans (W8_arg m c main_arg2 (by decide) (by decide) (by decide) (by decide) (by decide) (by decide) (by decide) (by decide))),
        (hx _ (mem_uc main_arg3 (by decide))).trans ((W9x_of_ne m c x main_arg3 (by decide)).trans (W8_arg m c main_arg3 (by decide) (by decide) (by decide) (by decide) (by decide) (by decide) (by decide) (by decide))),
        (hx _ (mem_uc main_arg4 (by decide))).trans ((W9x_of_ne m c x main_arg4 (by decide)).trans (W8_arg m c main_arg4 (by decide) (by decide) (by decide) (by decide) (by decide) (by decide) (by decide) (by decide))),
        (hx _ (mem_uc main_arg5 (by decide))).trans ((W9x_of_ne m c x main_arg5 (by decide)).trans (W8_arg m c main_arg5 (by decide) (by decide) (by decide) (by decide) (by decide) (by decide) (by decide) (by decide))),
        (hx _ (mem_uc main_arg6 (by decide))).trans ((W9x_of_ne m c x main_arg6 (by decide)).trans (W8_arg m c main_arg6 (by decide) (by decide) (by decide) (by decide) (by decide) (by decide) (by decide) (by decide)))⟩)

end Cert.KernelIdeal.Hand

end
-- ==== Proof.Region2Ideal.lean ====
/-
  Region 2 at the exact values. Where a float is an extended real and a matrix product is the exact contraction,
  element (r, c) of the block the body stores is the logistic of the dot product of row r of the first input block
  with row c of the second. Hence the part of the output block inside the array — which alone is written back —
  reads only input rows inside the array, and does not depend on the words that fill the input staging buffers past
  the array's end at the grid's last row and column of blocks. This gives the pipeline's body obligation with EVERY
  window named, the output's included, for the proof data of the sibling module.
-/
import proofs.«180572_j29351806501366_1_alg».proof.Proof.Region2
import proofs.«180572_j29351806501366_1_alg».proof.Proof.Gen.KernelIdeal.Launch
import proofs.«180572_j29351806501366_1_alg».proof.Proof.Gen.KernelIdeal.Skeleton
import proofs.«180572_j29351806501366_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

local notation "𝕄" => MT nD τ sig Unit (Elt Ideal) ℕ (UR sig nD τ) ℕ

/-! ## The body's payload at an element, at the exact values -/

/-- The zero offsets, spelt as the constant function. -/
theorem hz2 : (![0, 0] : Fin 2 → Nat) = fun _ => 0 := funext fun a => by fin_cases a <;> rfl

/-- The output staging block after the body is the body's payload of the two whole input blocks: the loads read the
    blocks whole and the one store covers the buffer. -/
theorem out2_2_eq (x0 x1 : Vec Ideal S1024x128 .f32) : out2_2 x0 x1 = k2_pay1 x0 x1 := by
  unfold out2_2
  rw [View.canon_unit_zero hz2, View.ld_unit_zero hz2, View.ld_unit_zero hz2]

/-- At the exact values, element `(r, c)` of the payload is the logistic of the dot product of row `r` of the first
    block with row `c` of the second: the format changes are the identity, the transpose swaps the second block's
    coordinates, and the matrix product into the zero accumulator is the sum over the contraction index. -/
theorem k2_pay1_apply (x0 x1 : Vec Ideal S1024x128 .f32) (r c : Fin 1024) :
    k2_pay1 (F := Ideal) x0 x1 (ix2 r c) = Ideal.logistic (∑ k : Fin 128, x0 (ix2 r k) * x1 (ix2 c k)) := by
  unfold k2_pay1
  show Ideal.logistic (FloatOps.matmul dot_S1024x128_S128x1024_S1024x1024_1_0_0_1_n_n none _ _
    (constant (F := Ideal) S1024x1024 .f32 0x00000000#32) (ix2 r c)) = _
  rw [Ideal.matmul_constant_zero_apply,
    ← Equiv.sum_comp (contrEquiv1 dot_S1024x128_S128x1024_S1024x1024_1_0_0_1_n_n 128 rfl rfl).symm]
  refine congrArg Ideal.logistic (Finset.sum_congr rfl fun k _ => ?_)
  have hl : dot_S1024x128_S128x1024_S1024x1024_1_0_0_1_n_n.lhsIdx (ix2 r c)
      ((contrEquiv1 dot_S1024x128_S128x1024_S1024x1024_1_0_0_1_n_n 128 rfl rfl).symm k) = ix2 r k := by
    funext a
    match a with
    | ⟨0, _⟩ => exact Fin.ext rfl
    | ⟨1, _⟩ =>
      exact Fin.ext ((dot_S1024x128_S128x1024_S1024x1024_1_0_0_1_n_n.lhsIdx_val_of_single rfl _ _).trans
        (contrEquiv1_symm_val _ 128 rfl rfl k))
  have hr : dot_S1024x128_S128x1024_S1024x1024_1_0_0_1_n_n.rhsIdx (ix2 r c)
      ((contrEquiv1 dot_S1024x128_S128x1024_S1024x1024_1_0_0_1_n_n 128 rfl rfl).symm k) = ix2 k c := by
    funext a
    match a with
    | ⟨0, _⟩ =>
      exact Fin.ext ((dot_S1024x128_S128x1024_S1024x1024_1_0_0_1_n_n.rhsIdx_val_of_single rfl _ _).trans
        (contrEquiv1_symm_val _ 128 rfl rfl k))
    | ⟨1, _⟩ => exact Fin.ext rfl
  rw [hl, hr, transpose_ix2_apply]
  simp only [truncf_apply, shapeCast_self]

/-- So element `(r, c)` of the output staging block depends on the first input block through its row `r` only and on
    the second through its row `c` only. -/
theorem out2_2_congr (x0 x0' x1 x1' : Vec Ideal S1024x128 .f32) (r c : Fin 1024)
    (h0 : ∀ k, x0 (ix2 r k) = x0' (ix2 r k)) (h1 : ∀ k, x1 (ix2 c k) = x1' (ix2 c k)) :
    out2_2 x0 x1 (ix2 r c) = out2_2 x0' x1' (ix2 r c) := by
  rw [out2_2_eq, out2_2_eq, k2_pay1_apply, k2_pay1_apply]
  exact congrArg Ideal.logistic (Finset.sum_congr rfl fun k _ => by rw [h0 k, h1 k])

/-! ## The body obligation at the exact values, the output window named

At a point of the grid's last row or last column of blocks the input staging buffers hold, past the array's end, words
nothing names. The part of the output block the write-back moves — its rows inside the array by its columns inside the
array — reads only rows of the first input block inside the array and rows of the second inside the array: so it is
the same whatever those words are, and is what the proof data name. -/

variable (V : (c : Dev nD) → (b : Ref sig .tc) → Buf (Elt Ideal) ((c : Thread nD τ).loc b))

/-- Two fillings of one block agree on the part the transfer moves. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- The part of the output block that the write-back moves does not depend on what fills the input staging buffers
    past the array's end. -/
theorem cut_out2_2 (i : grid2.Coords) (d0 d0' d1 d1' : S1024x128.Idx → Elt Ideal .f32)
    (b0 : (win2_0.xblock i).Idx → Elt Ideal .f32) (b1 : (win2_1.xblock i).Idx → Elt Ideal .f32) :
    win2_2.cut i (out2_2 (win2_0.fill i d0 b0) (win2_1.fill i d1 b1))
      = win2_2.cut i (out2_2 (win2_0.fill i d0' b0) (win2_1.fill i d1' b1)) := by
  funext j
  show out2_2 (win2_0.fill i d0 b0) (win2_1.fill i d1 b1) (win2_2.xinj i j)
    = out2_2 (win2_0.fill i d0' b0) (win2_1.fill i d1' b1) (win2_2.xinj i j)
  rw [eq_ix2 (win2_2.xinj i j : S1024x1024.Idx)]
  -- the row and the column are inside the array's part of the block: the output window is cut on its two axes as the
  -- two input windows are on their first
  have hr : ((win2_2.xinj i j : S1024x1024.Idx) 0).val < win2_0.xsize i 0 := (j 0).isLt
  have hc : ((win2_2.xinj i j : S1024x1024.Idx) 1).val < win2_1.xsize i 0 := (j 1).isLt
  refine out2_2_congr _ _ _ _ _ _ (fun k => ?_) (fun k => ?_)
  · exact fill_eq_of_moved win2_0 i d0 d0' b0 _ ((win2_0.moved_iff i _).mpr fun a =>
      match a with
      | ⟨0, _⟩ => hr
      | ⟨1, _⟩ => k.isLt)
  · exact fill_eq_of_moved win2_1 i d1 d1' b1 _ ((win2_1.moved_iff i _).mpr fun a =>
      match a with
      | ⟨0, _⟩ => hc
      | ⟨1, _⟩ => k.isLt)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: each buffer at what the proof data name on the part its transfers move. -/
def bodyPost2 (c : Dev nD) (t : Fin cfg2.N) : sProp 𝕄 :=
  iprop((dat2 V c).Φ t.succ ∗ (dat2 V c).owesAt () t.succ
    ∗ (∃ d, owns (c : Thread nD τ) (st2_0 t) fullShare
        ((cfg2.win 0).fill (cfg2.grid.coords t) d ((cfg2.win 0).cut (cfg2.grid.coords t) ((dat2 V c).after 0 t))))
    ∗ (∃ d, owns (c : Thread nD τ) (st2_1 t) fullShare
        ((cfg2.win 1).fill (cfg2.grid.coords t) d ((cfg2.win 1).cut (cfg2.grid.coords t) ((dat2 V c).after 1 t))))
    ∗ (∃ d, owns (c : Thread nD τ) (st2_2 t) fullShare
        ((cfg2.win 2).fill (cfg2.grid.coords t) d ((cfg2.win 2).cut (cfg2.grid.coords t) ((dat2 V c).after 2 t)))))

/-- The body at any point: the inputs' memrefs hold their blocks filled out with whatever the fetch left past the
    array's end; the body's triple applies at those contents, leaves them in place, and leaves in the output's buffer
    a block whose moved part is the one the proof data name. -/
theorem sound_body2 (c : Dev nD) (t : Fin cfg2.N) :
    bodyPre2 V c t ⊢ wp frame (wpE (defs₀ (F := Ideal)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  iapply (sound_kernel2 c Set.univ _ _ _ _ _ _ _ (win2_0.fill (grid2.coords t) d0 (iblk2 V c 0 t))
    (win2_1.fill (grid2.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    change _ ⊢ owns (c : Thread nD τ) (st2_0 t) fullShare
      ((cfg2.win 0).fill (cfg2.grid.coords t) d0 ((cfg2.win 0).cut (cfg2.grid.coords t) ((dat2 V c).after 0 t)))
    rw [cut_after2_0]
  isplitl [H1]
  · iexists d1
    change _ ⊢ owns (c : Thread nD τ) (st2_1 t) fullShare
      ((cfg2.win 1).fill (cfg2.grid.coords t) d1 ((cfg2.win 1).cut (cfg2.grid.coords t) ((dat2 V c).after 1 t)))
    rw [cut_after2_1]
  · iexists out2_2 (win2_0.fill (grid2.coords t) d0 (iblk2 V c 0 t)) (win2_1.fill (grid2.coords t) d1 (iblk2 V c 1 t))
    change _ ⊢ owns (c : Thread nD τ) (st2_2 t) fullShare
      (win2_2.fill (grid2.coords t) (out2_2 (win2_0.fill (grid2.coords t) d0 (iblk2 V c 0 t)) (win2_1.fill (grid2.coords t) d1 (iblk2 V c 1 t)))
        (win2_2.cut (grid2.coords t) ((dat2 V c).after 2 t)))
    rw [after2_2, win2_2.fill_congr_cut (grid2.coords t)
      (show win2_2.cut (grid2.coords t) (out2_2 (win2_0.fill (grid2.coords t) d0 (iblk2 V c 0 t)) (win2_1.fill (grid2.coords t) d1 (iblk2 V c 1 t)))
          = win2_2.cut (grid2.coords t) (out2_2 (fblk2_0 V c t) (fblk2_1 V c t)) from
        cut_out2_2 (grid2.coords t) d0 _ d1 _ (iblk2 V c 0 t) (iblk2 V c 1 t))]

/-- The pipeline's body obligation at every point, every window named. -/
theorem body_obligation2 (c : Dev nD) :
    BodyObligationLoose (dat2 (F := Ideal) V c) (defs₀ (F := Ideal)) Variants.none () Set.univ := fun t => by
  rw [bigSep_W2, bigSep_W2]
  exact sound_body2 V c t

end Cert.KernelIdeal.Hand

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.RefRunOps.lean ====
/- The reference program's @main as lists of its host operations, stage by stage (the two calls of the leaky
   rectifier unfolded at their call sites over the calls' own buffers), and that @main is the straight line of them:
   the two windows of @main are each the line of their stages, every operation touches TensorCore references only
   and determines its result, and each stage writes exactly the listed buffers. -/
import proofs.«180572_j29351806501366_1_alg».proof.ReferenceIdeal
import proofs.«180572_j29351806501366_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The graph stage of the first layer: the two rows of the edge table, each extended by the self loops, the in-degrees with self loops by a scatter-add of ones, their inverse square roots, the wrapped (negative-index) endpoints, and the per-edge normalisation `d⁻¹ᐟ²[src] · d⁻¹ᐟ²[dst]`. -/
abbrev opsA : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_v4 (iotaInDim S10000 32 0),
    StableHlo.binary main_v1 main_v4 main_v5 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.binary main_v3 main_v4 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.nullary main_cst (constant S_ .f32 0x3F800000#32),
    StableHlo.unary main_cst main_v7 (broadcastInDim S330000 ![] bcast_S_S330000 : (⟨S_, .f32⟩ : BufTy).Contents (Elt F) → (⟨S330000, .f32⟩ : BufTy).Contents (Elt F)),
    StableHlo.nullary main_cst_0 (constant S_ .f32 0x00000000#32),
    StableHlo.unary main_cst_0 main_v8 (broadcastInDim S10000 ![] bcast_S_S10000 : (⟨S_, .f32⟩ : BufTy).Contents (Elt F) → (⟨S10000, .f32⟩ : BufTy).Contents (Elt F)),
    StableHlo.unary main_v6 main_v9 (broadcastInDim S330000x1 ![0] bcast_S330000_S330000x1_0 : (⟨S330000, .i32⟩ : BufTy).Contents (Elt F) → (⟨S330000x1, .i32⟩ : BufTy).Contents (Elt F)),
    StableHlo.ternary main_v8 main_v9 main_v7 main_v10 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.unary main_v10 main_v11 (Host.rsqrt : (⟨S10000, .f32⟩ : BufTy).Contents (Elt F) → (⟨S10000, .f32⟩ : BufTy).Contents (Elt F)),
    StableHlo.nullary main_c (constantI S_ 32 0#32),
    StableHlo.unary main_c main_v12 (broadcastInDim S330000 ![] bcast_S_S330000 : (⟨S_, .i32⟩ : BufTy).Contents (Elt F) → (⟨S330000, .i32⟩ : BufTy).Contents (Elt F)),
    StableHlo.binary main_v5 main_v12 main_v13 (cmpi .slt : (⟨S330000, .i32⟩ : BufTy).Contents (Elt F) → (⟨S330000, .i32⟩ : BufTy).Contents (Elt F) → (⟨S330000, .i1⟩ : BufTy).Contents (Elt F)),
    StableHlo.nullary main_c_1 (constantI S_ 32 10000#32),
    StableHlo.unary main_c_1 main_v14 (broadcastInDim S330000 ![] bcast_S_S330000 : (⟨S_, .i32⟩ : BufTy).Contents (Elt F) → (⟨S330000, .i32⟩ : BufTy).Contents (Elt F)),
    StableHlo.binary main_v5 main_v14 main_v15 (addi : (⟨S330000, .i32⟩ : BufTy).Contents (Elt F) → (⟨S330000, .i32⟩ : BufTy).Contents (Elt F) → (⟨S330000, .i32⟩ : BufTy).Contents (Elt F)),
    StableHlo.ternary main_v13 main_v15 main_v5 main_v16 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v16 main_v17 (broadcastInDim S330000x1 ![0] bcast_S330000_S330000x1_0 : (⟨S330000, .i32⟩ : BufTy).Contents (Elt F) → (⟨S330000x1, .i32⟩ : BufTy).Contents (Elt F)),
    StableHlo.binary main_v11 main_v17 main_v18 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.nullary main_c_2 (constantI S_ 32 0#32),
    StableHlo.unary main_c_2 main_v19 (broadcastInDim S330000 ![] bcast_S_S330000 : (⟨S_, .i32⟩ : BufTy).Contents (Elt F) → (⟨S330000, .i32⟩ : BufTy).Contents (Elt F)),
    StableHlo.binary main_v6 main_v19 main_v20 (cmpi .slt : (⟨S330000, .i32⟩ : BufTy).Contents (Elt F) → (⟨S330000, .i32⟩ : BufTy).Contents (Elt F) → (⟨S330000, .i1⟩ : BufTy).Contents (Elt F)),
    StableHlo.nullary main_c_3 (constantI S_ 32 10000#32),
    StableHlo.unary main_c_3 main_v21 (broadcastInDim S330000 ![] bcast_S_S330000 : (⟨S_, .i32⟩ : BufTy).Contents (Elt F) → (⟨S330000, .i32⟩ : BufTy).Contents (Elt F)),
    StableHlo.binary main_v6 main_v21 main_v22 (addi : (⟨S330000, .i32⟩ : BufTy).Contents (Elt F) → (⟨S330000, .i32⟩ : BufTy).Contents (Elt F) → (⟨S330000, .i32⟩ : BufTy).Contents (Elt F)),
    StableHlo.ternary main_v20 main_v22 main_v6 main_v23 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v23 main_v24 (broadcastInDim S330000x1 ![0] bcast_S330000_S330000x1_0 : (⟨S330000, .i32⟩ : BufTy).Contents (Elt F) → (⟨S330000x1, .i32⟩ : BufTy).Contents (Elt F)),
    StableHlo.binary main_v11 main_v24 main_v25 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.binary main_v18 main_v25 main_v26 (mulf : (⟨S330000, .f32⟩ : BufTy).Contents (Elt F) → (⟨S330000, .f32⟩ : BufTy).Contents (Elt F) → (⟨S330000, .f32⟩ : BufTy).Contents (Elt F)) ]

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the stage writes. -/
abbrev opsA_W : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]

theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The first layer's matrix product `x · W₁`. -/
abbrev opsB : List (HloOp τ sig (Elt F)) :=
  [ StableHlo.binary main_arg0 main_arg3 main_v27 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)) ]

theorem opsB_sub : (opsB : List (HloOp τ sig (Elt F))).Forall fun op => op.bufs ⊆ tcRefs τ sig :=
  (binary_bufs_sub ..)

theorem opsB_fresh : (opsB : List (HloOp τ sig (Elt F))).Forall fun op => op.fresh = ∅ :=
  (rfl)

/-- The buffers the stage writes. -/
abbrev opsB_W : List (Ref sig .tc) := [main_v27]

theorem opsB_writes : (opsB : List (HloOp τ sig (Elt F))).Forall fun op => op.writes ⊆ (opsB_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))

/-- The first layer's aggregation: gather the source rows, scale each by its edge's normalisation, scatter-add at the destinations, add the bias, and the leaky rectifier (the callee's seven operations at the call's own buffers). -/
abbrev opsC : List (HloOp τ sig (Elt F)) :=
  [ StableHlo.nullary main_c_4 (constantI S_ 32 0#32),
    StableHlo.unary main_c_4 main_v28 (broadcastInDim S330000 ![] bcast_S_S330000 : (⟨S_, .i32⟩ : BufTy).Contents (Elt F) → (⟨S330000, .i32⟩ : BufTy).Contents (Elt F)),
    StableHlo.binary main_v5 main_v28 main_v29 (cmpi .slt : (⟨S330000, .i32⟩ : BufTy).Contents (Elt F) → (⟨S330000, .i32⟩ : BufTy).Contents (Elt F) → (⟨S330000, .i1⟩ : BufTy).Contents (Elt F)),
    StableHlo.nullary main_c_5 (constantI S_ 32 10000#32),
    StableHlo.unary main_c_5 main_v30 (broadcastInDim S330000 ![] bcast_S_S330000 : (⟨S_, .i32⟩ : BufTy).Contents (Elt F) → (⟨S330000, .i32⟩ : BufTy).Contents (Elt F)),
    StableHlo.binary main_v5 main_v30 main_v31 (addi : (⟨S330000, .i32⟩ : BufTy).Contents (Elt F) → (⟨S330000, .i32⟩ : BufTy).Contents (Elt F) → (⟨S330000, .i32⟩ : BufTy).Contents (Elt F)),
    StableHlo.ternary main_v29 main_v31 main_v5 main_v32 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v32 main_v33 (broadcastInDim S330000x1 ![0] bcast_S330000_S330000x1_0 : (⟨S330000, .i32⟩ : BufTy).Contents (Elt F) → (⟨S330000x1, .i32⟩ : BufTy).Contents (Elt F)),
    StableHlo.binary main_v27 main_v33 main_v34 ((fun x i => Host.gather gather_S10000x256_S330000x1_S330000x256_1_0_n_n_0_1_1256 x i) : (⟨S10000x256, .f32⟩ : BufTy).Contents (Elt F) → (⟨S330000x1, .i32⟩ : BufTy).Contents (Elt F) → (⟨S330000x256, .f32⟩ : BufTy).Contents (Elt F)),
    StableHlo.unary main_v26 main_v35 (broadcastInDim S330000x1 ![0] bcast_S330000_S330000x1_0 : (⟨S330000, .f32⟩ : BufTy).Contents (Elt F) → (⟨S330000x1, .f32⟩ : BufTy).Contents (Elt F)),
    StableHlo.unary main_v35 main_v36 (broadcastInDim S330000x256 ![0, 1] bcast_S330000x1_S330000x256_0_1 : (⟨S330000x1, .f32⟩ : BufTy).Contents (Elt F) → (⟨S330000x256, .f32⟩ : BufTy).Contents (Elt F)),
    StableHlo.binary main_v34 main_v36 main_v37 (mulf : (⟨S330000x256, .f32⟩ : BufTy).Contents (Elt F) → (⟨S330000x256, .f32⟩ : BufTy).Contents (Elt F) → (⟨S330000x256, .f32⟩ : BufTy).Contents (Elt F)),
    StableHlo.nullary main_cst_6 (constant S_ .f32 0x00000000#32),
    StableHlo.unary main_cst_6 main_v38 (broadcastInDim S10000x256 ![] bcast_S_S10000x256 : (⟨S_, .f32⟩ : BufTy).Contents (Elt F) → (⟨S10000x256, .f32⟩ : BufTy).Contents (Elt F)),
    StableHlo.unary main_v6 main_v39 (broadcastInDim S330000x1 ![0] bcast_S330000_S330000x1_0 : (⟨S330000, .i32⟩ : BufTy).Contents (Elt F) → (⟨S330000x1, .i32⟩ : BufTy).Contents (Elt F)),
    StableHlo.ternary main_v38 main_v39 main_v37 main_v40 ((fun x i u => Host.scatterAdd scatter_S10000x256_S330000x1_S330000x256_1_0_0_1 x i u) : (⟨S10000x256, .f32⟩ : BufTy).Contents (Elt F) → (⟨S330000x1, .i32⟩ : BufTy).Contents (Elt F) → (⟨S330000x256, .f32⟩ : BufTy).Contents (Elt F) → (⟨S10000x256, .f32⟩ : BufTy).Contents (Elt F)),
    StableHlo.unary main_arg4 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S10000x256 ![0, 1] bcast_S1x256_S10000x256_0_1 : (⟨S1x256, .f32⟩ : BufTy).Contents (Elt F) → (⟨S10000x256, .f32⟩ : BufTy).Contents (Elt F)),
    StableHlo.binary main_v40 main_v42 main_v43 (addf : (⟨S10000x256, .f32⟩ : BufTy).Contents (Elt F) → (⟨S10000x256, .f32⟩ : BufTy).Contents (Elt F) → (⟨S10000x256, .f32⟩ : BufTy).Contents (Elt F)),
    StableHlo.nullary main_cst_7 (constant S_ .f32 0x3C23D70A#32),
    StableHlo.nullary main_call0_cst (constant S_ .f32 0x00000000#32),
    StableHlo.unary main_call0_cst main_call0_v0 (broadcastInDim S10000x256 ![] bcast_S_S10000x256 : (⟨S_, .f32⟩ : BufTy).Contents (Elt F) → (⟨S10000x256, .f32⟩ : BufTy).Contents (Elt F)),
    StableHlo.binary main_v43 main_call0_v0 main_call0_v1 (cmpf .oge : (⟨S10000x256, .f32⟩ : BufTy).Contents (Elt F) → (⟨S10000x256, .f32⟩ : BufTy).Contents (Elt F) → (⟨S10000x256, .i1⟩ : BufTy).Contents (Elt F)),
    StableHlo.unary main_cst_7 main_call0_v2 (id : (⟨S_, .f32⟩ : BufTy).Contents (Elt F) → (⟨S_, .f32⟩ : BufTy).Contents (Elt F)),
    StableHlo.unary main_call0_v2 main_call0_v3 (broadcastInDim S10000x256 ![] bcast_S_S10000x256 : (⟨S_, .f32⟩ : BufTy).Contents (Elt F) → (⟨S10000x256, .f32⟩ : BufTy).Contents (Elt F)),
    StableHlo.binary main_call0_v3 main_v43 main_call0_v4 (mulf : (⟨S10000x256, .f32⟩ : BufTy).Contents (Elt F) → (⟨S10000x256, .f32⟩ : BufTy).Contents (Elt F) → (⟨S10000x256, .f32⟩ : BufTy).Contents (Elt F)),
    StableHlo.ternary main_call0_v1 main_v43 main_call0_v4 main_v44 (select : (⟨S10000x256, .i1⟩ : BufTy).Contents (Elt F) → (⟨S10000x256, .f32⟩ : BufTy).Contents (Elt F) → (⟨S10000x256, .f32⟩ : BufTy).Contents (Elt F) → (⟨S10000x256, .f32⟩ : BufTy).Contents (Elt F)) ]

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- The buffers the stage writes. -/
abbrev opsC_W : List (Ref sig .tc) := [main_c_4, main_v28, main_v29, main_c_5, main_v30, main_v31, main_v32, main_v33, main_v34, main_v35, main_v36, main_v37, main_cst_6, main_v38, main_v39, main_v40, main_v41, main_v42, main_v43, main_cst_7, main_call0_cst, main_call0_v0, main_call0_v1, main_call0_v2, main_call0_v3, main_call0_v4, main_v44]

theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The second layer's graph stage, first part (the statements of the first window): the self loops and the two extended endpoint vectors again, and the vector of ones. -/
abbrev opsD0 : List (HloOp τ sig (Elt F)) :=
  [ StableHlo.nullary main_v45 (iotaInDim S10000 32 0),
    StableHlo.binary main_v1 main_v45 main_v46 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.binary main_v3 main_v45 main_v47 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.nullary main_cst_8 (constant S_ .f32 0x3F800000#32),
    StableHlo.unary main_cst_8 main_v48 (broadcastInDim S330000 ![] bcast_S_S330000 : (⟨S_, .f32⟩ : BufTy).Contents (Elt F) → (⟨S330000, .f32⟩ : BufTy).Contents (Elt F)) ]

theorem opsD0_sub : (opsD0 : List (HloOp τ sig (Elt F))).Forall fun op => op.bufs ⊆ tcRefs τ sig :=
  ⟨nullary_bufs_sub .., binary_bufs_sub .., binary_bufs_sub .., nullary_bufs_sub .., unary_bufs_sub ..⟩

theorem opsD0_fresh : (opsD0 : List (HloOp τ sig (Elt F))).Forall fun op => op.fresh = ∅ :=
  ⟨rfl, rfl, rfl, rfl, rfl⟩

/-- The buffers the stage writes. -/
abbrev opsD0_W : List (Ref sig .tc) := [main_v45, main_v46, main_v47, main_cst_8, main_v48]

theorem opsD0_writes : (opsD0 : List (HloOp τ sig (Elt F))).Forall fun op => op.writes ⊆ (opsD0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The second layer's graph stage, second part: degrees, inverse square roots, wrapped endpoints, per-edge normalisation. -/
abbrev opsD1 : List (HloOp τ sig (Elt F)) :=
  [ StableHlo.nullary main_cst_9 (constant S_ .f32 0x00000000#32),
    StableHlo.unary main_cst_9 main_v49 (broadcastInDim S10000 ![] bcast_S_S10000 : (⟨S_, .f32⟩ : BufTy).Contents (Elt F) → (⟨S10000, .f32⟩ : BufTy).Contents (Elt F)),
    StableHlo.unary main_v47 main_v50 (broadcastInDim S330000x1 ![0] bcast_S330000_S330000x1_0 : (⟨S330000, .i32⟩ : BufTy).Contents (Elt F) → (⟨S330000x1, .i32⟩ : BufTy).Contents (Elt F)),
    StableHlo.ternary main_v49 main_v50 main_v48 main_v51 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.unary main_v51 main_v52 (Host.rsqrt : (⟨S10000, .f32⟩ : BufTy).Contents (Elt F) → (⟨S10000, .f32⟩ : BufTy).Contents (Elt F)),
    StableHlo.nullary main_c_10 (constantI S_ 32 0#32),
    StableHlo.unary main_c_10 main_v53 (broadcastInDim S330000 ![] bcast_S_S330000 : (⟨S_, .i32⟩ : BufTy).Contents (Elt F) → (⟨S330000, .i32⟩ : BufTy).Contents (Elt F)),
    StableHlo.binary main_v46 main_v53 main_v54 (cmpi .slt : (⟨S330000, .i32⟩ : BufTy).Contents (Elt F) → (⟨S330000, .i32⟩ : BufTy).Contents (Elt F) → (⟨S330000, .i1⟩ : BufTy).Contents (Elt F)),
    StableHlo.nullary main_c_11 (constantI S_ 32 10000#32),
    StableHlo.unary main_c_11 main_v55 (broadcastInDim S330000 ![] bcast_S_S330000 : (⟨S_, .i32⟩ : BufTy).Contents (Elt F) → (⟨S330000, .i32⟩ : BufTy).Contents (Elt F)),
    StableHlo.binary main_v46 main_v55 main_v56 (addi : (⟨S330000, .i32⟩ : BufTy).Contents (Elt F) → (⟨S330000, .i32⟩ : BufTy).Contents (Elt F) → (⟨S330000, .i32⟩ : BufTy).Contents (Elt F)),
    StableHlo.ternary main_v54 main_v56 main_v46 main_v57 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v57 main_v58 (broadcastInDim S330000x1 ![0] bcast_S330000_S330000x1_0 : (⟨S330000, .i32⟩ : BufTy).Contents (Elt F) → (⟨S330000x1, .i32⟩ : BufTy).Contents (Elt F)),
    StableHlo.binary main_v52 main_v58 main_v59 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.nullary main_c_12 (constantI S_ 32 0#32),
    StableHlo.unary main_c_12 main_v60 (broadcastInDim S330000 ![] bcast_S_S330000 : (⟨S_, .i32⟩ : BufTy).Contents (Elt F) → (⟨S330000, .i32⟩ : BufTy).Contents (Elt F)),
    StableHlo.binary main_v47 main_v60 main_v61 (cmpi .slt : (⟨S330000, .i32⟩ : BufTy).Contents (Elt F) → (⟨S330000, .i32⟩ : BufTy).Contents (Elt F) → (⟨S330000, .i1⟩ : BufTy).Contents (Elt F)),
    StableHlo.nullary main_c_13 (constantI S_ 32 10000#32),
    StableHlo.unary main_c_13 main_v62 (broadcastInDim S330000 ![] bcast_S_S330000 : (⟨S_, .i32⟩ : BufTy).Contents (Elt F) → (⟨S330000, .i32⟩ : BufTy).Contents (Elt F)),
    StableHlo.binary main_v47 main_v62 main_v63 (addi : (⟨S330000, .i32⟩ : BufTy).Contents (Elt F) → (⟨S330000, .i32⟩ : BufTy).Contents (Elt F) → (⟨S330000, .i32⟩ : BufTy).Contents (Elt F)),
    StableHlo.ternary main_v61 main_v63 main_v47 main_v64 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v64 main_v65 (broadcastInDim S330000x1 ![0] bcast_S330000_S330000x1_0 : (⟨S330000, .i32⟩ : BufTy).Contents (Elt F) → (⟨S330000x1, .i32⟩ : BufTy).Contents (Elt F)),
    StableHlo.binary main_v52 main_v65 main_v66 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.binary main_v59 main_v66 main_v67 (mulf : (⟨S330000, .f32⟩ : BufTy).Contents (Elt F) → (⟨S330000, .f32⟩ : BufTy).Contents (Elt F) → (⟨S330000, .f32⟩ : BufTy).Contents (Elt F)) ]

theorem opsD1_sub : (opsD1 : List (HloOp τ sig (Elt F))).Forall fun op => op.bufs ⊆ tcRefs τ sig :=
  ⟨nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem opsD1_fresh : (opsD1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The buffers the stage writes. -/
abbrev opsD1_W : List (Ref sig .tc) := [main_cst_9, main_v49, main_v50, main_v51, main_v52, main_c_10, main_v53, main_v54, main_c_11, main_v55, main_v56, main_v57, main_v58, main_v59, main_c_12, main_v60, main_v61, main_c_13, main_v62, main_v63, main_v64, main_v65, main_v66, main_v67]

theorem opsD1_writes : (opsD1 : List (HloOp τ sig (Elt F))).Forall fun op => op.writes ⊆ (opsD1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The second layer's matrix product `h₁ · W₂`. -/
abbrev opsE : List (HloOp τ sig (Elt F)) :=
  [ StableHlo.binary main_v44 main_arg5 main_v68 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)) ]

theorem opsE_sub : (opsE : List (HloOp τ sig (Elt F))).Forall fun op => op.bufs ⊆ tcRefs τ sig :=
  (binary_bufs_sub ..)

theorem opsE_fresh : (opsE : List (HloOp τ sig (Elt F))).Forall fun op => op.fresh = ∅ :=
  (rfl)

/-- The buffers the stage writes. -/
abbrev opsE_W : List (Ref sig .tc) := [main_v68]

theorem opsE_writes : (opsE : List (HloOp τ sig (Elt F))).Forall fun op => op.writes ⊆ (opsE_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))

/-- The second layer's aggregation, bias and leaky rectifier. -/
abbrev opsF : List (HloOp τ sig (Elt F)) :=
  [ StableHlo.nullary main_c_14 (constantI S_ 32 0#32),
    StableHlo.unary main_c_14 main_v69 (broadcastInDim S330000 ![] bcast_S_S330000 : (⟨S_, .i32⟩ : BufTy).Contents (Elt F) → (⟨S330000, .i32⟩ : BufTy).Contents (Elt F)),
    StableHlo.binary main_v46 main_v69 main_v70 (cmpi .slt : (⟨S330000, .i32⟩ : BufTy).Contents (Elt F) → (⟨S330000, .i32⟩ : BufTy).Contents (Elt F) → (⟨S330000, .i1⟩ : BufTy).Contents (Elt F)),
    StableHlo.nullary main_c_15 (constantI S_ 32 10000#32),
    StableHlo.unary main_c_15 main_v71 (broadcastInDim S330000 ![] bcast_S_S330000 : (⟨S_, .i32⟩ : BufTy).Contents (Elt F) → (⟨S330000, .i32⟩ : BufTy).Contents (Elt F)),
    StableHlo.binary main_v46 main_v71 main_v72 (addi : (⟨S330000, .i32⟩ : BufTy).Contents (Elt F) → (⟨S330000, .i32⟩ : BufTy).Contents (Elt F) → (⟨S330000, .i32⟩ : BufTy).Contents (Elt F)),
    StableHlo.ternary main_v70 main_v72 main_v46 main_v73 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v73 main_v74 (broadcastInDim S330000x1 ![0] bcast_S330000_S330000x1_0 : (⟨S330000, .i32⟩ : BufTy).Contents (Elt F) → (⟨S330000x1, .i32⟩ : BufTy).Contents (Elt F)),
    StableHlo.binary main_v68 main_v74 main_v75 ((fun x i => Host.gather gather_S10000x128_S330000x1_S330000x128_1_0_n_n_0_1_1128 x i) : (⟨S10000x128, .f32⟩ : BufTy).Contents (Elt F) → (⟨S330000x1, .i32⟩ : BufTy).Contents (Elt F) → (⟨S330000x128, .f32⟩ : BufTy).Contents (Elt F)),
    StableHlo.unary main_v67 main_v76 (broadcastInDim S330000x1 ![0] bcast_S330000_S330000x1_0 : (⟨S330000, .f32⟩ : BufTy).Contents (Elt F) → (⟨S330000x1, .f32⟩ : BufTy).Contents (Elt F)),
    StableHlo.unary main_v76 main_v77 (broadcastInDim S330000x128 ![0, 1] bcast_S330000x1_S330000x128_0_1 : (⟨S330000x1, .f32⟩ : BufTy).Contents (Elt F) → (⟨S330000x128, .f32⟩ : BufTy).Contents (Elt F)),
    StableHlo.binary main_v75 main_v77 main_v78 (mulf : (⟨S330000x128, .f32⟩ : BufTy).Contents (Elt F) → (⟨S330000x128, .f32⟩ : BufTy).Contents (Elt F) → (⟨S330000x128, .f32⟩ : BufTy).Contents (Elt F)),
    StableHlo.nullary main_cst_16 (constant S_ .f32 0x00000000#32),
    StableHlo.unary main_cst_16 main_v79 (broadcastInDim S10000x128 ![] bcast_S_S10000x128 : (⟨S_, .f32⟩ : BufTy).Contents (Elt F) → (⟨S10000x128, .f32⟩ : BufTy).Contents (Elt F)),
    StableHlo.unary main_v47 main_v80 (broadcastInDim S330000x1 ![0] bcast_S330000_S330000x1_0 : (⟨S330000, .i32⟩ : BufTy).Contents (Elt F) → (⟨S330000x1, .i32⟩ : BufTy).Contents (Elt F)),
    StableHlo.ternary main_v79 main_v80 main_v78 main_v81 ((fun x i u => Host.scatterAdd scatter_S10000x128_S330000x1_S330000x128_1_0_0_1 x i u) : (⟨S10000x128, .f32⟩ : BufTy).Contents (Elt F) → (⟨S330000x1, .i32⟩ : BufTy).Contents (Elt F) → (⟨S330000x128, .f32⟩ : BufTy).Contents (Elt F) → (⟨S10000x128, .f32⟩ : BufTy).Contents (Elt F)),
    StableHlo.unary main_arg6 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S10000x128 ![0, 1] bcast_S1x128_S10000x128_0_1 : (⟨S1x128, .f32⟩ : BufTy).Contents (Elt F) → (⟨S10000x128, .f32⟩ : BufTy).Contents (Elt F)),
    StableHlo.binary main_v81 main_v83 main_v84 (addf : (⟨S10000x128, .f32⟩ : BufTy).Contents (Elt F) → (⟨S10000x128, .f32⟩ : BufTy).Contents (Elt F) → (⟨S10000x128, .f32⟩ : BufTy).Contents (Elt F)),
    StableHlo.nullary main_cst_17 (constant S_ .f32 0x3C23D70A#32),
    StableHlo.nullary main_call1_cst (constant S_ .f32 0x00000000#32),
    StableHlo.unary main_call1_cst main_call1_v0 (broadcastInDim S10000x128 ![] bcast_S_S10000x128 : (⟨S_, .f32⟩ : BufTy).Contents (Elt F) → (⟨S10000x128, .f32⟩ : BufTy).Contents (Elt F)),
    StableHlo.binary main_v84 main_call1_v0 main_call1_v1 (cmpf .oge : (⟨S10000x128, .f32⟩ : BufTy).Contents (Elt F) → (⟨S10000x128, .f32⟩ : BufTy).Contents (Elt F) → (⟨S10000x128, .i1⟩ : BufTy).Contents (Elt F)),
    StableHlo.unary main_cst_17 main_call1_v2 (id : (⟨S_, .f32⟩ : BufTy).Contents (Elt F) → (⟨S_, .f32⟩ : BufTy).Contents (Elt F)),
    StableHlo.unary main_call1_v2 main_call1_v3 (broadcastInDim S10000x128 ![] bcast_S_S10000x128 : (⟨S_, .f32⟩ : BufTy).Contents (Elt F) → (⟨S10000x128, .f32⟩ : BufTy).Contents (Elt F)),
    StableHlo.binary main_call1_v3 main_v84 main_call1_v4 (mulf : (⟨S10000x128, .f32⟩ : BufTy).Contents (Elt F) → (⟨S10000x128, .f32⟩ : BufTy).Contents (Elt F) → (⟨S10000x128, .f32⟩ : BufTy).Contents (Elt F)),
    StableHlo.ternary main_call1_v1 main_v84 main_call1_v4 main_v85 (select : (⟨S10000x128, .i1⟩ : BufTy).Contents (Elt F) → (⟨S10000x128, .f32⟩ : BufTy).Contents (Elt F) → (⟨S10000x128, .f32⟩ : BufTy).Contents (Elt F) → (⟨S10000x128, .f32⟩ : BufTy).Contents (Elt F)) ]

theorem opsF_sub : (opsF : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem opsF_fresh : (opsF : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- The buffers the stage writes. -/
abbrev opsF_W : List (Ref sig .tc) := [main_c_14, main_v69, main_v70, main_c_15, main_v71, main_v72, main_v73, main_v74, main_v75, main_v76, main_v77, main_v78, main_cst_16, main_v79, main_v80, main_v81, main_v82, main_v83, main_v84, main_cst_17, main_call1_cst, main_call1_v0, main_call1_v1, main_call1_v2, main_call1_v3, main_call1_v4, main_v85]

theorem opsF_writes : (opsF : List (HloOp τ sig (Elt F))).Forall fun op => op.writes ⊆ (opsF_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The decoder: `1 / (1 + exp (−(h · hᵀ)))`. -/
abbrev opsG : List (HloOp τ sig (Elt F)) :=
  [ StableHlo.unary main_v85 main_v86 ((transpose S128x10000 [1, 0] · transposes_S10000x128_S128x10000_1_0) : (⟨S10000x128, .f32⟩ : BufTy).Contents (Elt F) → (⟨S128x10000, .f32⟩ : BufTy).Contents (Elt F)),
    StableHlo.binary main_v85 main_v86 main_v87 ((fun l r => Host.dotGeneral dot_S10000x128_S128x10000_S10000x10000_1_0_0_1_n_n none l r) : (⟨S10000x128, .f32⟩ : BufTy).Contents (Elt F) → (⟨S128x10000, .f32⟩ : BufTy).Contents (Elt F) → (⟨S10000x10000, .f32⟩ : BufTy).Contents (Elt F)),
    StableHlo.unary main_v87 main_v88 (Host.negf : (⟨S10000x10000, .f32⟩ : BufTy).Contents (Elt F) → (⟨S10000x10000, .f32⟩ : BufTy).Contents (Elt F)),
    StableHlo.unary main_v88 main_v89 (Host.exp : (⟨S10000x10000, .f32⟩ : BufTy).Contents (Elt F) → (⟨S10000x10000, .f32⟩ : BufTy).Contents (Elt F)),
    StableHlo.nullary main_cst_18 (constant S_ .f32 0x3F800000#32),
    StableHlo.unary main_cst_18 main_v90 (broadcastInDim S10000x10000 ![] bcast_S_S10000x10000 : (⟨S_, .f32⟩ : BufTy).Contents (Elt F) → (⟨S10000x10000, .f32⟩ : BufTy).Contents (Elt F)),
    StableHlo.binary main_v90 main_v89 main_v91 (addf : (⟨S10000x10000, .f32⟩ : BufTy).Contents (Elt F) → (⟨S10000x10000, .f32⟩ : BufTy).Contents (Elt F) → (⟨S10000x10000, .f32⟩ : BufTy).Contents (Elt F)),
    StableHlo.nullary main_cst_19 (constant S_ .f32 0x3F800000#32),
    StableHlo.unary main_cst_19 main_v92 (broadcastInDim S10000x10000 ![] bcast_S_S10000x10000 : (⟨S_, .f32⟩ : BufTy).Contents (Elt F) → (⟨S10000x10000, .f32⟩ : BufTy).Contents (Elt F)),
    StableHlo.binary main_v92 main_v91 main_v93 (Host.divf : (⟨S10000x10000, .f32⟩ : BufTy).Contents (Elt F) → (⟨S10000x10000, .f32⟩ : BufTy).Contents (Elt F) → (⟨S10000x10000, .f32⟩ : BufTy).Contents (Elt F)) ]

theorem opsG_sub : (opsG : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub ..⟩

theorem opsG_fresh : (opsG : List (HloOp τ sig (Elt F))).Forall fun op => op.fresh = ∅ :=
  ⟨rfl, rfl, rfl, rfl, rfl, rfl, rfl, rfl, rfl, rfl⟩

/-- The buffers the stage writes. -/
abbrev opsG_W : List (Ref sig .tc) := [main_v86, main_v87, main_v88, main_v89, main_cst_18, main_v90, main_v91, main_cst_19, main_v92, main_v93]

theorem opsG_writes : (opsG : List (HloOp τ sig (Elt F))).Forall fun op => op.writes ⊆ (opsG_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The operations of @main's first window. -/
def ops0 : List (HloOp τ sig (Elt F)) := opsA ++ opsB ++ opsC ++ opsD0
/-- The operations of @main's second window. -/
def ops1 : List (HloOp τ sig (Elt F)) := opsD1 ++ opsE ++ opsF ++ opsG
/-- @main's operations, in order. -/
def ops : List (HloOp τ sig (Elt F)) := ops0 ++ ops1

set_option maxRecDepth 16384 in
set_option maxHeartbeats 4000000 in
/-- The first window is the line of its stages: the callee's body unfolds at the call, and the typed references'
    transports are the identity at literal references. -/
theorem part0_eq (c : Dev nD) : main_part0 (F := F) c = seq (ops0 (F := F)) := rfl

set_option maxRecDepth 16384 in
set_option maxHeartbeats 4000000 in
theorem part1_eq (c : Dev nD) : main_part1 (F := F) c = seq (ops1 (F := F)) := rfl

theorem main_eq (c : Dev nD) : main (F := F) c = seq (ops (F := F)) := by
  show main (F := F) c = seq (ops0 ++ ops1)
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr
    ⟨List.forall_append.mpr ⟨List.forall_append.mpr ⟨List.forall_append.mpr ⟨opsA_sub, opsB_sub⟩, opsC_sub⟩, opsD0_sub⟩,
     List.forall_append.mpr ⟨List.forall_append.mpr ⟨List.forall_append.mpr ⟨opsD1_sub, opsE_sub⟩, opsF_sub⟩, opsG_sub⟩⟩

theorem ops_fresh : ∀ op ∈ (ops : List (HloOp τ sig (Elt F))), op.fresh = ∅ :=
  List.forall_iff_forall_mem.mp (List.forall_append.mpr
    ⟨List.forall_append.mpr ⟨List.forall_append.mpr ⟨List.forall_append.mpr ⟨opsA_fresh, opsB_fresh⟩, opsC_fresh⟩, opsD0_fresh⟩,
     List.forall_append.mpr ⟨List.forall_append.mpr ⟨List.forall_append.mpr ⟨opsD1_fresh, opsE_fresh⟩, opsF_fresh⟩, opsG_fresh⟩⟩)

/-- Two lines' fold is the second's over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

end Cert.ReferenceIdeal.RefRun

end
-- ==== Proof.RefRun.lean ====
/- The reference program's run: its @main is a straight line of host operations (the stage lists of the sibling module), so every
   weakly fair execution terminates with each buffer at the fold of the operations over the launch contents; the fold
   is read stage by stage — the graph normalisation, a matrix product, the aggregation with bias and leaky rectifier,
   twice, then the decoder — as named functions of the arguments, the two matrix products left as the operation
   `Host.dotGeneral` on the layer's input. -/
import proofs.«180572_j29351806501366_1_alg».proof.Proof.RefRunOps
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

section Generic

variable {F : FTy → Type} [FloatOps F]

/-! ## The stages' functions -/

/-- Row 0 of the edge table (the sources), as a vector. -/
def row0 (a1 : (⟨S2x320000, .i32⟩ : BufTy).Contents (Elt F)) : (⟨S320000, .i32⟩ : BufTy).Contents (Elt F) :=
  shapeCast S320000 (extractStridedSlice S1x320000 ![0, 0] a1 slices_S2x320000_S1x320000_0_0) shapeCasts_S1x320000_S320000

/-- Row 1 of the edge table (the destinations), as a vector. -/
def row1 (a1 : (⟨S2x320000, .i32⟩ : BufTy).Contents (Elt F)) : (⟨S320000, .i32⟩ : BufTy).Contents (Elt F) :=
  shapeCast S320000 (extractStridedSlice S1x320000 ![1, 0] a1 slices_S2x320000_S1x320000_1_0) shapeCasts_S1x320000_S320000

/-- An endpoint vector extended by the self loops `0, 1, …, 9999`. -/
def withLoops (r : (⟨S320000, .i32⟩ : BufTy).Contents (Elt F)) : (⟨S330000, .i32⟩ : BufTy).Contents (Elt F) :=
  concatenate S330000 0 [⟨S320000, r⟩, ⟨S10000, iotaInDim S10000 32 0⟩] concatenates_S320000_S10000_S330000_d0

/-- Index normalisation: a negative index counts from the end (`x + 10000` where `x < 0`). -/
def wrap (x : (⟨S330000, .i32⟩ : BufTy).Contents (Elt F)) : (⟨S330000, .i32⟩ : BufTy).Contents (Elt F) :=
  select (cmpi .slt x (broadcastInDim S330000 ![] bcast_S_S330000 (constantI S_ 32 0#32)))
    (addi x (broadcastInDim S330000 ![] bcast_S_S330000 (constantI S_ 32 10000#32))) x

/-- The inverse square root of each node's in-degree (self loop included): a scatter-add of ones at the destinations. -/
def dinv (d : (⟨S330000, .i32⟩ : BufTy).Contents (Elt F)) : (⟨S10000, .f32⟩ : BufTy).Contents (Elt F) :=
  Host.rsqrt
    (Host.scatterAdd scatter_S10000_S330000x1_S330000_n_0_0_1
      (broadcastInDim S10000 ![] bcast_S_S10000 (constant (F := F) S_ .f32 0x00000000#32))
      (broadcastInDim S330000x1 ![0] bcast_S330000_S330000x1_0 d)
      (broadcastInDim S330000 ![] bcast_S_S330000 (constant (F := F) S_ .f32 0x3F800000#32)))

/-- The per-edge normalisation `d⁻¹ᐟ²[src] · d⁻¹ᐟ²[dst]`. -/
def norm (s d : (⟨S330000, .i32⟩ : BufTy).Contents (Elt F)) : (⟨S330000, .f32⟩ : BufTy).Contents (Elt F) :=
  mulf (Host.gather gather_S10000_S330000x1_S330000_n_0_n_n_0_1_1 (dinv (F := F) d) (broadcastInDim S330000x1 ![0] bcast_S330000_S330000x1_0 (wrap (F := F) s)))
    (Host.gather gather_S10000_S330000x1_S330000_n_0_n_n_0_1_1 (dinv (F := F) d) (broadcastInDim S330000x1 ![0] bcast_S330000_S330000x1_0 (wrap (F := F) d)))

/-- The 256-wide layer before its activation: the rows of `h` at the edges' (wrapped) sources, each scaled by its
    edge's normalisation, summed into the rows of the edges' destinations, plus the bias on every row. -/
def pre256 (s d : (⟨S330000, .i32⟩ : BufTy).Contents (Elt F)) (nrm : (⟨S330000, .f32⟩ : BufTy).Contents (Elt F)) (h : (⟨S10000x256, .f32⟩ : BufTy).Contents (Elt F)) (b : (⟨S256, .f32⟩ : BufTy).Contents (Elt F)) : (⟨S10000x256, .f32⟩ : BufTy).Contents (Elt F) :=
  addf
    (Host.scatterAdd scatter_S10000x256_S330000x1_S330000x256_1_0_0_1
      (broadcastInDim S10000x256 ![] bcast_S_S10000x256 (constant (F := F) S_ .f32 0x00000000#32))
      (broadcastInDim S330000x1 ![0] bcast_S330000_S330000x1_0 d)
      (mulf
        (Host.gather gather_S10000x256_S330000x1_S330000x256_1_0_n_n_0_1_1256 h (broadcastInDim S330000x1 ![0] bcast_S330000_S330000x1_0 (wrap (F := F) s)))
        (broadcastInDim S330000x256 ![0, 1] bcast_S330000x1_S330000x256_0_1 (broadcastInDim S330000x1 ![0] bcast_S330000_S330000x1_0 nrm))))
    (broadcastInDim S10000x256 ![0, 1] bcast_S1x256_S10000x256_0_1 (broadcastInDim S1x256 ![1] bcast_S256_S1x256_1 b))

/-- The leaky rectifier at slope 0.01 on a 256-wide array: `x` where `x ≥ 0`, else `0.01 · x`. -/
def lrelu256 (x : (⟨S10000x256, .f32⟩ : BufTy).Contents (Elt F)) : (⟨S10000x256, .f32⟩ : BufTy).Contents (Elt F) :=
  select (cmpf .oge x (broadcastInDim S10000x256 ![] bcast_S_S10000x256 (constant (F := F) S_ .f32 0x00000000#32))) x
    (mulf (broadcastInDim S10000x256 ![] bcast_S_S10000x256 (id (constant (F := F) S_ .f32 0x3C23D70A#32))) x)

/-- The 128-wide layer before its activation: the rows of `h` at the edges' (wrapped) sources, each scaled by its
    edge's normalisation, summed into the rows of the edges' destinations, plus the bias on every row. -/
def pre128 (s d : (⟨S330000, .i32⟩ : BufTy).Contents (Elt F)) (nrm : (⟨S330000, .f32⟩ : BufTy).Contents (Elt F)) (h : (⟨S10000x128, .f32⟩ : BufTy).Contents (Elt F)) (b : (⟨S128, .f32⟩ : BufTy).Contents (Elt F)) : (⟨S10000x128, .f32⟩ : BufTy).Contents (Elt F) :=
  addf
    (Host.scatterAdd scatter_S10000x128_S330000x1_S330000x128_1_0_0_1
      (broadcastInDim S10000x128 ![] bcast_S_S10000x128 (constant (F := F) S_ .f32 0x00000000#32))
      (broadcastInDim S330000x1 ![0] bcast_S330000_S330000x1_0 d)
      (mulf
        (Host.gather gather_S10000x128_S330000x1_S330000x128_1_0_n_n_0_1_1128 h (broadcastInDim S330000x1 ![0] bcast_S330000_S330000x1_0 (wrap (F := F) s)))
        (broadcastInDim S330000x128 ![0, 1] bcast_S330000x1_S330000x128_0_1 (broadcastInDim S330000x1 ![0] bcast_S330000_S330000x1_0 nrm))))
    (broadcastInDim S10000x128 ![0, 1] bcast_S1x128_S10000x128_0_1 (broadcastInDim S1x128 ![1] bcast_S128_S1x128_1 b))

/-- The leaky rectifier at slope 0.01 on a 128-wide array: `x` where `x ≥ 0`, else `0.01 · x`. -/
def lrelu128 (x : (⟨S10000x128, .f32⟩ : BufTy).Contents (Elt F)) : (⟨S10000x128, .f32⟩ : BufTy).Contents (Elt F) :=
  select (cmpf .oge x (broadcastInDim S10000x128 ![] bcast_S_S10000x128 (constant (F := F) S_ .f32 0x00000000#32))) x
    (mulf (broadcastInDim S10000x128 ![] bcast_S_S10000x128 (id (constant (F := F) S_ .f32 0x3C23D70A#32))) x)

/-- The decoder: the logistic function of every inner product of two rows, `1 / (1 + exp (−(h · hᵀ)))`. -/
def dec (h : (⟨S10000x128, .f32⟩ : BufTy).Contents (Elt F)) : (⟨S10000x10000, .f32⟩ : BufTy).Contents (Elt F) :=
  Host.divf (broadcastInDim S10000x10000 ![] bcast_S_S10000x10000 (constant (F := F) S_ .f32 0x3F800000#32))
    (addf (broadcastInDim S10000x10000 ![] bcast_S_S10000x10000 (constant (F := F) S_ .f32 0x3F800000#32))
      (Host.exp (Host.negf (Host.dotGeneral dot_S10000x128_S128x10000_S10000x10000_1_0_0_1_n_n none h
        (transpose S128x10000 [1, 0] h transposes_S10000x128_S128x10000_1_0)))))

/-! ## The stages' folds -/

/-- The buffers after the first graph stage, from contents `V`. -/
def stA (V : Valuation τ sig (Elt F)) : Valuation τ sig (Elt F) := after opsA V
/-- A buffer the stage does not write keeps its contents. -/
theorem stA_keep (V : Valuation τ sig (Elt F)) (r : Ref sig .tc) (h : r ∉ opsA_W) :
    stA V (no_index (Proc.devRef .tc r)) = V (Proc.devRef .tc r) :=
  after_of_writes_sub opsA V opsA_writes h

/-- The buffers after the first matrix product, from contents `V`. -/
def stB (V : Valuation τ sig (Elt F)) : Valuation τ sig (Elt F) := after opsB V
/-- A buffer the stage does not write keeps its contents. -/
theorem stB_keep (V : Valuation τ sig (Elt F)) (r : Ref sig .tc) (h : r ∉ opsB_W) :
    stB V (no_index (Proc.devRef .tc r)) = V (Proc.devRef .tc r) :=
  after_of_writes_sub opsB V opsB_writes h

/-- The buffers after the first aggregation, from contents `V`. -/
def stC (V : Valuation τ sig (Elt F)) : Valuation τ sig (Elt F) := after opsC V
/-- A buffer the stage does not write keeps its contents. -/
theorem stC_keep (V : Valuation τ sig (Elt F)) (r : Ref sig .tc) (h : r ∉ opsC_W) :
    stC V (no_index (Proc.devRef .tc r)) = V (Proc.devRef .tc r) :=
  after_of_writes_sub opsC V opsC_writes h

/-- The buffers after the second graph stage (it spans the two windows), from contents `V`. -/
def stD (V : Valuation τ sig (Elt F)) : Valuation τ sig (Elt F) := after opsD1 (after opsD0 V)
/-- A buffer the stage does not write keeps its contents. -/
theorem stD_keep (V : Valuation τ sig (Elt F)) (r : Ref sig .tc) (h : r ∉ opsD0_W ++ opsD1_W) :
    stD V (no_index (Proc.devRef .tc r)) = V (Proc.devRef .tc r) :=
  (after_of_writes_sub opsD1 _ opsD1_writes fun hh => h (List.mem_append_right _ hh)).trans
    (after_of_writes_sub opsD0 V opsD0_writes fun hh => h (List.mem_append_left _ hh))

/-- The buffers after the second matrix product, from contents `V`. -/
def stE (V : Valuation τ sig (Elt F)) : Valuation τ sig (Elt F) := after opsE V
/-- A buffer the stage does not write keeps its contents. -/
theorem stE_keep (V : Valuation τ sig (Elt F)) (r : Ref sig .tc) (h : r ∉ opsE_W) :
    stE V (no_index (Proc.devRef .tc r)) = V (Proc.devRef .tc r) :=
  after_of_writes_sub opsE V opsE_writes h

/-- The buffers after the second aggregation, from contents `V`. -/
def stF (V : Valuation τ sig (Elt F)) : Valuation τ sig (Elt F) := after opsF V
/-- A buffer the stage does not write keeps its contents. -/
theorem stF_keep (V : Valuation τ sig (Elt F)) (r : Ref sig .tc) (h : r ∉ opsF_W) :
    stF V (no_index (Proc.devRef .tc r)) = V (Proc.devRef .tc r) :=
  after_of_writes_sub opsF V opsF_writes h

/-- The buffers after the decoder, from contents `V`. -/
def stG (V : Valuation τ sig (Elt F)) : Valuation τ sig (Elt F) := after opsG V
/-- A buffer the stage does not write keeps its contents. -/
theorem stG_keep (V : Valuation τ sig (Elt F)) (r : Ref sig .tc) (h : r ∉ opsG_W) :
    stG V (no_index (Proc.devRef .tc r)) = V (Proc.devRef .tc r) :=
  after_of_writes_sub opsG V opsG_writes h

set_option maxRecDepth 8192 in
set_option maxHeartbeats 2000000 in
theorem stA_v1 (V : Valuation τ sig (Elt F)) :
    stA V (no_index (Proc.devRef .tc main_v1)) = row0 (F := F) (V (Proc.devRef .tc main_arg1)) := by
  unfold stA
  simp only [opsA]
  after_results_simp
  all_goals rfl

set_option maxRecDepth 8192 in
set_option maxHeartbeats 2000000 in
theorem stA_v3 (V : Valuation τ sig (Elt F)) :
    stA V (no_index (Proc.devRef .tc main_v3)) = row1 (F := F) (V (Proc.devRef .tc main_arg1)) := by
  unfold stA
  simp only [opsA]
  after_results_simp
  all_goals rfl

set_option maxRecDepth 8192 in
set_option maxHeartbeats 2000000 in
theorem stA_v5 (V : Valuation τ sig (Elt F)) :
    stA V (no_index (Proc.devRef .tc main_v5)) = withLoops (F := F) (row0 (F := F) (V (Proc.devRef .tc main_arg1))) := by
  unfold stA
  simp only [opsA]
  after_results_simp
  all_goals rfl

set_option maxRecDepth 8192 in
set_option maxHeartbeats 2000000 in
theorem stA_v6 (V : Valuation τ sig (Elt F)) :
    stA V (no_index (Proc.devRef .tc main_v6)) = withLoops (F := F) (row1 (F := F) (V (Proc.devRef .tc main_arg1))) := by
  unfold stA
  simp only [opsA]
  after_results_simp
  all_goals rfl

set_option maxRecDepth 8192 in
set_option maxHeartbeats 2000000 in
theorem stA_v26 (V : Valuation τ sig (Elt F)) :
    stA V (no_index (Proc.devRef .tc main_v26)) = norm (F := F) (withLoops (F := F) (row0 (F := F) (V (Proc.devRef .tc main_arg1)))) (withLoops (F := F) (row1 (F := F) (V (Proc.devRef .tc main_arg1)))) := by
  unfold stA
  simp only [opsA]
  after_results_simp
  all_goals rfl

set_option maxRecDepth 8192 in
set_option maxHeartbeats 2000000 in
theorem stB_v27 (V : Valuation τ sig (Elt F)) :
    stB V (no_index (Proc.devRef .tc main_v27)) = Host.dotGeneral dot_S10000x512_S512x256_S10000x256_1_0_0_1_n_n none (V (Proc.devRef .tc main_arg0)) (V (Proc.devRef .tc main_arg3)) := by
  unfold stB
  simp only [opsB]
  after_results_simp
  all_goals rfl

set_option maxRecDepth 8192 in
set_option maxHeartbeats 2000000 in
theorem stC_v44 (V : Valuation τ sig (Elt F)) :
    stC V (no_index (Proc.devRef .tc main_v44)) = lrelu256 (F := F) (pre256 (F := F) (V (Proc.devRef .tc main_v5)) (V (Proc.devRef .tc main_v6)) (V (Proc.devRef .tc main_v26)) (V (Proc.devRef .tc main_v27)) (V (Proc.devRef .tc main_arg4))) := by
  unfold stC
  simp only [opsC]
  after_results_simp
  all_goals rfl

set_option maxRecDepth 8192 in
set_option maxHeartbeats 2000000 in
theorem stD_v46 (V : Valuation τ sig (Elt F)) :
    stD V (no_index (Proc.devRef .tc main_v46)) = withLoops (F := F) (V (Proc.devRef .tc main_v1)) := by
  unfold stD
  simp only [opsD0, opsD1]
  after_results_simp
  all_goals rfl

set_option maxRecDepth 8192 in
set_option maxHeartbeats 2000000 in
theorem stD_v47 (V : Valuation τ sig (Elt F)) :
    stD V (no_index (Proc.devRef .tc main_v47)) = withLoops (F := F) (V (Proc.devRef .tc main_v3)) := by
  unfold stD
  simp only [opsD0, opsD1]
  after_results_simp
  all_goals rfl

set_option maxRecDepth 8192 in
set_option maxHeartbeats 2000000 in
theorem stD_v67 (V : Valuation τ sig (Elt F)) :
    stD V (no_index (Proc.devRef .tc main_v67)) = norm (F := F) (withLoops (F := F) (V (Proc.devRef .tc main_v1))) (withLoops (F := F) (V (Proc.devRef .tc main_v3))) := by
  unfold stD
  simp only [opsD0, opsD1]
  after_results_simp
  all_goals rfl

set_option maxRecDepth 8192 in
set_option maxHeartbeats 2000000 in
theorem stE_v68 (V : Valuation τ sig (Elt F)) :
    stE V (no_index (Proc.devRef .tc main_v68)) = Host.dotGeneral dot_S10000x256_S256x128_S10000x128_1_0_0_1_n_n none (V (Proc.devRef .tc main_v44)) (V (Proc.devRef .tc main_arg5)) := by
  unfold stE
  simp only [opsE]
  after_results_simp
  all_goals rfl

set_option maxRecDepth 8192 in
set_option maxHeartbeats 2000000 in
theorem stF_v85 (V : Valuation τ sig (Elt F)) :
    stF V (no_index (Proc.devRef .tc main_v85)) = lrelu128 (F := F) (pre128 (F := F) (V (Proc.devRef .tc main_v46)) (V (Proc.devRef .tc main_v47)) (V (Proc.devRef .tc main_v67)) (V (Proc.devRef .tc main_v68)) (V (Proc.devRef .tc main_arg6))) := by
  unfold stF
  simp only [opsF]
  after_results_simp
  all_goals rfl

set_option maxRecDepth 8192 in
set_option maxHeartbeats 2000000 in
theorem stG_v93 (V : Valuation τ sig (Elt F)) :
    stG V (no_index (Proc.devRef .tc main_v93)) = dec (F := F) (V (Proc.devRef .tc main_v85)) := by
  unfold stG
  simp only [opsG]
  after_results_simp
  all_goals rfl

/-- The whole fold is the stages' folds, one after the other. -/
theorem ops_after (V : Valuation τ sig (Elt F)) :
    after (ops (F := F)) V = stG (stF (stE (stD (stC (stB (stA V)))))) := by
  unfold ops ops0 ops1 stA stB stC stD stE stF stG
  simp only [after_app]

end Generic

/-! ## The results as functions of the arguments, at the ideal instance -/

/-- Everything the first layer does given its matrix product `h`: the graph normalisation from the edge table `a1`,
    the aggregation of `h`'s rows over the edges, the bias `b`, the leaky rectifier. -/
def layer256 (a1 : (⟨S2x320000, .i32⟩ : BufTy).Contents (Elt Ideal)) (h : (⟨S10000x256, .f32⟩ : BufTy).Contents (Elt Ideal)) (b : (⟨S256, .f32⟩ : BufTy).Contents (Elt Ideal)) :
    (⟨S10000x256, .f32⟩ : BufTy).Contents (Elt Ideal) :=
  lrelu256 (F := Ideal) (pre256 (F := Ideal) (withLoops (F := Ideal) (row0 (F := Ideal) a1)) (withLoops (F := Ideal) (row1 (F := Ideal) a1))
    (norm (F := Ideal) (withLoops (F := Ideal) (row0 (F := Ideal) a1)) (withLoops (F := Ideal) (row1 (F := Ideal) a1))) h b)

/-- The same for the second layer, 128 wide. -/
def layer128 (a1 : (⟨S2x320000, .i32⟩ : BufTy).Contents (Elt Ideal)) (h : (⟨S10000x128, .f32⟩ : BufTy).Contents (Elt Ideal)) (b : (⟨S128, .f32⟩ : BufTy).Contents (Elt Ideal)) :
    (⟨S10000x128, .f32⟩ : BufTy).Contents (Elt Ideal) :=
  lrelu128 (F := Ideal) (pre128 (F := Ideal) (withLoops (F := Ideal) (row0 (F := Ideal) a1)) (withLoops (F := Ideal) (row1 (F := Ideal) a1))
    (norm (F := Ideal) (withLoops (F := Ideal) (row0 (F := Ideal) a1)) (withLoops (F := Ideal) (row1 (F := Ideal) a1))) h b)

/-- The decoder: `1 / (1 + exp (−(h · hᵀ)))`. -/
def decode (h : (⟨S10000x128, .f32⟩ : BufTy).Contents (Elt Ideal)) : (⟨S10000x10000, .f32⟩ : BufTy).Contents (Elt Ideal) :=
  dec (F := Ideal) h

/-- The node embeddings (the second result): two layers, each a matrix product and then `layer…`. -/
def res_h (a0 : (⟨S10000x512, .f32⟩ : BufTy).Contents (Elt Ideal))
    (a1 : (⟨S2x320000, .i32⟩ : BufTy).Contents (Elt Ideal))
    (a3 : (⟨S512x256, .f32⟩ : BufTy).Contents (Elt Ideal))
    (a4 : (⟨S256, .f32⟩ : BufTy).Contents (Elt Ideal))
    (a5 : (⟨S256x128, .f32⟩ : BufTy).Contents (Elt Ideal))
    (a6 : (⟨S128, .f32⟩ : BufTy).Contents (Elt Ideal)) : (⟨S10000x128, .f32⟩ : BufTy).Contents (Elt Ideal) :=
  layer128 a1 (Host.dotGeneral (F := Ideal) (φ₁ := .f32) (φ₂ := .f32) dot_S10000x256_S256x128_S10000x128_1_0_0_1_n_n none
    (layer256 a1 (Host.dotGeneral (F := Ideal) (φ₁ := .f32) (φ₂ := .f32) dot_S10000x512_S512x256_S10000x256_1_0_0_1_n_n none a0 a3) a4) a5) a6

/-- The decoded adjacency (the first result). -/
def res_x1 (a0 : (⟨S10000x512, .f32⟩ : BufTy).Contents (Elt Ideal))
    (a1 : (⟨S2x320000, .i32⟩ : BufTy).Contents (Elt Ideal))
    (a3 : (⟨S512x256, .f32⟩ : BufTy).Contents (Elt Ideal))
    (a4 : (⟨S256, .f32⟩ : BufTy).Contents (Elt Ideal))
    (a5 : (⟨S256x128, .f32⟩ : BufTy).Contents (Elt Ideal))
    (a6 : (⟨S128, .f32⟩ : BufTy).Contents (Elt Ideal)) : (⟨S10000x10000, .f32⟩ : BufTy).Contents (Elt Ideal) :=
  decode (res_h a0 a1 a3 a4 a5 a6)

/-! ## The fold at the results and at the arguments -/

set_option maxRecDepth 8192 in
theorem out_h (V : Valuation τ sig (Elt Ideal)) :
    after (ops (F := Ideal)) V (Proc.devRef .tc main_v85) = res_h (V (Proc.devRef .tc main_arg0)) (V (Proc.devRef .tc main_arg1)) (V (Proc.devRef .tc main_arg3)) (V (Proc.devRef .tc main_arg4)) (V (Proc.devRef .tc main_arg5)) (V (Proc.devRef .tc main_arg6)) := by
  rw [ops_after]
  simp (disch := decide) only [stG_v93, stF_v85, stE_v68, stD_v46, stD_v47, stD_v67, stC_v44, stB_v27, stA_v1, stA_v3, stA_v5, stA_v6, stA_v26, stG_keep, stF_keep, stE_keep, stD_keep, stC_keep, stB_keep, stA_keep]
  rfl

set_option maxRecDepth 8192 in
theorem out_x1 (V : Valuation τ sig (Elt Ideal)) :
    after (ops (F := Ideal)) V (Proc.devRef .tc main_v93) = res_x1 (V (Proc.devRef .tc main_arg0)) (V (Proc.devRef .tc main_arg1)) (V (Proc.devRef .tc main_arg3)) (V (Proc.devRef .tc main_arg4)) (V (Proc.devRef .tc main_arg5)) (V (Proc.devRef .tc main_arg6)) := by
  rw [ops_after]
  simp (disch := decide) only [stG_v93, stF_v85, stE_v68, stD_v46, stD_v47, stD_v67, stC_v44, stB_v27, stA_v1, stA_v3, stA_v5, stA_v6, stA_v26, stG_keep, stF_keep, stE_keep, stD_keep, stC_keep, stB_keep, stA_keep]
  rfl

/-- No operation writes an argument. -/
theorem arg_keep (V : Valuation τ sig (Elt Ideal)) (r : Ref sig .tc)
    (h : r ∉ opsA_W ++ opsB_W ++ opsC_W ++ (opsD0_W ++ opsD1_W) ++ opsE_W ++ opsF_W ++ opsG_W) :
    after (ops (F := Ideal)) V (Proc.devRef .tc r) = V (Proc.devRef .tc r) := by
  simp only [List.mem_append, not_or] at h
  obtain ⟨⟨⟨⟨⟨⟨hA, hB⟩, hC⟩, hD0, hD1⟩, hE⟩, hF⟩, hG⟩ := h
  rw [ops_after, stG_keep _ _ hG, stF_keep _ _ hF, stE_keep _ _ hE,
    stD_keep _ _ (by simp only [List.mem_append, not_or]; exact ⟨hD0, hD1⟩), stC_keep _ _ hC, stB_keep _ _ hB, stA_keep _ _ hA]

/-! ## The run -/

/-- On every device, from any memory with zero counters: every weakly fair execution of the reference's @main
    terminates with the two results at `res_x1` and `res_h` of the arguments' launch contents, the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v93) = res_x1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v85) = res_h (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (Cert.ReferenceIdeal.defs (F := Ideal)) _ _).mono
    (fun _ h c => ⟨(h c main_v93).trans (out_x1 _), (h c main_v85).trans (out_h _),
      (h c main_arg0).trans (arg_keep _ _ (by decide)),
      (h c main_arg1).trans (arg_keep _ _ (by decide)),
      (h c main_arg2).trans (arg_keep _ _ (by decide)),
      (h c main_arg3).trans (arg_keep _ _ (by decide)),
      (h c main_arg4).trans (arg_keep _ _ (by decide)),
      (h c main_arg5).trans (arg_keep _ _ (by decide)),
      (h c main_arg6).trans (arg_keep _ _ (by decide))⟩)
    (run_seq scopedRefs_eq scopedSems_eq (Cert.ReferenceIdeal.defs (F := Ideal)) (Cert.ReferenceIdeal.main (F := Ideal)) (fun _ => ops (F := Ideal)) main_eq (fun _ => ops_sub) m ρ
      (fun _ => ops_fresh))

end Cert.ReferenceIdeal.RefRun

end
-- ==== Proof.RefDecode.lean ====
/- The decoder read at an index, at the ideal values: entry `(p, q)` of `1 / (1 + exp (−(h · hᵀ)))` is the logistic
   function of the inner product of rows `p` and `q` of `h`. The product's dimension numbers are the plain ones of an
   `[M, K]` by `[K, N]` product, so it is the sum over the one contracted axis; the transposed operand read at `(k, q)`
   is `h` at `(q, k)`; and the splat `1.0` is the extended real `1`. -/
import proofs.«180572_j29351806501366_1_alg».proof.Proof.RefRun
import proofs.«180572_j29351806501366_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefRun

open Cert.ReferenceIdeal Cert.ReferenceIdeal.Gen Idealize.ShloMosaic Idealize.ShloMosaic.ValueIdx

/-- The word `0x3F800000` is the float `1.0`. -/
theorem ofBits_one_f32 : Ideal.ofBits .f32 0x3F800000#32 = 1 := by
  simp [Ideal.ofBits, Ideal.ieee, -EReal.coe_mul]; norm_num

/-- The reference's dimension numbers for `h · hᵀ` are the plain ones. -/
theorem dot_decode_eq_plain :
    dot_S10000x128_S128x10000_S10000x10000_1_0_0_1_n_n = DotDims.plain 10000 128 10000 := rfl

theorem decode_apply (h : (⟨S10000x128, .f32⟩ : BufTy).Contents (Elt Ideal)) (i : S10000x10000.Idx) :
    decode h i = Ideal.logistic (∑ k : Fin 128, h (ValueIdx.ix2 (⟨(i 0).val, ValueIdx.idx2_lt0 i⟩ : Fin 10000) k) * h (ValueIdx.ix2 (⟨(i 1).val, ValueIdx.idx2_lt1 i⟩ : Fin 10000) k)) := by
  have e1 : decode h i = Ideal.div (Ideal.ofBits .f32 0x3F800000#32) (Ideal.ofBits .f32 0x3F800000#32 + Ideal.exp (-(FloatOps.dotGeneral (F := Ideal) (φ₁ := .f32) (φ₂ := .f32) (DotDims.plain 10000 128 10000) none .single h (transpose S128x10000 [1, 0] h transposes_S10000x128_S128x10000_1_0) i))) := rfl
  rw [e1, ofBits_one_f32, Cert.LibPlainDot.dotGeneral_plain]
  unfold Cert.LibPlainDot.rowsTimes
  have et : ∀ k : Fin 128, transpose S128x10000 [1, 0] h transposes_S10000x128_S128x10000_1_0
      (ix2 k (⟨(i 1).val, idx2_lt1 i⟩ : Fin 10000)) = h (ix2 (⟨(i 1).val, idx2_lt1 i⟩ : Fin 10000) k) :=
    fun k => transpose_ix2_apply (a := 10000) (b := 128) h transposes_S10000x128_S128x10000_1_0 k _
  simp only [et]
  rfl

end Cert.ReferenceIdeal.RefRun

end
-- ==== Proof.Region2Value.lean ====
/- What region 2 leaves in its output array, at the exact values: entry `(r, s)` is the logistic function of the inner
   product of rows `r` and `s` of the hidden matrix the region finds. A grid point's staging block holds, at `(p, q)`,
   the logistic of the inner product of row `p` of its first input block with row `q` of its second; on the part of
   the block inside the array those are rows of the hidden matrix, and the clipped blocks of the hundred points
   cover the array. -/
import proofs.«180572_j29351806501366_1_alg».proof.Proof.Region2Ideal
import proofs.«180572_j29351806501366_1_alg».proof.Proof.LibPlainDot
import proofs.«180572_j29351806501366_1_alg».proof.Proof.RefDecode
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- What the output array ends holding, of a hidden matrix `h`: at `(r, s)` the logistic of the inner product of rows
    `r` and `s`. -/
def G2 (h : S10000x128.Idx → EReal) : S10000x10000.Idx → EReal :=
  fun i => Ideal.logistic (∑ k : Fin 128, h (ix2 (⟨(i 0).val, idx2_lt0 i⟩ : Fin 10000) k) * h (ix2 (⟨(i 1).val, idx2_lt1 i⟩ : Fin 10000) k))

/-- The index maps, decided over the grid: the first input window moves with the output's rows, the second with its
    columns, both stay at column block 0; the point's two coordinates are the output block's indices; and the output
    block ends at the array's end or a block further, whichever comes first. -/
theorem idx_facts2 : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) = t.val / 10 ∧ win2_2.index t (1 : Fin 2) = t.val % 10
    ∧ t.val / 10 * 1024 + win2_2.xsize (grid2.coords t) (0 : Fin 2) = min (t.val / 10 * 1024 + 1024) 10000
    ∧ t.val % 10 * 1024 + win2_2.xsize (grid2.coords t) (1 : Fin 2) = min (t.val % 10 * 1024 + 1024) 10000 :=
  (by decide +kernel : ∀ t : Fin grid2.N, _)

/-- What point `t` writes back — the part of the output block inside the array — is block `t` of `G2` of the hidden
    matrix as the region finds it: the block's row `p` is the hidden matrix's row at the block's row offset plus `p`,
    read through the first input window, and its column `q` likewise through the second. -/
theorem flushed2_eq (c : Dev nD) (t : Fin cfg2.N) :
    (dat2 V c).flushed 2 t = ((cfg2.win 2).blk t).view.read (Elt Ideal) (G2 (V c main_v85)) := by
  show (cfg2.win 2).cut (grid2.coords t) ((dat2 V c).after 2 t) = _
  rw [after2_2]
  obtain ⟨e0, e1, e2, e3, -⟩ := idx_facts2 t
  funext j
  have hp : (j 0).val < 1024 := Nat.lt_of_lt_of_le (j 0).isLt (win2_2.xsize_le (grid2.coords t) 0)
  have hq : (j 1).val < 1024 := Nat.lt_of_lt_of_le (j 1).isLt (win2_2.xsize_le (grid2.coords t) 1)
  have hxy : (win2_2.xinj (grid2.coords t) j : S1024x1024.Idx) = ix2 (⟨(j 0).val, hp⟩ : Fin 1024) (⟨(j 1).val, hq⟩ : Fin 1024) := by
    funext a; match a with | ⟨0, _⟩ => rfl | ⟨1, _⟩ => rfl
  show out2_2 (fblk2_0 V c t) (fblk2_1 V c t) (win2_2.xinj (grid2.coords t) j)
    = G2 (V c main_v85) (((cfg2.win 2).blk t).view.emb j)
  rw [hxy, out2_2_eq, k2_pay1_apply]
  unfold G2
  refine congrArg Ideal.logistic (Finset.sum_congr rfl fun k _ => ?_)
  have hr : (j 0).val < win2_0.xsize (grid2.coords t) 0 := (j 0).isLt
  have hc : (j 1).val < win2_1.xsize (grid2.coords t) 0 := (j 1).isLt
  have h0 : fblk2_0 V c t (ix2 (⟨(j 0).val, hp⟩ : Fin 1024) k)
      = V c main_v85 (ix2 (⟨((((cfg2.win 2).blk t).view.emb j : S10000x10000.Idx) 0).val, idx2_lt0 _⟩ : Fin 10000) k) := by
    let j' : (win2_0.xblock (grid2.coords t)).Idx := fun a => match a with | ⟨0, _⟩ => ⟨(j 0).val, hr⟩ | ⟨1, _⟩ => ⟨k.val, k.isLt⟩
    have hx : (ix2 (⟨(j 0).val, hp⟩ : Fin 1024) k : S1024x128.Idx) = win2_0.xinj (grid2.coords t) j' := by
      funext a; match a with | ⟨0, _⟩ => rfl | ⟨1, _⟩ => rfl
    unfold fblk2_0
    rw [hx, win2_0.fill_xinj]
    show V c main_v85 (((cfg2.win 0).blk t).view.emb j') = V c main_v85 _
    refine congrArg (V c main_v85) (funext fun a => Fin.ext ?_)
    match a with
    | ⟨0, _⟩ => show win2_0.index t (0 : Fin 2) * 1024 + 1 * (j 0).val = win2_2.index t (0 : Fin 2) * 1024 + 1 * (j 0).val; omega
    | ⟨1, _⟩ => show win2_0.index t (1 : Fin 2) * 128 + 1 * k.val = k.val; omega
  have h1 : fblk2_1 V c t (ix2 (⟨(j 1).val, hq⟩ : Fin 1024) k)
      = V c main_v85 (ix2 (⟨((((cfg2.win 2).blk t).view.emb j : S10000x10000.Idx) 1).val, idx2_lt1 _⟩ : Fin 10000) k) := by
    let j' : (win2_1.xblock (grid2.coords t)).Idx := fun a => match a with | ⟨0, _⟩ => ⟨(j 1).val, hc⟩ | ⟨1, _⟩ => ⟨k.val, k.isLt⟩
    have hx : (ix2 (⟨(j 1).val, hq⟩ : Fin 1024) k : S1024x128.Idx) = win2_1.xinj (grid2.coords t) j' := by
      funext a; match a with | ⟨0, _⟩ => rfl | ⟨1, _⟩ => rfl
    unfold fblk2_1
    rw [hx, win2_1.fill_xinj]
    show V c main_v85 (((cfg2.win 1).blk t).view.emb j') = V c main_v85 _
    refine congrArg (V c main_v85) (funext fun a => Fin.ext ?_)
    match a with
    | ⟨0, _⟩ => show win2_1.index t (0 : Fin 2) * 1024 + 1 * (j 1).val = win2_2.index t (1 : Fin 2) * 1024 + 1 * (j 1).val; omega
    | ⟨1, _⟩ => show win2_1.index t (1 : Fin 2) * 128 + 1 * k.val = k.val; omega
  rw [h0, h1]

/-- An index of the output array is in point `t`'s block iff each coordinate is in the range, on its axis, of the
    block's part inside the array. -/
theorem mem_blk2 (t : Fin cfg2.N) (i : S10000x10000.Idx) :
    i ∈ ((cfg2.win 2).blk t).view.set ↔ ∀ a : Fin 2, win2_2.index t a * S1024x1024.size a ≤ (i a).val
      ∧ (i a).val < win2_2.index t a * S1024x1024.size a + win2_2.xsize (grid2.coords t) a := by
  show i ∈ ((View.whole main_v86).slice (win2_2.rect t)).set ↔ _
  rw [View.set_slice_whole, Rect.mem_set_unit]
  exact Iff.rfl

/-- Every element of the output array is in the block of the point whose coordinates are its own divided by 1024: the
    last blocks' parts inside the array end where the array does. -/
theorem cover2 (i : S10000x10000.Idx) :
    ∃ t : Fin cfg2.N, (cfg2.win 2).flush t = true ∧ i ∈ ((cfg2.win 2).blk t).view.set := by
  have hi0 : (i 0).val < 10000 := (i 0).isLt
  have hi1 : (i 1).val < 10000 := (i 1).isLt
  have hN : cfg2.N = 100 := N_2
  let t : Fin cfg2.N := ⟨(i 0).val / 1024 * 10 + (i 1).val / 1024, by rw [hN]; omega⟩
  have htv : t.val = (i 0).val / 1024 * 10 + (i 1).val / 1024 := rfl
  obtain ⟨-, -, -, -, q0, q1, x0, x1⟩ := idx_facts2 t
  refine ⟨t, flush2_2 t, ?_⟩
  rw [mem_blk2]
  intro a
  match a with
  | ⟨0, _⟩ =>
    show win2_2.index t (0 : Fin 2) * 1024 ≤ (i 0).val
      ∧ (i 0).val < win2_2.index t (0 : Fin 2) * 1024 + win2_2.xsize (grid2.coords t) (0 : Fin 2)
    rw [q0]; omega
  | ⟨1, _⟩ =>
    show win2_2.index t (1 : Fin 2) * 1024 ≤ (i 1).val
      ∧ (i 1).val < win2_2.index t (1 : Fin 2) * 1024 + win2_2.xsize (grid2.coords t) (1 : Fin 2)
    rw [q1]; omega

/-- The output array after the region, as a whole: `G2` of the hidden matrix the region finds. -/
theorem arrAt2_eq (c : Dev nD) : (dat2 (F := Ideal) V c).arrAt 2 cfg2.N = G2 (V c main_v85) :=
  (dat2 V c).arrAt_eq_of_cover 2 (G2 (V c main_v85)) (fun t _ => flushed2_eq V c t) cover2

/-- The output array after the region, entry by entry: at `(r, s)` the logistic of the inner product of rows `r` and
    `s` of the hidden matrix as the region finds it. Every element is covered by the block of the point at its
    coordinates divided by 1024, whose cut write-back lands the rows and columns inside the array; the staging rows past
    the array's end are never written back. -/
theorem arrAt2_out (c : Dev nD) (i : S10000x10000.Idx) :
    (dat2 (F := Ideal) V c).arrAt 2 cfg2.N i = G2 (V c main_v85) i :=
  congrFun (arrAt2_eq V c) i

/-- `G2` at an index, spelt out. -/
theorem G2_apply (h : S10000x128.Idx → EReal) (i : S10000x10000.Idx) :
    G2 h i = Ideal.logistic (∑ k : Fin 128, h (ValueIdx.ix2 (⟨(i 0).val, ValueIdx.idx2_lt0 i⟩ : Fin 10000) k)
      * h (ValueIdx.ix2 (⟨(i 1).val, ValueIdx.idx2_lt1 i⟩ : Fin 10000) k)) := rfl

/-- The output array after the region is the reference's decoder of the hidden matrix the region finds: both are, entry
    by entry, the logistic of the inner product of two rows. -/
theorem arrAt2_eq_decode (c : Dev nD) :
    (dat2 (F := Ideal) V c).arrAt 2 cfg2.N = Cert.ReferenceIdeal.RefRun.decode (V c main_v85) := by
  rw [arrAt2_eq]
  funext i
  exact (Cert.ReferenceIdeal.RefRun.decode_apply (V c main_v85) i).symm

end Cert.KernelIdeal.Hand

end
-- ==== Proof.Value0.lean ====
/-
  What region 0 leaves in its product array, at the ideal values: the array of all 10000 by 512 rows times the weight
  matrix, entry (p, q) the sum over k of x(p, k) · w(k, q). A grid point's block of rows of the product depends on
  the same block of rows of the left operand only, and the ten blocks of 1000 rows tile the array.
-/
import proofs.«180572_j29351806501366_1_alg».proof.Proof.Region0
import proofs.«180572_j29351806501366_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.LibPlainDot
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The body's stored value is the product of its two loaded blocks (rounding to the narrow format is the identity
    on the extended reals, and the accumulator is zero). -/
theorem pay0_eq (x0 : Vec Ideal S1000x512 .f32) (x1 : Vec Ideal S512x256 .f32) :
    k0_pay1 x0 x1 = rowsTimes (M := 1000) (K := 512) (N := 256) x0 x1 :=
  matmul_zero_plain (M := 1000) (K := 512) (N := 256) none x0 x1

/-- The product of the whole arrays the region finds. -/
def G0 (c : Dev nD) : S10000x256.Idx → EReal :=
  rowsTimes (M := 10000) (K := 512) (N := 256) (V c main_arg0) (V c main_arg3)

/-- Where each window's block sits, decided over the grid: the row block and the output block at the point's own
    block of rows, the weights always whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The weight window's block is the whole weight matrix at every point. -/
theorem wblk0_eq (c : Dev nD) (t : Fin cfg0.N) : iblk0 V c 1 t = V c main_arg3 := by
  obtain ⟨e0, e1, e2, e3, e4, e5, e6⟩ := idx_facts0 t
  funext y
  show V c main_arg3 (((cfg0.win 1).blk t).view.emb y) = V c main_arg3 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 256 + 1 * (y 1).val = (y 1).val; omega

/-- What point `t` writes back is block `t` of the whole product. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S1000x512) hz0, View.ld_unit_zero (S := S512x256) hz0]
  rw [pay0_eq, wblk0_eq]
  obtain ⟨e0, e1, e2, e3, e4, e5, e6⟩ := idx_facts0 t
  funext j
  show rowsTimes (M := 1000) (K := 512) (N := 256) (iblk0 V c 0 t) (V c main_arg3) j = G0 V c (((cfg0.win 2).blk t).view.emb j)
  unfold G0
  refine rowsTimes_rows (M := 10000) (R := 1000) (K := 512) (N := 256) (t.val * 1000) (V c main_arg0) (iblk0 V c 0 t) (V c main_arg3) (fun y k h => ?_) j _ ?_ ?_
  · show V c main_arg0 (((cfg0.win 0).blk t).view.emb (ix2 y k)) = V c main_arg0 (ix2 (⟨t.val * 1000 + y.val, h⟩ : Fin 10000) k)
    refine congrArg _ (funext fun a => Fin.ext ?_)
    match a with
    | ⟨0, _⟩ => show win0_0.index t (0 : Fin 2) * 1000 + 1 * y.val = t.val * 1000 + y.val; omega
    | ⟨1, _⟩ => show win0_0.index t (1 : Fin 2) * 512 + 1 * k.val = k.val; omega
  · show win0_2.index t (0 : Fin 2) * 1000 + 1 * (j 0).val = t.val * 1000 + (j 0).val; omega
  · show win0_2.index t (1 : Fin 2) * 256 + 1 * (j 1).val = (j 1).val; omega

/-- An index of the array is in point `t`'s block iff each coordinate is in the block's range on its axis. -/
theorem mem_blk0 (t : Fin cfg0.N) (i : S10000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v27).slice (win0_2.rect t)).set ↔ _
  rw [View.set_slice_whole, Rect.mem_set_unit]
  exact Iff.rfl

theorem idx_onto0 : ∀ q : Fin 10, ∃ t : Fin cfg0.N, t.val = q.val :=
  (by decide +kernel : ∀ q : Fin 10, ∃ t : Fin grid0.N, t.val = q.val)

/-- The ten row blocks tile the array. -/
theorem cover0 (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  obtain ⟨t, ht⟩ := idx_onto0 ⟨(i 0).val / 1000, by omega⟩
  have ht' : t.val = (i 0).val / 1000 := ht
  obtain ⟨e0, e1, e2, e3, e4, e5, e6⟩ := idx_facts0 t
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 256 ≤ (i 1).val ∧ (i 1).val < win0_2.index t (1 : Fin 2) * 256 + 256; omega

/-- The product array after the region: the whole product of the arrays the region finds. -/
theorem final0 (c : Dev nD) : (dat0 V c).arrAt 2 cfg0.N = G0 V c :=
  (dat0 V c).arrAt_eq_of_cover 2 (G0 V c) (fun t _ => flushed0_eq V c t) (cover0)

end Cert.KernelIdeal.Hand

end
-- ==== Proof.Value1.lean ====
/-
  What region 1 leaves in its product array, at the ideal values: the array of all 10000 by 256 rows times the weight
  matrix, entry (p, q) the sum over k of x(p, k) · w(k, q). A grid point's block of rows of the product depends on
  the same block of rows of the left operand only, and the ten blocks of 1000 rows tile the array.
-/
import proofs.«180572_j29351806501366_1_alg».proof.Proof.Region1
import proofs.«180572_j29351806501366_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.LibPlainDot
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The body's stored value is the product of its two loaded blocks (rounding to the narrow format is the identity
    on the extended reals, and the accumulator is zero). -/
theorem pay1_eq (x0 : Vec Ideal S1000x256 .f32) (x1 : Vec Ideal S256x128 .f32) :
    k1_pay1 x0 x1 = rowsTimes (M := 1000) (K := 256) (N := 128) x0 x1 := by
  have h := matmul_zero_plain (M := 1000) (K := 256) (N := 128) (φ₁ := .bf16) (φ₂ := .bf16) none x0 x1
  unfold k1_pay1
  rw [shapeCast_self]
  exact h

/-- The product of the whole arrays the region finds. -/
def G1 (c : Dev nD) : S10000x128.Idx → EReal :=
  rowsTimes (M := 10000) (K := 256) (N := 128) (V c main_v44) (V c main_arg5)

/-- Where each window's block sits, decided over the grid: the row block and the output block at the point's own
    block of rows, the weights always whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- The weight window's block is the whole weight matrix at every point. -/
theorem wblk1_eq (c : Dev nD) (t : Fin cfg1.N) : iblk1 V c 1 t = V c main_arg5 := by
  obtain ⟨e0, e1, e2, e3, e4, e5, e6⟩ := idx_facts1 t
  funext y
  show V c main_arg5 (((cfg1.win 1).blk t).view.emb y) = V c main_arg5 y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 128 + 1 * (y 1).val = (y 1).val; omega

/-- What point `t` writes back is block `t` of the whole product. -/
theorem flushed1_eq (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero hz1]
  simp only [View.ld_unit_zero (S := S1000x256) hz1, View.ld_unit_zero (S := S256x128) hz1]
  rw [pay1_eq, wblk1_eq]
  obtain ⟨e0, e1, e2, e3, e4, e5, e6⟩ := idx_facts1 t
  funext j
  show rowsTimes (M := 1000) (K := 256) (N := 128) (iblk1 V c 0 t) (V c main_arg5) j = G1 V c (((cfg1.win 2).blk t).view.emb j)
  unfold G1
  refine rowsTimes_rows (M := 10000) (R := 1000) (K := 256) (N := 128) (t.val * 1000) (V c main_v44) (iblk1 V c 0 t) (V c main_arg5) (fun y k h => ?_) j _ ?_ ?_
  · show V c main_v44 (((cfg1.win 0).blk t).view.emb (ix2 y k)) = V c main_v44 (ix2 (⟨t.val * 1000 + y.val, h⟩ : Fin 10000) k)
    refine congrArg _ (funext fun a => Fin.ext ?_)
    match a with
    | ⟨0, _⟩ => show win1_0.index t (0 : Fin 2) * 1000 + 1 * y.val = t.val * 1000 + y.val; omega
    | ⟨1, _⟩ => show win1_0.index t (1 : Fin 2) * 256 + 1 * k.val = k.val; omega
  · show win1_2.index t (0 : Fin 2) * 1000 + 1 * (j 0).val = t.val * 1000 + (j 0).val; omega
  · show win1_2.index t (1 : Fin 2) * 128 + 1 * (j 1).val = (j 1).val; omega

/-- An index of the array is in point `t`'s block iff each coordinate is in the block's range on its axis. -/
theorem mem_blk1 (t : Fin cfg1.N) (i : S10000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v68).slice (win1_2.rect t)).set ↔ _
  rw [View.set_slice_whole, Rect.mem_set_unit]
  exact Iff.rfl

theorem idx_onto1 : ∀ q : Fin 10, ∃ t : Fin cfg1.N, t.val = q.val :=
  (by decide +kernel : ∀ q : Fin 10, ∃ t : Fin grid1.N, t.val = q.val)

/-- The ten row blocks tile the array. -/
theorem cover1 (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  obtain ⟨t, ht⟩ := idx_onto1 ⟨(i 0).val / 1000, by omega⟩
  have ht' : t.val = (i 0).val / 1000 := ht
  obtain ⟨e0, e1, e2, e3, e4, e5, e6⟩ := idx_facts1 t
  refine ⟨t, flush1_2 t, ?_⟩
  rw [mem_blk1]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 128 ≤ (i 1).val ∧ (i 1).val < win1_2.index t (1 : Fin 2) * 128 + 128; omega

/-- The product array after the region: the whole product of the arrays the region finds. -/
theorem final1 (c : Dev nD) : (dat1 V c).arrAt 2 cfg1.N = G1 V c :=
  (dat1 V c).arrAt_eq_of_cover 2 (G1 V c) (fun t _ => flushed1_eq V c t) (cover1)

end Cert.KernelIdeal.Hand

end
-- ==== Proof.KernelFold.lean ====
/- The kernel program's host stretches read as the reference's stage functions: each stretch is the same operations
   as a stage of the reference, over the kernel program's own buffers, so its fold at the buffer it produces is that
   stage's function of the buffers it reads; a region in between changes its product array only. Hence the first
   layer's output is the reference's first-layer function of the edge table, region 0's product and the bias, and the
   second layer's likewise of region 1's product; and no host operation writes an argument. The reference's shapes and
   dimension records are separate constants from the kernel program's, equal by unfolding (the same literals). -/
import proofs.«180572_j29351806501366_1_alg».proof.Proof.Fold
import proofs.«180572_j29351806501366_1_alg».proof.Proof.RefRun

noncomputable section

namespace Cert.KernelIdeal.Hand

open Cert.KernelIdeal Cert.KernelIdeal.Gen
open Idealize.ShloMosaic Idealize.ShloMosaic.TcCoe Idealize.SL.Sem Idealize.ShloMosaic.StableHlo

section Generic

variable {F : FTy → Type} [FloatOps F]

/-- The leaky rectifier with its slope read from a scalar buffer: `x` where `x ≥ 0`, else `c · x`. -/
def lreluAt256 (x : (⟨S10000x256, .f32⟩ : BufTy).Contents (Elt F)) (c : (⟨S_, .f32⟩ : BufTy).Contents (Elt F)) : (⟨S10000x256, .f32⟩ : BufTy).Contents (Elt F) :=
  select (cmpf .oge x (broadcastInDim S10000x256 ![] bcast_S_S10000x256 (constant (F := F) S_ .f32 0x00000000#32))) x
    (mulf (broadcastInDim S10000x256 ![] bcast_S_S10000x256 (id c)) x)

/-- The same, 128 wide. -/
def lreluAt128 (x : (⟨S10000x128, .f32⟩ : BufTy).Contents (Elt F)) (c : (⟨S_, .f32⟩ : BufTy).Contents (Elt F)) : (⟨S10000x128, .f32⟩ : BufTy).Contents (Elt F) :=
  select (cmpf .oge x (broadcastInDim S10000x128 ![] bcast_S_S10000x128 (constant (F := F) S_ .f32 0x00000000#32))) x
    (mulf (broadcastInDim S10000x128 ![] bcast_S_S10000x128 (id c)) x)

/-- The buffers after the first host stretch (the first layer's graph stage), from contents `V`. -/
def kA (V : Valuation τ sig (Elt F)) : Valuation τ sig (Elt F) := after hostOps0 V
/-- A buffer the stretch does not write keeps its contents. -/
theorem kA_keep (V : Valuation τ sig (Elt F)) (r : Ref sig .tc) (h : r ∉ hostOps0_W) :
    kA V (no_index (Proc.devRef .tc r)) = V (Proc.devRef .tc r) :=
  after_of_writes_sub hostOps0 V hostOps0_writes h

/-- The buffers after the second host stretch (the first layer's aggregation and bias), from contents `V`. -/
def kC (V : Valuation τ sig (Elt F)) : Valuation τ sig (Elt F) := after hostOps1 V
/-- A buffer the stretch does not write keeps its contents. -/
theorem kC_keep (V : Valuation τ sig (Elt F)) (r : Ref sig .tc) (h : r ∉ hostOps1_W) :
    kC V (no_index (Proc.devRef .tc r)) = V (Proc.devRef .tc r) :=
  after_of_writes_sub hostOps1 V hostOps1_writes h

/-- The buffers after the first leaky rectifier, from contents `V`. -/
def kL (V : Valuation τ sig (Elt F)) : Valuation τ sig (Elt F) := after hostOps1_1 V
/-- A buffer the stretch does not write keeps its contents. -/
theorem kL_keep (V : Valuation τ sig (Elt F)) (r : Ref sig .tc) (h : r ∉ hostOps1_1_W) :
    kL V (no_index (Proc.devRef .tc r)) = V (Proc.devRef .tc r) :=
  after_of_writes_sub hostOps1_1 V hostOps1_1_writes h

/-- The buffers after the second layer's graph stage, from contents `V`. -/
def kD (V : Valuation τ sig (Elt F)) : Valuation τ sig (Elt F) := after hostOps1_2 V
/-- A buffer the stretch does not write keeps its contents. -/
theorem kD_keep (V : Valuation τ sig (Elt F)) (r : Ref sig .tc) (h : r ∉ hostOps1_2_W) :
    kD V (no_index (Proc.devRef .tc r)) = V (Proc.devRef .tc r) :=
  after_of_writes_sub hostOps1_2 V hostOps1_2_writes h

/-- The buffers after the second layer's aggregation and bias, from contents `V`. -/
def kF (V : Valuation τ sig (Elt F)) : Valuation τ sig (Elt F) := after hostOps2 V
/-- A buffer the stretch does not write keeps its contents. -/
theorem kF_keep (V : Valuation τ sig (Elt F)) (r : Ref sig .tc) (h : r ∉ hostOps2_W) :
    kF V (no_index (Proc.devRef .tc r)) = V (Proc.devRef .tc r) :=
  after_of_writes_sub hostOps2 V hostOps2_writes h

/-- The buffers after the second leaky rectifier, from contents `V`. -/
def kM (V : Valuation τ sig (Elt F)) : Valuation τ sig (Elt F) := after hostOps2_1 V
/-- A buffer the stretch does not write keeps its contents. -/
theorem kM_keep (V : Valuation τ sig (Elt F)) (r : Ref sig .tc) (h : r ∉ hostOps2_1_W) :
    kM V (no_index (Proc.devRef .tc r)) = V (Proc.devRef .tc r) :=
  after_of_writes_sub hostOps2_1 V hostOps2_1_writes h

set_option maxRecDepth 8192 in
set_option maxHeartbeats 2000000 in
theorem kA_v1 (V : Valuation τ sig (Elt F)) :
    kA V (no_index (Proc.devRef .tc main_v1)) = Cert.ReferenceIdeal.RefRun.row0 (F := F) (V (Proc.devRef .tc main_arg1)) := by
  unfold kA
  simp only [hostOps0]
  after_results_simp
  all_goals rfl

set_option maxRecDepth 8192 in
set_option maxHeartbeats 2000000 in
theorem kA_v3 (V : Valuation τ sig (Elt F)) :
    kA V (no_index (Proc.devRef .tc main_v3)) = Cert.ReferenceIdeal.RefRun.row1 (F := F) (V (Proc.devRef .tc main_arg1)) := by
  unfold kA
  simp only [hostOps0]
  after_results_simp
  all_goals rfl

set_option maxRecDepth 8192 in
set_option maxHeartbeats 2000000 in
theorem kA_v5 (V : Valuation τ sig (Elt F)) :
    kA V (no_index (Proc.devRef .tc main_v5)) = Cert.ReferenceIdeal.RefRun.withLoops (F := F) (Cert.ReferenceIdeal.RefRun.row0 (F := F) (V (Proc.devRef .tc main_arg1))) := by
  unfold kA
  simp only [hostOps0]
  after_results_simp
  all_goals rfl

set_option maxRecDepth 8192 in
set_option maxHeartbeats 2000000 in
theorem kA_v6 (V : Valuation τ sig (Elt F)) :
    kA V (no_index (Proc.devRef .tc main_v6)) = Cert.ReferenceIdeal.RefRun.withLoops (F := F) (Cert.ReferenceIdeal.RefRun.row1 (F := F) (V (Proc.devRef .tc main_arg1))) := by
  unfold kA
  simp only [hostOps0]
  after_results_simp
  all_goals rfl

set_option maxRecDepth 8192 in
set_option maxHeartbeats 2000000 in
theorem kA_v26 (V : Valuation τ sig (Elt F)) :
    kA V (no_index (Proc.devRef .tc main_v26)) = Cert.ReferenceIdeal.RefRun.norm (F := F) (Cert.ReferenceIdeal.RefRun.withLoops (F := F) (Cert.ReferenceIdeal.RefRun.row0 (F := F) (V (Proc.devRef .tc main_arg1)))) (Cert.ReferenceIdeal.RefRun.withLoops (F := F) (Cert.ReferenceIdeal.RefRun.row1 (F := F) (V (Proc.devRef .tc main_arg1)))) := by
  unfold kA
  simp only [hostOps0]
  after_results_simp
  all_goals rfl

set_option maxRecDepth 8192 in
set_option maxHeartbeats 2000000 in
theorem kC_v43 (V : Valuation τ sig (Elt F)) :
    kC V (no_index (Proc.devRef .tc main_v43)) = Cert.ReferenceIdeal.RefRun.pre256 (F := F) (V (Proc.devRef .tc main_v5)) (V (Proc.devRef .tc main_v6)) (V (Proc.devRef .tc main_v26)) (V (Proc.devRef .tc main_v27)) (V (Proc.devRef .tc main_arg4)) := by
  unfold kC
  simp only [hostOps1]
  after_results_simp
  all_goals rfl

set_option maxRecDepth 8192 in
set_option maxHeartbeats 2000000 in
theorem kC_cst_7 (V : Valuation τ sig (Elt F)) :
    kC V (no_index (Proc.devRef .tc main_cst_7)) = constant (F := F) S_ .f32 0x3C23D70A#32 := by
  unfold kC
  simp only [hostOps1]
  after_results_simp
  all_goals rfl

set_option maxRecDepth 8192 in
set_option maxHeartbeats 2000000 in
theorem kL_v44 (V : Valuation τ sig (Elt F)) :
    kL V (no_index (Proc.devRef .tc main_v44)) = lreluAt256 (F := F) (V (Proc.devRef .tc main_v43)) (V (Proc.devRef .tc main_cst_7)) := by
  unfold kL
  simp only [hostOps1_1]
  after_results_simp
  all_goals rfl

set_option maxRecDepth 8192 in
set_option maxHeartbeats 2000000 in
theorem kD_v46 (V : Valuation τ sig (Elt F)) :
    kD V (no_index (Proc.devRef .tc main_v46)) = Cert.ReferenceIdeal.RefRun.withLoops (F := F) (V (Proc.devRef .tc main_v1)) := by
  unfold kD
  simp only [hostOps1_2]
  after_results_simp
  all_goals rfl

set_option maxRecDepth 8192 in
set_option maxHeartbeats 2000000 in
theorem kD_v47 (V : Valuation τ sig (Elt F)) :
    kD V (no_index (Proc.devRef .tc main_v47)) = Cert.ReferenceIdeal.RefRun.withLoops (F := F) (V (Proc.devRef .tc main_v3)) := by
  unfold kD
  simp only [hostOps1_2]
  after_results_simp
  all_goals rfl

set_option maxRecDepth 8192 in
set_option maxHeartbeats 2000000 in
theorem kD_v67 (V : Valuation τ sig (Elt F)) :
    kD V (no_index (Proc.devRef .tc main_v67)) = Cert.ReferenceIdeal.RefRun.norm (F := F) (Cert.ReferenceIdeal.RefRun.withLoops (F := F) (V (Proc.devRef .tc main_v1))) (Cert.ReferenceIdeal.RefRun.withLoops (F := F) (V (Proc.devRef .tc main_v3))) := by
  unfold kD
  simp only [hostOps1_2]
  after_results_simp
  all_goals rfl

set_option maxRecDepth 8192 in
set_option maxHeartbeats 2000000 in
theorem kF_v84 (V : Valuation τ sig (Elt F)) :
    kF V (no_index (Proc.devRef .tc main_v84)) = Cert.ReferenceIdeal.RefRun.pre128 (F := F) (V (Proc.devRef .tc main_v46)) (V (Proc.devRef .tc main_v47)) (V (Proc.devRef .tc main_v67)) (V (Proc.devRef .tc main_v68)) (V (Proc.devRef .tc main_arg6)) := by
  unfold kF
  simp only [hostOps2]
  after_results_simp
  all_goals rfl

set_option maxRecDepth 8192 in
set_option maxHeartbeats 2000000 in
theorem kF_cst_17 (V : Valuation τ sig (Elt F)) :
    kF V (no_index (Proc.devRef .tc main_cst_17)) = constant (F := F) S_ .f32 0x3C23D70A#32 := by
  unfold kF
  simp only [hostOps2]
  after_results_simp
  all_goals rfl

set_option maxRecDepth 8192 in
set_option maxHeartbeats 2000000 in
theorem kM_v85 (V : Valuation τ sig (Elt F)) :
    kM V (no_index (Proc.devRef .tc main_v85)) = lreluAt128 (F := F) (V (Proc.devRef .tc main_v84)) (V (Proc.devRef .tc main_cst_17)) := by
  unfold kM
  simp only [hostOps2_1]
  after_results_simp
  all_goals rfl

/-- The reference's leaky rectifier is this one at the slope `0.01`'s word. -/
theorem lrelu256_eq (x : (⟨S10000x256, .f32⟩ : BufTy).Contents (Elt F)) :
    Cert.ReferenceIdeal.RefRun.lrelu256 (F := F) x = lreluAt256 (F := F) x (constant (F := F) S_ .f32 0x3C23D70A#32) := rfl
theorem lrelu128_eq (x : (⟨S10000x128, .f32⟩ : BufTy).Contents (Elt F)) :
    Cert.ReferenceIdeal.RefRun.lrelu128 (F := F) x = lreluAt128 (F := F) x (constant (F := F) S_ .f32 0x3C23D70A#32) := rfl

variable (m : (ℓ : Loc nD τ sig) → Buf (Elt F) ℓ)

/-- The contents through the stretches, as the stretches' folds. -/
theorem W1_eq (c : Dev nD) : W1 m c = kA (W0 m c) := rfl
theorem W5_eq (c : Dev nD) : W5 m c = kD (kL (kC (W2 m c))) := rfl
theorem W8_eq (c : Dev nD) : W8 m c = kM (kF (W6 m c)) := rfl

/-- Region 0 changes its product array only. -/
theorem W2_keep (c : Dev nD) (b : Ref sig .tc) (hb : b ≠ main_v27) :
    W2 m c (no_index (Proc.devRef .tc b)) = kA (W0 m c) (Proc.devRef .tc b) := W2_of_ne m c b hb
/-- Region 1 changes its product array only. -/
theorem W6_keep (c : Dev nD) (b : Ref sig .tc) (hb : b ≠ main_v68) :
    W6 m c (no_index (Proc.devRef .tc b)) = kD (kL (kC (W2 m c))) (Proc.devRef .tc b) := W6_of_ne m c b hb

end Generic

/-! ## At the ideal values -/

variable (m : (ℓ : Loc nD τ sig) → Buf (Elt Ideal) ℓ)

set_option maxRecDepth 8192 in
/-- The first layer's output at region 1's entry: the reference's first-layer function of the edge table, region 0's
    product and the bias. -/
theorem fold_v44 (c : Dev nD) :
    W5 m c (Proc.devRef .tc main_v44) = Cert.ReferenceIdeal.RefRun.layer256 (m ((c : Thread nD τ).loc main_arg1)) (W2 m c (Proc.devRef .tc main_v27)) (m ((c : Thread nD τ).loc main_arg4)) := by
  rw [W5_eq]
  simp (disch := decide) only [kD_keep, kL_v44, kC_v43, kC_cst_7, W2_keep, kA_v5, kA_v6, kA_v26, kA_keep]
  rfl

set_option maxRecDepth 8192 in
/-- The second layer's output at region 2's entry: the reference's second-layer function of the edge table, region 1's
    product and the bias. -/
theorem fold_v85 (c : Dev nD) :
    W8 m c (Proc.devRef .tc main_v85) = Cert.ReferenceIdeal.RefRun.layer128 (m ((c : Thread nD τ).loc main_arg1)) (W6 m c (Proc.devRef .tc main_v68)) (m ((c : Thread nD τ).loc main_arg6)) := by
  rw [W8_eq]
  simp (disch := decide) only [kM_v85, kF_v84, kF_cst_17, W6_keep, kD_v46, kD_v47, kD_v67, kD_keep, kL_keep, kC_keep, W2_keep, kA_v1, kA_v3, kA_keep]
  rfl

/-- No host operation writes an argument. -/
theorem fold_arg0 (c : Dev nD) : W1 m c (Proc.devRef .tc main_arg0) = m ((c : Thread nD τ).loc main_arg0) :=
  after_of_writes_sub hostOps0 _ hostOps0_writes (by decide)
theorem fold_arg3 (c : Dev nD) : W1 m c (Proc.devRef .tc main_arg3) = m ((c : Thread nD τ).loc main_arg3) :=
  after_of_writes_sub hostOps0 _ hostOps0_writes (by decide)
theorem fold_arg5 (c : Dev nD) : W5 m c (Proc.devRef .tc main_arg5) = m ((c : Thread nD τ).loc main_arg5) := by
  rw [W5_eq]
  simp (disch := decide) only [kD_keep, kL_keep, kC_keep, W2_keep, kA_keep]

end Cert.KernelIdeal.Hand

end
-- ==== Proof.Bridge.lean ====
/-
  The two programs compute one function. The kernel program's product arrays are the plain matrix products of what
  their regions find (entry (p, q) the sum over k of x(p, k) · w(k, q)), which is what the reference's
  dot_general computes on the extended reals; every host operation between the products is the same operation in both
  programs; and the decode region's block of logistic(h hᵀ) is the reference's 1 / (1 + exp(−(h hᵀ))) entry by entry,
  the logistic function being that expression on every extended real. So the hidden array h and the decoded array
  end equal, index by index.
-/
import proofs.«180572_j29351806501366_1_alg».proof.Proof.Run
import proofs.«180572_j29351806501366_1_alg».proof.Proof.RunR
import proofs.«180572_j29351806501366_1_alg».proof.Proof.Region2Ideal
import proofs.«180572_j29351806501366_1_alg».proof.Proof.Region2Value
import proofs.«180572_j29351806501366_1_alg».proof.Proof.Value0
import proofs.«180572_j29351806501366_1_alg».proof.Proof.Value1
import proofs.«180572_j29351806501366_1_alg».proof.Proof.KernelFold
import proofs.«180572_j29351806501366_1_alg».proof.Proof.RefDecode
import proofs.«180572_j29351806501366_1_alg».proof.Proof.RefRun
import proofs.«180572_j29351806501366_1_alg».proof.Proof.LibPlainDot

set_option maxRecDepth 16384

noncomputable section

namespace Cert.KernelIdeal.Hand

open Cert.KernelIdeal Cert.KernelIdeal.Gen Cert.LibPlainDot
open Idealize.ShloMosaic Idealize.ShloMosaic.TcCoe Idealize.ShloMosaic.ValueIdx
open Idealize.SL Idealize.SL.Sem
open Cert.ReferenceIdeal.RefRun (layer256 layer128 decode res_h res_x1 decode_apply)

variable (m : (ℓ : Loc nD τ sig) → Buf (Elt Ideal) ℓ)

/-- The reference's two dot_generals are plain matrix products. -/
theorem ref_dot1 (l : FVec Ideal ⟨2, ![10000, 512]⟩ .f32) (r : FVec Ideal ⟨2, ![512, 256]⟩ .f32) :
    Host.dotGeneral Cert.ReferenceIdeal.dot_S10000x512_S512x256_S10000x256_1_0_0_1_n_n none l r = rowsTimes (M := 10000) (K := 512) (N := 256) l r :=
  dotGeneral_plain (M := 10000) (K := 512) (N := 256) none _ l r
theorem ref_dot2 (l : FVec Ideal ⟨2, ![10000, 256]⟩ .f32) (r : FVec Ideal ⟨2, ![256, 128]⟩ .f32) :
    Host.dotGeneral Cert.ReferenceIdeal.dot_S10000x256_S256x128_S10000x128_1_0_0_1_n_n none l r = rowsTimes (M := 10000) (K := 256) (N := 128) l r :=
  dotGeneral_plain (M := 10000) (K := 256) (N := 128) none _ l r

/-- The reference's hidden array with its two products read as plain matrix products. -/
theorem res_h_eq (a0 a1 a3 a4 a5 a6) :
    res_h a0 a1 a3 a4 a5 a6 = layer128 a1 (rowsTimes (M := 10000) (K := 256) (N := 128) (layer256 a1 (rowsTimes (M := 10000) (K := 512) (N := 256) a0 a3) a4) a5) a6 := by
  unfold res_h
  rw [ref_dot1, ref_dot2]

/-- Region 0 leaves the product of the first two arguments it multiplies. -/
theorem W2_v27 (c : Dev nD) : W2 m c (Proc.devRef .tc main_v27)
    = rowsTimes (M := 10000) (K := 512) (N := 256) (m ((c : Thread nD τ).loc main_arg0)) (m ((c : Thread nD τ).loc main_arg3)) := by
  rw [W2_out, final0]
  show rowsTimes (M := 10000) (K := 512) (N := 256) (W1 m c (Proc.devRef .tc main_arg0)) (W1 m c (Proc.devRef .tc main_arg3)) = _
  rw [fold_arg0, fold_arg3]

/-- Region 1 leaves the product of the first layer's output and the second weight matrix. -/
theorem W6_v68 (c : Dev nD) : W6 m c (Proc.devRef .tc main_v68)
    = rowsTimes (M := 10000) (K := 256) (N := 128) (layer256 (m ((c : Thread nD τ).loc main_arg1)) (rowsTimes (M := 10000) (K := 512) (N := 256) (m ((c : Thread nD τ).loc main_arg0)) (m ((c : Thread nD τ).loc main_arg3))) (m ((c : Thread nD τ).loc main_arg4)))
        (m ((c : Thread nD τ).loc main_arg5)) := by
  rw [W6_out, final1]
  show rowsTimes (M := 10000) (K := 256) (N := 128) (W5 m c (Proc.devRef .tc main_v44)) (W5 m c (Proc.devRef .tc main_arg5)) = _
  rw [fold_v44, fold_arg5, W2_v27]

/-- The hidden array the decode region is entered with is the reference's. -/
theorem W8_v85 (c : Dev nD) : W8 m c (Proc.devRef .tc main_v85)
    = res_h (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  rw [fold_v85, W6_v68, res_h_eq]

/-- The decoded array is the reference's: the clipped blocks of logistic(h hᵀ) tile the array, and the hidden array the
    region reads is the reference's. -/
theorem W9_v86 (c : Dev nD) : W9 m c (Proc.devRef .tc main_v86)
    = res_x1 (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  rw [W9_out, arrAt2_eq_decode]
  show decode (W8 m c (Proc.devRef .tc main_v85)) = _
  rw [W8_v85]
  rfl

end Cert.KernelIdeal.Hand

end
-- ==== Proof.lean ====
/-
  The certificate of a two-layer graph convolution with a dense sigmoid decode, h = leaky_relu(Â (x W) + b) twice and
  x1 = sigmoid(h hᵀ), whose three matrix products run as tiled kernel regions and whose gathers, scatter-adds and
  normalisation run as host operations, against the same computation written with dot_general.

  Frames: each program runs to the end from any memory and leaves its seven argument arrays as launched. The two
  kernel programs are runs of nine segments (six host stretches, three regions); a region's rows-block matrix product
  is run once on arbitrary whole staging buffers, and the decode region — whose last blocks overhang the arrays and
  whose two input windows read one array — is entered with that array's ownership split between the windows. At the
  word level nothing is said of what the decode region writes, since a matrix product over a staging block with
  arbitrary overhanging rows is not determined by the rows inside the array there; on the extended reals it is.

  Values: on the extended reals a matrix product into a zero accumulator and a dot_general are the same sums, a
  block of rows of a product is the product of that block of rows, the blocks tile the arrays (the clipped
  write-backs land exactly the entries inside), the host operations between the products are the same in both
  programs, and logistic(z) is 1 / (1 + exp(−z)) for every extended real z. No law used needs finiteness, so the
  precondition is never opened.
-/
import proofs.«180572_j29351806501366_1_alg».proof.Defs
import proofs.«180572_j29351806501366_1_alg».proof.Proof.Gen.Kernel
import proofs.«180572_j29351806501366_1_alg».proof.Proof.Gen.KernelIdeal
import proofs.«180572_j29351806501366_1_alg».proof.Proof.Gen.ReferenceIdeal
import proofs.«180572_j29351806501366_1_alg».proof.Proof.Gen.Pre_finite_inputs
import proofs.«180572_j29351806501366_1_alg».proof.Proof.KRunR
import proofs.«180572_j29351806501366_1_alg».proof.Proof.Bridge
import Idealize.ShloMosaic.Adequacy
import Idealize.ShloMosaic.Init

noncomputable section

namespace Cert.Proof

open Idealize.ShloMosaic Idealize.ShloMosaic.TcCoe Idealize.SL.Sem
open Cert.ReferenceIdeal.RefRun (res_h res_x1)

/-- The word-level program runs and keeps its arguments. -/
theorem frame_k : Cert.frame_Kernel := fun m ρ _ => Cert.Kernel.Hand.frameR m ρ

/-- So does the idealized program. -/
theorem frame_ki : Cert.frame_KernelIdeal := fun m ρ _ => Cert.KernelIdeal.Hand.frameR m ρ

/-- The reference runs and keeps its arguments: its run with the results dropped. -/
theorem frame_ri : Cert.frame_ReferenceIdeal := fun m ρ _ =>
  (θ_run (Cert.ReferenceIdeal.defs (F := Ideal)) _ _).mono (fun _ h c => (h c).2.2) (Cert.ReferenceIdeal.RefRun.run m ρ)

/-- From memories agreeing on the arguments both programs end with the reference's two result functions of the
    arguments: the kernel program by its exact run and the bridge, the reference by its run. -/
theorem algebraic : Cert.algebraic_KernelIdeal_ReferenceIdeal := by
  intro m ρ m' ρ' _ hagree
  refine ⟨fun c => res_x1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => res_h (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run (Cert.KernelIdeal.defs (F := Ideal)) _ _).mono (fun r h c => ⟨?_, ?_, ?_, ?_, ?_, ?_, ?_, ?_, ?_⟩)
      (Cert.KernelIdeal.Hand.run_all m (fun V c => Cert.KernelIdeal.Hand.body_obligation2 V c) ρ)
    · exact (h c _ (Cert.KernelIdeal.Hand.mem_uc Cert.KernelIdeal.main_v86 (by decide))).trans (Cert.KernelIdeal.Hand.W9_v86 m c)
    · exact (h c _ (Cert.KernelIdeal.Hand.mem_uc Cert.KernelIdeal.main_v85 (by decide))).trans
        ((Cert.KernelIdeal.Hand.W9_of_ne m c Cert.KernelIdeal.main_v85 (by decide)).trans (Cert.KernelIdeal.Hand.W8_v85 m c))
    · exact (h c _ (Cert.KernelIdeal.Hand.mem_uc Cert.KernelIdeal.main_arg0 (by decide))).trans ((Cert.KernelIdeal.Hand.W9_of_ne m c Cert.KernelIdeal.main_arg0 (by decide)).trans (Cert.KernelIdeal.Hand.W8_arg m c Cert.KernelIdeal.main_arg0 (by decide) (by decide) (by decide) (by decide) (by decide) (by decide) (by decide) (by decide)))
    · exact (h c _ (Cert.KernelIdeal.Hand.mem_uc Cert.KernelIdeal.main_arg1 (by decide))).trans ((Cert.KernelIdeal.Hand.W9_of_ne m c Cert.KernelIdeal.main_arg1 (by decide)).trans (Cert.KernelIdeal.Hand.W8_arg m c Cert.KernelIdeal.main_arg1 (by decide) (by decide) (by decide) (by decide) (by decide) (by decide) (by decide) (by decide)))
    · exact (h c _ (Cert.KernelIdeal.Hand.mem_uc Cert.KernelIdeal.main_arg2 (by decide))).trans ((Cert.KernelIdeal.Hand.W9_of_ne m c Cert.KernelIdeal.main_arg2 (by decide)).trans (Cert.KernelIdeal.Hand.W8_arg m c Cert.KernelIdeal.main_arg2 (by decide) (by decide) (by decide) (by decide) (by decide) (by decide) (by decide) (by decide)))
    · exact (h c _ (Cert.KernelIdeal.Hand.mem_uc Cert.KernelIdeal.main_arg3 (by decide))).trans ((Cert.KernelIdeal.Hand.W9_of_ne m c Cert.KernelIdeal.main_arg3 (by decide)).trans (Cert.KernelIdeal.Hand.W8_arg m c Cert.KernelIdeal.main_arg3 (by decide) (by decide) (by decide) (by decide) (by decide) (by decide) (by decide) (by decide)))
    · exact (h c _ (Cert.KernelIdeal.Hand.mem_uc Cert.KernelIdeal.main_arg4 (by decide))).trans ((Cert.KernelIdeal.Hand.W9_of_ne m c Cert.KernelIdeal.main_arg4 (by decide)).trans (Cert.KernelIdeal.Hand.W8_arg m c Cert.KernelIdeal.main_arg4 (by decide) (by decide) (by decide) (by decide) (by decide) (by decide) (by decide) (by decide)))
    · exact (h c _ (Cert.KernelIdeal.Hand.mem_uc Cert.KernelIdeal.main_arg5 (by decide))).trans ((Cert.KernelIdeal.Hand.W9_of_ne m c Cert.KernelIdeal.main_arg5 (by decide)).trans (Cert.KernelIdeal.Hand.W8_arg m c Cert.KernelIdeal.main_arg5 (by decide) (by decide) (by decide) (by decide) (by decide) (by decide) (by decide) (by decide)))
    · exact (h c _ (Cert.KernelIdeal.Hand.mem_uc Cert.KernelIdeal.main_arg6 (by decide))).trans ((Cert.KernelIdeal.Hand.W9_of_ne m c Cert.KernelIdeal.main_arg6 (by decide)).trans (Cert.KernelIdeal.Hand.W8_arg m c Cert.KernelIdeal.main_arg6 (by decide) (by decide) (by decide) (by decide) (by decide) (by decide) (by decide) (by decide)))
  · refine (θ_run (Cert.ReferenceIdeal.defs (F := Ideal)) _ _).mono (fun r h c => ⟨?_, ?_, (h c).2.2⟩)
      (Cert.ReferenceIdeal.RefRun.run m' ρ')
    · rw [(h c).1, (hagree c).1, (hagree c).2.1, (hagree c).2.2.2.1, (hagree c).2.2.2.2.1, (hagree c).2.2.2.2.2.1, (hagree c).2.2.2.2.2.2]
    · rw [(h c).2.1, (hagree c).1, (hagree c).2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
